-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x128 : Shape := ⟨3, ![4, 4096, 128]⟩
abbrev S_ : Shape := ⟨0, ![]⟩

class Facts : Prop where
  bcast_S_S4x4096x128 : S_.BroadcastsInDim S4x4096x128 (![] : Fin 0 → Fin S4x4096x128.rank)
  reducesTo_S4x4096x128_S_d0_1_2 : S4x4096x128.ReducesTo [0, 1, 2] S_
  h_S_ : 0 < S_.numel

variable [Facts]

def fn {F : FTy → Type} [FloatOps F] (main_arg0 : FVec F S4x4096x128 .f32) : IVec S_ 1 :=
  let main_v0 : FVec F S4x4096x128 .f32 := Host.absf main_arg0
  let main_cst : FVec F S_ .f32 := constant S_ .f32 0x7F800000#32
  let main_v1 : FVec F S4x4096x128 .f32 := broadcastInDim S4x4096x128 ![] bcast_S_S4x4096x128 main_cst
  let main_v2 : IVec S4x4096x128 1 := cmpf .olt main_v0 main_v1
  let main_c : IVec S_ 1 := constantI S_ 1 1#1
  let main_v3 : IVec S_ 1 := (fun x v => Host.reduce IntOp.andi x v reducesTo_S4x4096x128_S_d0_1_2 h_S_) main_v2 main_c
  main_v3
-- ==== Kernel.lean ====
abbrev S4x4096x128 : Shape := ⟨3, ![4, 4096, 128]⟩
abbrev S1x1024x128 : Shape := ⟨3, ![1, 1024, 128]⟩
abbrev S1x1024x1 : Shape := ⟨3, ![1, 1024, 1]⟩
abbrev S1x1024x1024 : Shape := ⟨3, ![1, 1024, 1024]⟩
abbrev S1x1024 : Shape := ⟨2, ![1, 1024]⟩

abbrev nBuf : Space → Nat
  | .hbm => 3
  | .vmem => 9
  | .smem => 0
  | _ => 0

abbrev bufTy : (tb : Table) → Fin (tcTables nBuf tb) → BufTy
  | .hbm, ⟨0, _⟩ => ⟨S4x4096x128, .f32⟩
  | .hbm, ⟨1, _⟩ => ⟨S4x4096x128, .bf16⟩
  | .hbm, ⟨2, _⟩ => ⟨S4x4096x128, .f32⟩
  | .local _ .vmem, ⟨0, _⟩ => ⟨S1x1024x128, .bf16⟩
  | .local _ .vmem, ⟨1, _⟩ => ⟨S1x1024x128, .bf16⟩
  | .local _ .vmem, ⟨2, _⟩ => ⟨S1x1024x128, .bf16⟩
  | .local _ .vmem, ⟨3, _⟩ => ⟨S1x1024x128, .bf16⟩
  | .local _ .vmem, ⟨4, _⟩ => ⟨S1x1024x128, .f32⟩
  | .local _ .vmem, ⟨5, _⟩ => ⟨S1x1024x128, .f32⟩
  | .local _ .vmem, ⟨6, _⟩ => ⟨S1x1024x1, .f32⟩
  | .local _ .vmem, ⟨7, _⟩ => ⟨S1x1024x1, .f32⟩
  | .local _ .vmem, ⟨8, _⟩ => ⟨S1x1024x128, .f32⟩
  | _, _ => ⟨S4x4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 4], ![false, false, false]⟩

def k0_cond2 (i : grid0.Coords) : BitVec 1 :=
  let arg2 : BitVec 32 := BitVec.ofNat 32 (i 2).val
  let c3_i32 : BitVec 32 := 3#32
  let v37 : BitVec 1 := Scalar.cmpi .eq arg2 c3_i32
  let v38 : BitVec 32 := Scalar.extui v37
  let c0_i32_27 : BitVec 32 := 0#32
  let v39 : BitVec 1 := Scalar.cmpi .ne v38 c0_i32_27
  v39

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x1024x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

class Facts₀ : Prop where
  bitsLt_bf16_f32 : FTy.bits .bf16 < FTy.bits .f32
  inb_S1x1024x1_S1x1024x1_0_0_0 : ∀ a, (![0, 0, 0] : Fin 3 → Nat) a + S1x1024x1.size a ≤ S1x1024x1.size a
  h_S1x1024x1 : 0 < S1x1024x1.numel
  shapeCasts_S1x1024x1_S1x1024x1 : S1x1024x1.ShapeCasts S1x1024x1
  inb_S1x1024x128_S1x1024x128_0_0_0 : ∀ a, (![0, 0, 0] : Fin 3 → Nat) a + S1x1024x128.size a ≤ S1x1024x128.size a
  h_S1x1024x128 : 0 < S1x1024x128.numel
  shapeCasts_S1x1024x128_S1x1024x128 : S1x1024x128.ShapeCasts S1x1024x128
  reduces_S1x1024x1024_S1x1024 : S1x1024x1024.Reduces [2] S1x1024
  shapeCasts_S1x1024_S1x1024x1 : S1x1024.ShapeCasts S1x1024x1
  broadcasts_S1x1024x1_S1x1024x1024 : S1x1024x1.Broadcasts S1x1024x1024
  broadcasts_S1x1024x1_S1x1024x128 : S1x1024x1.Broadcasts S1x1024x128
  dot_S1x1024x128_S1x1024x128_S1x1024x1024_2_2_1_1_0_0_wf : DotDims.WF S1x1024x128 S1x1024x128 S1x1024x1024 [2] [2] [1] [1] [0] [0]
  dot_S1x1024x1024_S1x1024x128_S1x1024x128_2_1_1_2_0_0_wf : DotDims.WF S1x1024x1024 S1x1024x128 S1x1024x128 [2] [1] [1] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x128.size a ≤ S4x4096x128.size a
  hwx0_0 : ∀ i : grid0.Coords, EltTy.bits .bf16 = 32 ∨ (Rect.block (s := S4x4096x128) S1x1024x128.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x128.size a ≤ S4x4096x128.size a
  hwx0_1 : ∀ i : grid0.Coords, EltTy.bits .bf16 = 32 ∨ (Rect.block (s := S4x4096x128) S1x1024x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024x128.size a ≤ S4x4096x128.size a
  hwx0_2 : ∀ i : grid0.Coords, EltTy.bits .f32 = 32 ∨ (Rect.block (s := S4x4096x128) S1x1024x128.size (cc0_transform_2 i) (hinb0_2 i)).WholeWords (EltTy.packing .f32)

variable [Facts₀]

def dot_S1x1024x128_S1x1024x128_S1x1024x1024_2_2_1_1_0_0 : DotDims S1x1024x128 S1x1024x128 S1x1024x1024 where
  lhsContracting := [2]
  rhsContracting := [2]
  lhsNonContracting := [1]
  rhsNonContracting := [1]
  lhsBatch := [0]
  rhsBatch := [0]
  wf := dot_S1x1024x128_S1x1024x128_S1x1024x1024_2_2_1_1_0_0_wf
def dot_S1x1024x1024_S1x1024x128_S1x1024x128_2_1_1_2_0_0 : DotDims S1x1024x1024 S1x1024x128 S1x1024x128 where
  lhsContracting := [2]
  rhsContracting := [1]
  lhsNonContracting := [1]
  rhsNonContracting := [2]
  lhsBatch := [0]
  rhsBatch := [0]
  wf := dot_S1x1024x1024_S1x1024x128_S1x1024x128_2_1_1_2_0_0_wf

abbrev win0_0 : Pipeline.Window sig grid0 :=
  Pipeline.Window.ofSpec (Memref.whole main_v0) S1x1024x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x1024x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x1024x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S4x4096x128 : Shape := ⟨3, ![4, 4096, 128]⟩
abbrev S4x4096x4096 : Shape := ⟨3, ![4, 4096, 4096]⟩
abbrev S_ : Shape := ⟨0, ![]⟩
abbrev S4x4096 : Shape := ⟨2, ![4, 4096]⟩
abbrev S4x4096x1 : Shape := ⟨3, ![4, 4096, 1]⟩

abbrev nBuf : Space → Nat
  | .hbm => 17
  | .vmem => 0
  | .smem => 0
  | _ => 0

abbrev bufTy : (tb : Table) → Fin (tcTables nBuf tb) → BufTy
  | .hbm, ⟨0, _⟩ => ⟨S4x4096x128, .f32⟩
  | .hbm, ⟨1, _⟩ => ⟨S4x4096x4096, .f32⟩
  | .hbm, ⟨2, _⟩ => ⟨S_, .f32⟩
  | .hbm, ⟨3, _⟩ => ⟨S4x4096, .f32⟩
  | .hbm, ⟨4, _⟩ => ⟨S_, .f32⟩
  | .hbm, ⟨5, _⟩ => ⟨S4x4096, .f32⟩
  | .hbm, ⟨6, _⟩ => ⟨S4x4096, .f32⟩
  | .hbm, ⟨7, _⟩ => ⟨S4x4096x1, .f32⟩
  | .hbm, ⟨8, _⟩ => ⟨S4x4096x4096, .f32⟩
  | .hbm, ⟨9, _⟩ => ⟨S4x4096x4096, .f32⟩
  | .hbm, ⟨10, _⟩ => ⟨S4x4096x4096, .f32⟩
  | .hbm, ⟨11, _⟩ => ⟨S_, .f32⟩
  | .hbm, ⟨12, _⟩ => ⟨S4x4096, .f32⟩
  | .hbm, ⟨13, _⟩ => ⟨S4x4096x1, .f32⟩
  | .hbm, ⟨14, _⟩ => ⟨S4x4096x4096, .f32⟩
  | .hbm, ⟨15, _⟩ => ⟨S4x4096x4096, .f32⟩
  | .hbm, ⟨16, _⟩ => ⟨S4x4096x128, .f32⟩
  | _, _ => ⟨S4x4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_cst_0 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst_1 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩

abbrev nD : Nat := 1
abbrev τ : Topo := Topo.v7x

variable {F : FTy → Type} [FloatOps F]

class Facts₀ : Prop where
  reducesTo_S4x4096x4096_S4x4096_d2 : S4x4096x4096.ReducesTo [2] S4x4096
  h_S_ : 0 < S_.numel
  bcast_S_S4x4096 : S_.BroadcastsInDim S4x4096 (![] : Fin 0 → Fin S4x4096.rank)
  bcast_S4x4096_S4x4096x1_0_1 : S4x4096.BroadcastsInDim S4x4096x1 (![0, 1] : Fin 2 → Fin S4x4096x1.rank)
  bcast_S4x4096x1_S4x4096x4096_0_1_2 : S4x4096x1.BroadcastsInDim S4x4096x4096 (![0, 1, 2] : Fin 3 → Fin S4x4096x4096.rank)
  dot_S4x4096x128_S4x4096x128_S4x4096x4096_2_2_1_1_0_0_wf : DotDims.WF S4x4096x128 S4x4096x128 S4x4096x4096 [2] [2] [1] [1] [0] [0]
  dot_S4x4096x4096_S4x4096x128_S4x4096x128_2_1_1_2_0_0_wf : DotDims.WF S4x4096x4096 S4x4096x128 S4x4096x128 [2] [1] [1] [2] [0] [0]

variable [Facts₀]

def dot_S4x4096x128_S4x4096x128_S4x4096x4096_2_2_1_1_0_0 : DotDims S4x4096x128 S4x4096x128 S4x4096x4096 where
  lhsContracting := [2]
  rhsContracting := [2]
  lhsNonContracting := [1]
  rhsNonContracting := [1]
  lhsBatch := [0]
  rhsBatch := [0]
  wf := dot_S4x4096x128_S4x4096x128_S4x4096x4096_2_2_1_1_0_0_wf
def dot_S4x4096x4096_S4x4096x128_S4x4096x128_2_1_1_2_0_0 : DotDims S4x4096x4096 S4x4096x128 S4x4096x128 where
  lhsContracting := [2]
  rhsContracting := [1]
  lhsNonContracting := [1]
  rhsNonContracting := [2]
  lhsBatch := [0]
  rhsBatch := [0]
  wf := dot_S4x4096x4096_S4x4096x128_S4x4096x128_2_1_1_2_0_0_wf

class Facts : Prop extends Facts₀ where

variable [Facts]
-- ==== Proof.KShared.lean ====
import proofs.«145749_j17008070492702_2_alg».proof.Proof.Gen.Kernel.Launch
import proofs.«145749_j17008070492702_2_alg».proof.Proof.Gen.Kernel.Skeleton
import proofs.«145749_j17008070492702_2_alg».proof.Proof.Gen.Kernel.Points
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.Kernel.Flash

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-!
  What the three runs of the attention kernel's body share: the arrays as the region finds them (the bf16 copy of the
  input written by the host line before the call), each window's block at a grid point, the two conditions of the body
  (first key block: reset the running maximum, denominator and numerator; last key block: divide and store) in closed
  form over the 64 grid points, where the output window is idle, and the staging and scratch memrefs.
-/

/-- The buffers of core `c` when the region is entered: after the one host line (the change of format of the input). -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

/-- @main is the host line, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- The host line writes its own result only: the argument array is found as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.unary_writes, Finset.mem_singleton]
    exact StableHlo.devRef_ne_of_ne (by decide)))

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The query window's staging buffer holds the query block at every point (fetched when the query tile changes, kept
    in between: the body only reads it). -/
theorem before_q_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The key/value window's staging buffer holds the key block at every point. -/
theorem before_kv_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The body's two conditions -/

/-- "This is the first key block": the reset of the running statistics. -/
abbrev condFirst (i : grid0.Coords) : Prop := (Scalar.cmpi .ne (Scalar.extui (Scalar.cmpi .eq (BitVec.ofNat 32 (i 2).val) 0#32)) 0#32) = 1#1
theorem hcondFirst : ∀ t : Fin cfg0.N, condFirst (grid0.coords t) ↔ t.val % 4 = 0 :=
  (by decide +kernel : ∀ t : Fin grid0.N, condFirst (grid0.coords t) ↔ t.val % 4 = 0)

/-- "This is the last key block": the division and the store of the output tile. -/
abbrev condLast (i : grid0.Coords) : Prop := k0_cond2 i = 1#1
theorem hcondLast : ∀ t : Fin cfg0.N, condLast (grid0.coords t) ↔ t.val % 4 = 3 :=
  (by decide +kernel : ∀ t : Fin grid0.N, condLast (grid0.coords t) ↔ t.val % 4 = 3)

/-! ## Where the windows are idle -/

theorem live_q : ∀ t : Fin cfg0.N, cfg0.idle 0 (grid0.coords t) = false := by decide +kernel
theorem live_kv : ∀ t : Fin cfg0.N, cfg0.idle 1 (grid0.coords t) = false := by decide +kernel
/-- Before the last key block nothing is stored into the output tile, and it is not written back. -/
theorem idle_o : ∀ t : Fin cfg0.N, ¬condLast (grid0.coords t) → cfg0.idle 2 (grid0.coords t) = true := by decide +kernel
theorem noFlush_o : ∀ t : Fin cfg0.N, ¬condLast (grid0.coords t) → (cfg0.win 2).flush t = false := by decide +kernel
theorem live_o : ∀ t : Fin cfg0.N, condLast (grid0.coords t) → cfg0.idle 2 (grid0.coords t) = false := by decide +kernel

/-! ## The memrefs the body is called with -/

abbrev VO : View sig .tc .vmem S1x1024x128 .f32 := (Memref.whole cc0_stg2_0 : Memref sig .tc .vmem S1x1024x128 .f32).view
abbrev msQ (t : Fin cfg0.N) : Memref sig .tc .vmem S1x1024x128 .bf16 := win0_0.stage (cfg0.slots t 0)
abbrev hsQ (t : Fin cfg0.N) : (msQ t).IsWhole := hstage0_0 ((cfg0.slots t 0).cast nbuf0_0)
abbrev msK (t : Fin cfg0.N) : Memref sig .tc .vmem S1x1024x128 .bf16 := win0_1.stage (cfg0.slots t 1)
abbrev hsK (t : Fin cfg0.N) : (msK t).IsWhole := hstage0_1 ((cfg0.slots t 1).cast nbuf0_1)
abbrev msO (t : Fin cfg0.N) : Memref sig .tc .vmem S1x1024x128 .f32 := win0_2.stage (cfg0.slots t 2)
abbrev hsO (t : Fin cfg0.N) : (msO t).IsWhole := hstage0_2 ((cfg0.slots t 2).cast nbuf0_2)
/-- The running maximum, the running denominator and the running numerator: whole scratch buffers. -/
abbrev scM : Memref sig .tc .vmem S1x1024x1 .f32 := Memref.whole cc0_scratch0
abbrev scL : Memref sig .tc .vmem S1x1024x1 .f32 := Memref.whole cc0_scratch1
abbrev scA : Memref sig .tc .vmem S1x1024x128 .f32 := Memref.whole cc0_scratch2
abbrev VM : View sig .tc .vmem S1x1024x1 .f32 := scM.view
abbrev VL : View sig .tc .vmem S1x1024x1 .f32 := scL.view
abbrev VA : View sig .tc .vmem S1x1024x128 .f32 := scA.view

/-- The class invariant with the three scratch buffers as memrefs owned at some contents. -/
theorem PhiA_eq (c : Dev nD) :
    (Pipeline.ΦA spec0 c : sProp 𝕄)
      = iprop(iprop((∃ d, owns (c : Thread nD τ) scM fullShare d) ∗ (∃ d, owns (c : Thread nD τ) scL fullShare d) ∗ (∃ d, owns (c : Thread nD τ) scA fullShare d)) ∗ (∃ r, prngReg c r)) := by
  unfold Pipeline.ΦA; rw [scopedRest0_eq]; simp only [scM, scL, scA, owns_whole]; try rfl

end Cert.Kernel.Flash

end
-- ==== Proof.KRunFirst.lean ====
import proofs.«145749_j17008070492702_2_alg».proof.Proof.KShared

set_option maxRecDepth 16384

noncomputable section

namespace Cert.Kernel.Flash

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-!
  The body at the FIRST key block of a query tile: the running maximum is reset to −∞ and the running denominator
  and numerator to zero, whatever the scratch buffers held; then the update of a middle block. The output tile is not
  touched.
-/

set_option maxHeartbeats 4000000 in
noncomputable def runFirst (c : Dev nD) (i : grid0.Coords) (arg3 : Memref sig .tc .vmem S1x1024x128 .bf16) (harg3 : arg3.IsWhole) (arg4 : Memref sig .tc .vmem S1x1024x128 .bf16) (harg4 : arg4.IsWhole) (arg5 : Memref sig .tc .vmem S1x1024x128 .f32) (harg5 : arg5.IsWhole) (arg6 : Memref sig .tc .vmem S1x1024x1 .f32) (harg6 : arg6.IsWhole) (arg7 : Memref sig .tc .vmem S1x1024x1 .f32) (harg7 : arg7.IsWhole) (arg8 : Memref sig .tc .vmem S1x1024x128 .f32) (harg8 : arg8.IsWhole) (hc0 : condFirst i) (hc1 : ¬condLast i)
    (x0 x1 : Vec F S1x1024x128 .bf16) :
    Σ' (LM : List (View.Piece (Elt F) S1x1024x1 .f32)) (LL : List (View.Piece (Elt F) S1x1024x1 .f32)), { LA : List (View.Piece (Elt F) S1x1024x128 .f32) //
      ∀ (xo : Vec F S1x1024x128 .f32) (E : Set ℕ) (K : PUnit → sProp 𝕄),
        iprop(owns (c : Thread nD τ) arg3 fullShare x0 ∗ owns (c : Thread nD τ) arg4 fullShare x1 ∗ owns (c : Thread nD τ) arg5 fullShare xo ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg3 fullShare x0 ∗ owns (c : Thread nD τ) arg4 fullShare x1 ∗ owns (c : Thread nD τ) arg5 fullShare xo ∗ (∃ f, arg6.view.loc (c : Thread nD τ) ↦[arg6.view.set]{fullShare} arg6.view.writes (Elt F) f LM) ∗ (∃ f, arg7.view.loc (c : Thread nD τ) ↦[arg7.view.set]{fullShare} arg7.view.writes (Elt F) f LL) ∗ (∃ f, arg8.view.loc (c : Thread nD τ) ↦[arg8.view.set]{fullShare} arg8.view.writes (Elt F) f LA)) -∗ K ⟨⟩))
          ⊢ wp frame (wpE (defs₀ (F := F)) Variants.none c none) E (cc0__flash_kernel i arg3 harg3 arg4 harg4 arg5 harg5 arg6 harg6 arg7 harg7 arg8 harg8) K } := by
  refine ⟨?_, ?_, ?_, fun xo E K => ?run⟩
  case run =>
    simp only [cc0__flash_kernel_eq_skeleton]; unfold cc0__flash_kernel_skel
    simp only [k0_part1_eq_skeleton]; unfold k0_part1_skel
    unfold owns
    iintro ⟨⟨%f0, %hf0, H0⟩, ⟨%f1, %hf1, H1⟩, ⟨%f2, %hf2, H2⟩, ⟨%dm, %fm, -, HM⟩, ⟨%dl, %fl, -, HL⟩, ⟨%da, %fa, -, HA⟩, Hk⟩
    obtain rfl := harg3.eq_unread hf0; obtain rfl := harg4.eq_unread hf1; obtain rfl := harg5.eq_unread hf2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [HM]; · iexists _; iexact HM
    isplitl [HL]; · iexists _; iexact HL
    iexists _; iexact HA

end Cert.Kernel.Flash

end
-- ==== Proof.KRunMid.lean ====
import proofs.«145749_j17008070492702_2_alg».proof.Proof.KShared

set_option maxRecDepth 16384

noncomputable section

namespace Cert.Kernel.Flash

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-!
  The body at a MIDDLE key block (neither the first nor the last): it reads the query and key blocks and the three
  running statistics, and stores the updated statistics; the output tile is not touched. The pieces each scratch buffer
  ends with are found by running the body symbolically.
-/

set_option maxHeartbeats 4000000 in
noncomputable def runMid (c : Dev nD) (i : grid0.Coords) (arg3 : Memref sig .tc .vmem S1x1024x128 .bf16) (harg3 : arg3.IsWhole) (arg4 : Memref sig .tc .vmem S1x1024x128 .bf16) (harg4 : arg4.IsWhole) (arg5 : Memref sig .tc .vmem S1x1024x128 .f32) (harg5 : arg5.IsWhole) (arg6 : Memref sig .tc .vmem S1x1024x1 .f32) (harg6 : arg6.IsWhole) (arg7 : Memref sig .tc .vmem S1x1024x1 .f32) (harg7 : arg7.IsWhole) (arg8 : Memref sig .tc .vmem S1x1024x128 .f32) (harg8 : arg8.IsWhole) (hc0 : ¬condFirst i) (hc1 : ¬condLast i)
    (x0 x1 : Vec F S1x1024x128 .bf16) (xm xl : Vec F S1x1024x1 .f32) (xa : Vec F S1x1024x128 .f32) :
    Σ' (LM : List (View.Piece (Elt F) S1x1024x1 .f32)) (LL : List (View.Piece (Elt F) S1x1024x1 .f32)), { LA : List (View.Piece (Elt F) S1x1024x128 .f32) //
      ∀ (xo : Vec F S1x1024x128 .f32) (E : Set ℕ) (K : PUnit → sProp 𝕄),
        iprop(owns (c : Thread nD τ) arg3 fullShare x0 ∗ owns (c : Thread nD τ) arg4 fullShare x1 ∗ owns (c : Thread nD τ) arg5 fullShare xo ∗ owns (c : Thread nD τ) arg6 fullShare xm ∗ owns (c : Thread nD τ) arg7 fullShare xl ∗ owns (c : Thread nD τ) arg8 fullShare xa
            ∗ (iprop(owns (c : Thread nD τ) arg3 fullShare x0 ∗ owns (c : Thread nD τ) arg4 fullShare x1 ∗ owns (c : Thread nD τ) arg5 fullShare xo ∗ (∃ f, arg6.view.loc (c : Thread nD τ) ↦[arg6.view.set]{fullShare} arg6.view.writes (Elt F) f LM) ∗ (∃ f, arg7.view.loc (c : Thread nD τ) ↦[arg7.view.set]{fullShare} arg7.view.writes (Elt F) f LL) ∗ (∃ f, arg8.view.loc (c : Thread nD τ) ↦[arg8.view.set]{fullShare} arg8.view.writes (Elt F) f LA)) -∗ K ⟨⟩))
          ⊢ wp frame (wpE (defs₀ (F := F)) Variants.none c none) E (cc0__flash_kernel i arg3 harg3 arg4 harg4 arg5 harg5 arg6 harg6 arg7 harg7 arg8 harg8) K } := by
  refine ⟨?_, ?_, ?_, fun xo E K => ?run⟩
  case run =>
    simp only [cc0__flash_kernel_eq_skeleton]; unfold cc0__flash_kernel_skel
    simp only [k0_part1_eq_skeleton]; unfold k0_part1_skel
    unfold owns
    iintro ⟨⟨%f0, %hf0, H0⟩, ⟨%f1, %hf1, H1⟩, ⟨%f2, %hf2, H2⟩, ⟨%fm, %hfm, HM⟩, ⟨%fl, %hfl, HL⟩, ⟨%fa, %hfa, HA⟩, Hk⟩
    obtain rfl := harg3.eq_unread hf0; obtain rfl := harg4.eq_unread hf1; obtain rfl := harg5.eq_unread hf2
    obtain rfl := harg6.eq_unread hfm; obtain rfl := harg7.eq_unread hfl; obtain rfl := harg8.eq_unread hfa
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [HM]; · iexists _; iexact HM
    isplitl [HL]; · iexists _; iexact HL
    iexists _; iexact HA

end Cert.Kernel.Flash

end
-- ==== Proof.KRunLast.lean ====
import proofs.«145749_j17008070492702_2_alg».proof.Proof.KShared

set_option maxRecDepth 16384

noncomputable section

namespace Cert.Kernel.Flash

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-!
  The body at the LAST key block of a query tile: the update of a middle block, then the numerator divided by the
  denominator, row by row, stored over the whole output tile.
-/

set_option maxHeartbeats 4000000 in
noncomputable def runLast (c : Dev nD) (i : grid0.Coords) (arg3 : Memref sig .tc .vmem S1x1024x128 .bf16) (harg3 : arg3.IsWhole) (arg4 : Memref sig .tc .vmem S1x1024x128 .bf16) (harg4 : arg4.IsWhole) (arg5 : Memref sig .tc .vmem S1x1024x128 .f32) (harg5 : arg5.IsWhole) (arg6 : Memref sig .tc .vmem S1x1024x1 .f32) (harg6 : arg6.IsWhole) (arg7 : Memref sig .tc .vmem S1x1024x1 .f32) (harg7 : arg7.IsWhole) (arg8 : Memref sig .tc .vmem S1x1024x128 .f32) (harg8 : arg8.IsWhole) (hc0 : ¬condFirst i) (hc1 : condLast i)
    (x0 x1 : Vec F S1x1024x128 .bf16) (xm xl : Vec F S1x1024x1 .f32) (xa : Vec F S1x1024x128 .f32) :
    Σ' (LO : List (View.Piece (Elt F) S1x1024x128 .f32)) (LM : List (View.Piece (Elt F) S1x1024x1 .f32)) (LL : List (View.Piece (Elt F) S1x1024x1 .f32)), { LA : List (View.Piece (Elt F) S1x1024x128 .f32) //
      ∀ (E : Set ℕ) (K : PUnit → sProp 𝕄),
        iprop(owns (c : Thread nD τ) arg3 fullShare x0 ∗ owns (c : Thread nD τ) arg4 fullShare x1 ∗ (∃ d, owns (c : Thread nD τ) arg5 fullShare d) ∗ owns (c : Thread nD τ) arg6 fullShare xm ∗ owns (c : Thread nD τ) arg7 fullShare xl ∗ owns (c : Thread nD τ) arg8 fullShare xa
            ∗ (iprop(owns (c : Thread nD τ) arg3 fullShare x0 ∗ owns (c : Thread nD τ) arg4 fullShare x1 ∗ (∃ f, arg5.view.loc (c : Thread nD τ) ↦[arg5.view.set]{fullShare} arg5.view.writes (Elt F) f LO) ∗ (∃ f, arg6.view.loc (c : Thread nD τ) ↦[arg6.view.set]{fullShare} arg6.view.writes (Elt F) f LM) ∗ (∃ f, arg7.view.loc (c : Thread nD τ) ↦[arg7.view.set]{fullShare} arg7.view.writes (Elt F) f LL) ∗ (∃ f, arg8.view.loc (c : Thread nD τ) ↦[arg8.view.set]{fullShare} arg8.view.writes (Elt F) f LA)) -∗ K ⟨⟩))
          ⊢ wp frame (wpE (defs₀ (F := F)) Variants.none c none) E (cc0__flash_kernel i arg3 harg3 arg4 harg4 arg5 harg5 arg6 harg6 arg7 harg7 arg8 harg8) K } := by
  refine ⟨?_, ?_, ?_, ?_, fun E K => ?run⟩
  case run =>
    simp only [cc0__flash_kernel_eq_skeleton]; unfold cc0__flash_kernel_skel
    simp only [k0_part1_eq_skeleton]; unfold k0_part1_skel
    unfold owns
    iintro ⟨⟨%f0, %hf0, H0⟩, ⟨%f1, %hf1, H1⟩, ⟨%d2, %f2, -, H2⟩, ⟨%fm, %hfm, HM⟩, ⟨%fl, %hfl, HL⟩, ⟨%fa, %hfa, HA⟩, Hk⟩
    obtain rfl := harg3.eq_unread hf0; obtain rfl := harg4.eq_unread hf1
    obtain rfl := harg6.eq_unread hfm; obtain rfl := harg7.eq_unread hfl; obtain rfl := harg8.eq_unread hfa
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]; · iexists _; iexact H2
    isplitl [HM]; · iexists _; iexact HM
    isplitl [HL]; · iexists _; iexact HL
    iexists _; iexact HA

end Cert.Kernel.Flash

end
-- ==== Proof.KFrame.lean ====
import proofs.«145749_j17008070492702_2_alg».proof.Proof.KRunFirst
import proofs.«145749_j17008070492702_2_alg».proof.Proof.KRunMid
import proofs.«145749_j17008070492702_2_alg».proof.Proof.KRunLast

set_option maxRecDepth 16384

noncomputable section

namespace Cert.Kernel.Flash

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-!
  The frame run of the attention kernel and what its output array holds afterwards.

  The grid has 64 points `t = 16·b + 4·qi + ki`: batch, query tile, key block. At each point the body updates three
  running statistics of the query tile's 1024 rows, kept in scratch from one key block to the next: the maximum of the
  scores seen so far, the sum of their shifted exponentials, and the sum of the shifted exponentials times the value
  rows. At `ki = 0` they are reset first; at `ki = 3` the last is divided by the second and stored into the output
  tile, which is then written back. Here: what the scratch buffers and the output tile hold after each point, by
  recursion on the point; the invariant that carries the scratch contents; the body obligation by the three runs; and
  the launch, where the query window and the key window read ONE array, each through half of its share.
-/

/-- After a point: the output tile's staging buffer, the running maximum, the running denominator, the running numerator. -/
abbrev St (F : FTy → Type) [FloatOps F] : Type := Vec F S1x1024x128 .f32 × Vec F S1x1024x1 .f32 × Vec F S1x1024x1 .f32 × Vec F S1x1024x128 .f32

/-! ## What each case leaves -/

theorem coverFirstM (c : Dev nD) (t : Fin cfg0.N) (hc0 : condFirst (grid0.coords t)) (hc1 : ¬condLast (grid0.coords t)) (x0 x1) (y : S1x1024x1.Idx) :
    ∃ pc ∈ (runFirst (F := F) c (grid0.coords t) (msQ t) (hsQ t) (msK t) (hsK t) (msO t) (hsO t) scM (Memref.isWhole_whole _) scL (Memref.isWhole_whole _) scA (Memref.isWhole_whole _) hc0 hc1 x0 x1).1, y ∈ pc.1.set :=
  View.cover_of_tiledL _ S1x1024x1.size (by sl_kernel_rfl) y
theorem coverFirstL (c : Dev nD) (t : Fin cfg0.N) (hc0 : condFirst (grid0.coords t)) (hc1 : ¬condLast (grid0.coords t)) (x0 x1) (y : S1x1024x1.Idx) :
    ∃ pc ∈ (runFirst (F := F) c (grid0.coords t) (msQ t) (hsQ t) (msK t) (hsK t) (msO t) (hsO t) scM (Memref.isWhole_whole _) scL (Memref.isWhole_whole _) scA (Memref.isWhole_whole _) hc0 hc1 x0 x1).2.1, y ∈ pc.1.set :=
  View.cover_of_tiledL _ S1x1024x1.size (by sl_kernel_rfl) y
theorem coverFirstA (c : Dev nD) (t : Fin cfg0.N) (hc0 : condFirst (grid0.coords t)) (hc1 : ¬condLast (grid0.coords t)) (x0 x1) (y : S1x1024x128.Idx) :
    ∃ pc ∈ (runFirst (F := F) c (grid0.coords t) (msQ t) (hsQ t) (msK t) (hsK t) (msO t) (hsO t) scM (Memref.isWhole_whole _) scL (Memref.isWhole_whole _) scA (Memref.isWhole_whole _) hc0 hc1 x0 x1).2.2.1, y ∈ pc.1.set :=
  View.cover_of_tiledL _ S1x1024x128.size (by sl_kernel_rfl) y

theorem coverMidM (c : Dev nD) (t : Fin cfg0.N) (hc0 : ¬condFirst (grid0.coords t)) (hc1 : ¬condLast (grid0.coords t)) (x0 x1 xm xl xa) (y : S1x1024x1.Idx) :
    ∃ pc ∈ (runMid (F := F) c (grid0.coords t) (msQ t) (hsQ t) (msK t) (hsK t) (msO t) (hsO t) scM (Memref.isWhole_whole _) scL (Memref.isWhole_whole _) scA (Memref.isWhole_whole _) hc0 hc1 x0 x1 xm xl xa).1, y ∈ pc.1.set :=
  View.cover_of_tiledL _ S1x1024x1.size (by sl_kernel_rfl) y
theorem coverMidL (c : Dev nD) (t : Fin cfg0.N) (hc0 : ¬condFirst (grid0.coords t)) (hc1 : ¬condLast (grid0.coords t)) (x0 x1 xm xl xa) (y : S1x1024x1.Idx) :
    ∃ pc ∈ (runMid (F := F) c (grid0.coords t) (msQ t) (hsQ t) (msK t) (hsK t) (msO t) (hsO t) scM (Memref.isWhole_whole _) scL (Memref.isWhole_whole _) scA (Memref.isWhole_whole _) hc0 hc1 x0 x1 xm xl xa).2.1, y ∈ pc.1.set :=
  View.cover_of_tiledL _ S1x1024x1.size (by sl_kernel_rfl) y
theorem coverMidA (c : Dev nD) (t : Fin cfg0.N) (hc0 : ¬condFirst (grid0.coords t)) (hc1 : ¬condLast (grid0.coords t)) (x0 x1 xm xl xa) (y : S1x1024x128.Idx) :
    ∃ pc ∈ (runMid (F := F) c (grid0.coords t) (msQ t) (hsQ t) (msK t) (hsK t) (msO t) (hsO t) scM (Memref.isWhole_whole _) scL (Memref.isWhole_whole _) scA (Memref.isWhole_whole _) hc0 hc1 x0 x1 xm xl xa).2.2.1, y ∈ pc.1.set :=
  View.cover_of_tiledL _ S1x1024x128.size (by sl_kernel_rfl) y

theorem coverLastO (c : Dev nD) (t : Fin cfg0.N) (hc0 : ¬condFirst (grid0.coords t)) (hc1 : condLast (grid0.coords t)) (x0 x1 xm xl xa) (y : S1x1024x128.Idx) :
    ∃ pc ∈ (runLast (F := F) c (grid0.coords t) (msQ t) (hsQ t) (msK t) (hsK t) (msO t) (hsO t) scM (Memref.isWhole_whole _) scL (Memref.isWhole_whole _) scA (Memref.isWhole_whole _) hc0 hc1 x0 x1 xm xl xa).1, y ∈ pc.1.set :=
  View.cover_of_tiledL _ S1x1024x128.size (by sl_kernel_rfl) y
theorem coverLastM (c : Dev nD) (t : Fin cfg0.N) (hc0 : ¬condFirst (grid0.coords t)) (hc1 : condLast (grid0.coords t)) (x0 x1 xm xl xa) (y : S1x1024x1.Idx) :
    ∃ pc ∈ (runLast (F := F) c (grid0.coords t) (msQ t) (hsQ t) (msK t) (hsK t) (msO t) (hsO t) scM (Memref.isWhole_whole _) scL (Memref.isWhole_whole _) scA (Memref.isWhole_whole _) hc0 hc1 x0 x1 xm xl xa).2.1, y ∈ pc.1.set :=
  View.cover_of_tiledL _ S1x1024x1.size (by sl_kernel_rfl) y
theorem coverLastL (c : Dev nD) (t : Fin cfg0.N) (hc0 : ¬condFirst (grid0.coords t)) (hc1 : condLast (grid0.coords t)) (x0 x1 xm xl xa) (y : S1x1024x1.Idx) :
    ∃ pc ∈ (runLast (F := F) c (grid0.coords t) (msQ t) (hsQ t) (msK t) (hsK t) (msO t) (hsO t) scM (Memref.isWhole_whole _) scL (Memref.isWhole_whole _) scA (Memref.isWhole_whole _) hc0 hc1 x0 x1 xm xl xa).2.2.1, y ∈ pc.1.set :=
  View.cover_of_tiledL _ S1x1024x1.size (by sl_kernel_rfl) y
theorem coverLastA (c : Dev nD) (t : Fin cfg0.N) (hc0 : ¬condFirst (grid0.coords t)) (hc1 : condLast (grid0.coords t)) (x0 x1 xm xl xa) (y : S1x1024x128.Idx) :
    ∃ pc ∈ (runLast (F := F) c (grid0.coords t) (msQ t) (hsQ t) (msK t) (hsK t) (msO t) (hsO t) scM (Memref.isWhole_whole _) scL (Memref.isWhole_whole _) scA (Memref.isWhole_whole _) hc0 hc1 x0 x1 xm xl xa).2.2.2.1, y ∈ pc.1.set :=
  View.cover_of_tiledL _ S1x1024x128.size (by sl_kernel_rfl) y

/-- After a first key block: the statistics of that block alone (the output tile is idle: a placeholder nothing reads). -/
def stFirst (c : Dev nD) (t : Fin cfg0.N) (h0 : t.val % 4 = 0) (h1 : ¬t.val % 4 = 3) : St F :=
  (VO.read (Elt F) VO.junk,
   VM.read (Elt F) (VM.writes (Elt F) VM.junk (runFirst c (grid0.coords t) (msQ t) (hsQ t) (msK t) (hsK t) (msO t) (hsO t) scM (Memref.isWhole_whole _) scL (Memref.isWhole_whole _) scA (Memref.isWhole_whole _) ((hcondFirst t).mpr h0) (fun h => h1 ((hcondLast t).mp h)) (iblk m c 0 t) (iblk m c 1 t)).1),
   VL.read (Elt F) (VL.writes (Elt F) VL.junk (runFirst c (grid0.coords t) (msQ t) (hsQ t) (msK t) (hsK t) (msO t) (hsO t) scM (Memref.isWhole_whole _) scL (Memref.isWhole_whole _) scA (Memref.isWhole_whole _) ((hcondFirst t).mpr h0) (fun h => h1 ((hcondLast t).mp h)) (iblk m c 0 t) (iblk m c 1 t)).2.1),
   VA.read (Elt F) (VA.writes (Elt F) VA.junk (runFirst c (grid0.coords t) (msQ t) (hsQ t) (msK t) (hsK t) (msO t) (hsO t) scM (Memref.isWhole_whole _) scL (Memref.isWhole_whole _) scA (Memref.isWhole_whole _) ((hcondFirst t).mpr h0) (fun h => h1 ((hcondLast t).mp h)) (iblk m c 0 t) (iblk m c 1 t)).2.2.1))

/-- After a middle key block: the statistics updated from what the block before left. -/
def stMid (c : Dev nD) (t : Fin cfg0.N) (h0 : ¬t.val % 4 = 0) (h1 : ¬t.val % 4 = 3) (p : St F) : St F :=
  (VO.read (Elt F) VO.junk,
   VM.read (Elt F) (VM.writes (Elt F) VM.junk (runMid c (grid0.coords t) (msQ t) (hsQ t) (msK t) (hsK t) (msO t) (hsO t) scM (Memref.isWhole_whole _) scL (Memref.isWhole_whole _) scA (Memref.isWhole_whole _) (fun h => h0 ((hcondFirst t).mp h)) (fun h => h1 ((hcondLast t).mp h)) (iblk m c 0 t) (iblk m c 1 t) p.2.1 p.2.2.1 p.2.2.2).1),
   VL.read (Elt F) (VL.writes (Elt F) VL.junk (runMid c (grid0.coords t) (msQ t) (hsQ t) (msK t) (hsK t) (msO t) (hsO t) scM (Memref.isWhole_whole _) scL (Memref.isWhole_whole _) scA (Memref.isWhole_whole _) (fun h => h0 ((hcondFirst t).mp h)) (fun h => h1 ((hcondLast t).mp h)) (iblk m c 0 t) (iblk m c 1 t) p.2.1 p.2.2.1 p.2.2.2).2.1),
   VA.read (Elt F) (VA.writes (Elt F) VA.junk (runMid c (grid0.coords t) (msQ t) (hsQ t) (msK t) (hsK t) (msO t) (hsO t) scM (Memref.isWhole_whole _) scL (Memref.isWhole_whole _) scA (Memref.isWhole_whole _) (fun h => h0 ((hcondFirst t).mp h)) (fun h => h1 ((hcondLast t).mp h)) (iblk m c 0 t) (iblk m c 1 t) p.2.1 p.2.2.1 p.2.2.2).2.2.1))

/-- After the last key block: the same update, and the output tile at the quotient. -/
def stLast (c : Dev nD) (t : Fin cfg0.N) (h0 : ¬t.val % 4 = 0) (h1 : t.val % 4 = 3) (p : St F) : St F :=
  (VO.read (Elt F) (VO.writes (Elt F) VO.junk (runLast c (grid0.coords t) (msQ t) (hsQ t) (msK t) (hsK t) (msO t) (hsO t) scM (Memref.isWhole_whole _) scL (Memref.isWhole_whole _) scA (Memref.isWhole_whole _) (fun h => h0 ((hcondFirst t).mp h)) ((hcondLast t).mpr h1) (iblk m c 0 t) (iblk m c 1 t) p.2.1 p.2.2.1 p.2.2.2).1),
   VM.read (Elt F) (VM.writes (Elt F) VM.junk (runLast c (grid0.coords t) (msQ t) (hsQ t) (msK t) (hsK t) (msO t) (hsO t) scM (Memref.isWhole_whole _) scL (Memref.isWhole_whole _) scA (Memref.isWhole_whole _) (fun h => h0 ((hcondFirst t).mp h)) ((hcondLast t).mpr h1) (iblk m c 0 t) (iblk m c 1 t) p.2.1 p.2.2.1 p.2.2.2).2.1),
   VL.read (Elt F) (VL.writes (Elt F) VL.junk (runLast c (grid0.coords t) (msQ t) (hsQ t) (msK t) (hsK t) (msO t) (hsO t) scM (Memref.isWhole_whole _) scL (Memref.isWhole_whole _) scA (Memref.isWhole_whole _) (fun h => h0 ((hcondFirst t).mp h)) ((hcondLast t).mpr h1) (iblk m c 0 t) (iblk m c 1 t) p.2.1 p.2.2.1 p.2.2.2).2.2.1),
   VA.read (Elt F) (VA.writes (Elt F) VA.junk (runLast c (grid0.coords t) (msQ t) (hsQ t) (msK t) (hsK t) (msO t) (hsO t) scM (Memref.isWhole_whole _) scL (Memref.isWhole_whole _) scA (Memref.isWhole_whole _) (fun h => h0 ((hcondFirst t).mp h)) ((hcondLast t).mpr h1) (iblk m c 0 t) (iblk m c 1 t) p.2.1 p.2.2.1 p.2.2.2).2.2.2.1))

/-! ## Point by point -/

/-- What the output tile's buffer and the three scratch buffers hold after the body at position `n`. -/
def outsAt (c : Dev nD) : (n : ℕ) → n < cfg0.N → St F
  | 0, hn => stFirst m c ⟨0, hn⟩ (Nat.zero_mod _) (show ¬(0 : ℕ) % 4 = 3 by decide)
  | n + 1, hn =>
    if h0 : (n + 1) % 4 = 0 then
      if h1 : (n + 1) % 4 = 3 then False.elim (by omega)
      else stFirst m c ⟨n + 1, hn⟩ h0 h1
    else
      if h1 : (n + 1) % 4 = 3 then stLast m c ⟨n + 1, hn⟩ h0 h1 (outsAt c n (Nat.lt_of_succ_lt hn))
      else stMid m c ⟨n + 1, hn⟩ h0 h1 (outsAt c n (Nat.lt_of_succ_lt hn))

theorem outsAt_first (c : Dev nD) (t : Fin cfg0.N) (h0 : t.val % 4 = 0) (h1 : ¬t.val % 4 = 3) :
    outsAt m c t.val t.isLt = stFirst m c t h0 h1 := by
  obtain ⟨n, hn⟩ := t
  cases n with
  | zero => exact rfl
  | succ n => exact (dif_pos h0).trans ((dif_neg h1).trans rfl)

theorem outsAt_mid (c : Dev nD) (t : Fin cfg0.N) (h0 : ¬t.val % 4 = 0) (h1 : ¬t.val % 4 = 3) :
    outsAt m c t.val t.isLt = stMid m c t h0 h1 (outsAt m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_neg h1).trans rfl)

theorem outsAt_last (c : Dev nD) (t : Fin cfg0.N) (h0 : ¬t.val % 4 = 0) (h1 : t.val % 4 = 3) :
    outsAt m c t.val t.isLt = stLast m c t h0 h1 (outsAt m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_pos h1).trans rfl)

/-! ## The invariant: the scratch buffers at what the point before left -/

/-- The scoped rest as the three scratch buffers at some contents. -/
theorem scopedRest_eq (c : Dev nD) :
    (Pipeline.scopedRest (Ix := Unit) (Name := ℕ) (U := UR sig nD τ) (Lvl := ℕ) (Val := Elt F) spec0 c : sProp 𝕄)
      = iprop((∃ d, owns (c : Thread nD τ) scM fullShare d) ∗ (∃ d, owns (c : Thread nD τ) scL fullShare d) ∗ (∃ d, owns (c : Thread nD τ) scA fullShare d)) := by
  rw [scopedRest0_eq]; simp only [scM, scL, scA, owns_whole]; try rfl

def PhiS (c : Dev nD) : (n : ℕ) → n ≤ cfg0.N → sProp 𝕄
  | 0, _ => Pipeline.scopedRest (Ix := Unit) (Name := ℕ) (U := UR sig nD τ) (Lvl := ℕ) (Val := Elt F) spec0 c
  | n + 1, hn => iprop(owns (c : Thread nD τ) scM fullShare ((outsAt m c n hn).2.1) ∗ owns (c : Thread nD τ) scL fullShare ((outsAt m c n hn).2.2.1) ∗ owns (c : Thread nD τ) scA fullShare ((outsAt m c n hn).2.2.2))

theorem PhiS_zero (c : Dev nD) (n : ℕ) (h : n ≤ cfg0.N) (hz : n = 0) :
    PhiS m c n h = Pipeline.scopedRest (Ix := Unit) (Name := ℕ) (U := UR sig nD τ) (Lvl := ℕ) (Val := Elt F) spec0 c := by
  subst hz; rfl

theorem PhiS_succ (c : Dev nD) (n : ℕ) (hn : n < cfg0.N) :
    PhiS m c (n + 1) hn = iprop(owns (c : Thread nD τ) scM fullShare ((outsAt m c n hn).2.1) ∗ owns (c : Thread nD τ) scL fullShare ((outsAt m c n hn).2.2.1) ∗ owns (c : Thread nD τ) scA fullShare ((outsAt m c n hn).2.2.2)) := rfl

theorem PhiS_pos (c : Dev nD) (n : ℕ) (h : n ≤ cfg0.N) (hz : n ≠ 0) :
    PhiS m c n h = iprop(owns (c : Thread nD τ) scM fullShare ((outsAt m c (n - 1) (by omega)).2.1) ∗ owns (c : Thread nD τ) scL fullShare ((outsAt m c (n - 1) (by omega)).2.2.1) ∗ owns (c : Thread nD τ) scA fullShare ((outsAt m c (n - 1) (by omega)).2.2.2)) := by
  cases n with
  | zero => exact absurd rfl hz
  | succ n => rfl

/-! ## The proof data -/

/-- The arrays as the region finds them; after the body the two input windows at their blocks and the output tile at
    `outsAt`; the query window and the key window each hold HALF the share of the one array they both read. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (outsAt m c t.val t.isLt).1
  Φ t := PhiS m c t.val (Nat.le_of_lt_succ t.isLt)
  q w := match w with
    | ⟨0, _⟩ => fullShare.left
    | ⟨1, _⟩ => fullShare.right
    | ⟨2, _⟩ => fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after_q (c : Dev nD) (t : Fin cfg0.N) : (dats m 0 c).after 0 t = iblk m c 0 t := by dsimp only [dats]
theorem after_kv (c : Dev nD) (t : Fin cfg0.N) : (dats m 0 c).after 1 t = iblk m c 1 t := by dsimp only [dats]
theorem after_o (c : Dev nD) (t : Fin cfg0.N) : (dats m 0 c).after 2 t = (outsAt m c t.val t.isLt).1 := by dsimp only [dats]

theorem before_q (c : Dev nD) (t : Fin cfg0.N) (d) : (dats m 0 c).before 0 t d = iblk m c 0 t :=
  before_q_of m (dats m 0 c) (A_eq m c 0) (after_q m c) t d
theorem before_kv (c : Dev nD) (t : Fin cfg0.N) (d) : (dats m 0 c).before 1 t d = iblk m c 1 t :=
  before_kv_of m (dats m 0 c) (A_eq m c 1) (after_kv m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (msQ t) fullShare ((dats m 0 c).before 0 t d))
    ∗ (∃ d, owns (c : Thread nD τ) (msK t) fullShare ((dats m 0 c).before 1 t d))
    ∗ (∃ d, owns (c : Thread nD τ) (msO t) fullShare ((dats m 0 c).before 2 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t)

set_option maxHeartbeats 4800000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_q, before_kv]
  rw [show (dats m 0 c).owesAt () t.succ = (dats m 0 c).owesAt () t.castSucc from rfl]
  rw [show (dats m 0 c).Φ t.succ = PhiS m c (t.val + 1) t.isLt from rfl, PhiS_succ]
  have hN : t.val < 64 := lt_of_lt_of_eq t.isLt (show cfg0.N = 64 from N_0)
  rw [show (dats m 0 c).leavesExact 0 t = owns (c : Thread nD τ) (msQ t) fullShare ((dats m 0 c).after 0 t) from by
    unfold Dat.leavesExact; rw [live_q t], after_q]
  rw [show (dats m 0 c).leavesExact 1 t = owns (c : Thread nD τ) (msK t) fullShare ((dats m 0 c).after 1 t) from by
    unfold Dat.leavesExact; rw [live_kv t], after_kv]
  by_cases h0 : t.val % 4 = 0
  · have h1 : ¬t.val % 4 = 3 := by omega
    have hc1 : ¬condLast (grid0.coords t) := fun h => h1 ((hcondLast t).mp h)
    rw [Dat.leavesExact_idle (dats m 0 c) 2 t (idle_o t hc1) (noFlush_o t hc1)]
    rw [outsAt_first m c t h0 h1]
    unfold stFirst; (try dsimp only)
    by_cases hz : t.val = 0
    · rw [PhiS_castSucc m c t, PhiS_zero m c _ _ hz, scopedRest_eq]
      iintro ⟨⟨HM, HL, HA⟩, Ho, ⟨%d0, H0⟩, ⟨%d1, H1⟩, ⟨%d2, H2⟩⟩
      iapply ((runFirst c (grid0.coords t) _ _ _ _ _ _ _ _ _ _ _ _ ((hcondFirst t).mpr h0) hc1 (iblk m c 0 t) (iblk m c 1 t)).2.2.2 _ Set.univ _)
      isplitl [H0]; · iexact H0
      isplitl [H1]; · iexact H1
      isplitl [H2]; · iexact H2
      isplitl [HM]; · iexact HM
      isplitl [HL]; · iexact HL
      isplitl [HA]; · iexact HA
      iintro ⟨H0, H1, H2, ⟨%em, HM⟩, ⟨%el, HL⟩, ⟨%ea, HA⟩⟩
      isplitl [HM HL HA]
      · isplitl [HM]
        · unfold owns; iexists _; isplitr
          swap; · iexact HM
          ipureintro; exact View.read_writes_of_cover _ _ _ _ _ (coverFirstM c t _ _ _ _)
        isplitl [HL]
        · unfold owns; iexists _; isplitr
          swap; · iexact HL
          ipureintro; exact View.read_writes_of_cover _ _ _ _ _ (coverFirstL c t _ _ _ _)
        · unfold owns; iexists _; isplitr
          swap; · iexact HA
          ipureintro; exact View.read_writes_of_cover _ _ _ _ _ (coverFirstA c t _ _ _ _)
      isplitl [Ho]; · iexact Ho
      isplitl [H0]; · iexact H0
      isplitl [H1]; · iexact H1
      iexists _; iexact H2
    · rw [PhiS_castSucc m c t, PhiS_pos m c _ _ hz]
      iintro ⟨⟨HM, HL, HA⟩, Ho, ⟨%d0, H0⟩, ⟨%d1, H1⟩, ⟨%d2, H2⟩⟩
      iapply ((runFirst c (grid0.coords t) _ _ _ _ _ _ _ _ _ _ _ _ ((hcondFirst t).mpr h0) hc1 (iblk m c 0 t) (iblk m c 1 t)).2.2.2 _ Set.univ _)
      isplitl [H0]; · iexact H0
      isplitl [H1]; · iexact H1
      isplitl [H2]; · iexact H2
      isplitl [HM]; · iexists _; iexact HM
      isplitl [HL]; · iexists _; iexact HL
      isplitl [HA]; · iexists _; iexact HA
      iintro ⟨H0, H1, H2, ⟨%em, HM⟩, ⟨%el, HL⟩, ⟨%ea, HA⟩⟩
      isplitl [HM HL HA]
      · isplitl [HM]
        · unfold owns; iexists _; isplitr
          swap; · iexact HM
          ipureintro; exact View.read_writes_of_cover _ _ _ _ _ (coverFirstM c t _ _ _ _)
        isplitl [HL]
        · unfold owns; iexists _; isplitr
          swap; · iexact HL
          ipureintro; exact View.read_writes_of_cover _ _ _ _ _ (coverFirstL c t _ _ _ _)
        · unfold owns; iexists _; isplitr
          swap; · iexact HA
          ipureintro; exact View.read_writes_of_cover _ _ _ _ _ (coverFirstA c t _ _ _ _)
      isplitl [Ho]; · iexact Ho
      isplitl [H0]; · iexact H0
      isplitl [H1]; · iexact H1
      iexists _; iexact H2
  · have hz : t.val ≠ 0 := fun h => h0 (by rw [h])
    by_cases h1 : t.val % 4 = 3
    · have hc0 : ¬condFirst (grid0.coords t) := fun h => h0 ((hcondFirst t).mp h)
      rw [show (dats m 0 c).leavesExact 2 t = owns (c : Thread nD τ) (msO t) fullShare ((dats m 0 c).after 2 t) from by
        unfold Dat.leavesExact; rw [live_o t ((hcondLast t).mpr h1)], after_o]
      rw [outsAt_last m c t h0 h1]
      unfold stLast; (try dsimp only)
      rw [PhiS_castSucc m c t, PhiS_pos m c _ _ hz]
      iintro ⟨⟨HM, HL, HA⟩, Ho, ⟨%d0, H0⟩, ⟨%d1, H1⟩, ⟨%d2, H2⟩⟩
      iapply ((runLast c (grid0.coords t) _ _ _ _ _ _ _ _ _ _ _ _ hc0 ((hcondLast t).mpr h1) (iblk m c 0 t) (iblk m c 1 t) _ _ _).2.2.2.2 Set.univ _)
      isplitl [H0]; · iexact H0
      isplitl [H1]; · iexact H1
      isplitl [H2]; · iexists _; iexact H2
      isplitl [HM]; · iexact HM
      isplitl [HL]; · iexact HL
      isplitl [HA]; · iexact HA
      iintro ⟨H0, H1, ⟨%e2, H2⟩, ⟨%em, HM⟩, ⟨%el, HL⟩, ⟨%ea, HA⟩⟩
      isplitl [HM HL HA]
      · isplitl [HM]
        · unfold owns; iexists _; isplitr
          swap; · iexact HM
          ipureintro; exact View.read_writes_of_cover _ _ _ _ _ (coverLastM c t _ _ _ _ _ _ _)
        isplitl [HL]
        · unfold owns; iexists _; isplitr
          swap; · iexact HL
          ipureintro; exact View.read_writes_of_cover _ _ _ _ _ (coverLastL c t _ _ _ _ _ _ _)
        · unfold owns; iexists _; isplitr
          swap; · iexact HA
          ipureintro; exact View.read_writes_of_cover _ _ _ _ _ (coverLastA c t _ _ _ _ _ _ _)
      isplitl [Ho]; · iexact Ho
      isplitl [H0]; · iexact H0
      isplitl [H1]; · iexact H1
      unfold owns; iexists _; isplitr
      swap; · iexact H2
      ipureintro; exact View.read_writes_of_cover _ _ _ _ _ (coverLastO c t _ _ _ _ _ _ _)
    · have hc0 : ¬condFirst (grid0.coords t) := fun h => h0 ((hcondFirst t).mp h)
      have hc1 : ¬condLast (grid0.coords t) := fun h => h1 ((hcondLast t).mp h)
      rw [Dat.leavesExact_idle (dats m 0 c) 2 t (idle_o t hc1) (noFlush_o t hc1)]
      rw [outsAt_mid m c t h0 h1]
      unfold stMid; (try dsimp only)
      rw [PhiS_castSucc m c t, PhiS_pos m c _ _ hz]
      iintro ⟨⟨HM, HL, HA⟩, Ho, ⟨%d0, H0⟩, ⟨%d1, H1⟩, ⟨%d2, H2⟩⟩
      iapply ((runMid c (grid0.coords t) _ _ _ _ _ _ _ _ _ _ _ _ hc0 hc1 (iblk m c 0 t) (iblk m c 1 t) _ _ _).2.2.2 _ Set.univ _)
      isplitl [H0]; · iexact H0
      isplitl [H1]; · iexact H1
      isplitl [H2]; · iexact H2
      isplitl [HM]; · iexact HM
      isplitl [HL]; · iexact HL
      isplitl [HA]; · iexact HA
      iintro ⟨H0, H1, H2, ⟨%em, HM⟩, ⟨%el, HL⟩, ⟨%ea, HA⟩⟩
      isplitl [HM HL HA]
      · isplitl [HM]
        · unfold owns; iexists _; isplitr
          swap; · iexact HM
          ipureintro; exact View.read_writes_of_cover _ _ _ _ _ (coverMidM c t _ _ _ _ _ _ _)
        isplitl [HL]
        · unfold owns; iexists _; isplitr
          swap; · iexact HL
          ipureintro; exact View.read_writes_of_cover _ _ _ _ _ (coverMidL c t _ _ _ _ _ _ _)
        · unfold owns; iexists _; isplitr
          swap; · iexact HA
          ipureintro; exact View.read_writes_of_cover _ _ _ _ _ (coverMidA c t _ _ _ _ _ _ _)
      isplitl [Ho]; · iexact Ho
      isplitl [H0]; · iexact H0
      isplitl [H1]; · iexact H1
      iexists _; iexact H2

theorem body_obligation (c : Dev nD) : BodyObligation (dats (F := F) m 0 c) (defs₀ (F := F)) Variants.none () Set.univ := fun t => by
  rw [bigSep_W0, bigSep_W0]
  exact sound_body m c t

end Cert.Kernel.Flash

end
-- ==== Proof.KLaunch.lean ====
import proofs.«145749_j17008070492702_2_alg».proof.Proof.KFrame

set_option maxRecDepth 16384

noncomputable section

namespace Cert.Kernel.Flash

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-!
  The launch of the attention kernel's region. The query window and the key window name ONE array, the bf16 copy of the
  input; the launch hands that buffer over whole, and it is split in two halves of its share, one per window (both only
  read it). The output window's array is held whole. The argument array bypasses the region and is read back at the end.
-/

/-- The proof's resource algebra: one copy of the rounds library's, the pipeline's. -/
abbrev EP : Emb (UR sig nD τ) (MT nD τ sig Unit (Elt F) ℕ (UR sig nD τ) ℕ) := emb₁

/-- The launch element: every staging cell's owner at round 0 and a duty token for every transfer the pipeline issues. -/
def u₀ : UR sig nD τ := initOf (Pipeline.cells cfgs cellOf_inj) (Pipeline.launchToks cfgs cellOf_inj)

/-- The windows name two buffers: the bf16 copy (twice) and the result. -/
theorem arrRefs_eq : (Finset.univ.image (Pipeline.arrRef spec0) : Finset (Ref sig .tc)) = {main_v0, main_v1} := by decide

/-- The buffers behind the arrays, whole, make the windows' arrays: the copy's share halved between its two readers. -/
theorem hsplit (c : Dev nD) :
    (Pipeline.arrBufs (Ix := Unit) (Name := ℕ) (U := UR sig nD τ) (Lvl := ℕ) spec0 c (V m c) : sProp 𝕄) ⊢ (dats m 0 c).arrays ((dats m 0 c).arrAt · 0) := by
  have hL : (Pipeline.arrBufs (Ix := Unit) (Name := ℕ) (U := UR sig nD τ) (Lvl := ℕ) spec0 c (V m c) : sProp 𝕄)
      = iprop((((c : Thread nD τ).loc main_v0) ↦{fullShare} V m c main_v0) ∗ (((c : Thread nD τ).loc main_v1) ↦{fullShare} V m c main_v1)) := by
    unfold Pipeline.arrBufs
    rw [arrRefs_eq, bigSep_insert (by decide), bigSep_singleton]
    rfl
  rw [hL]
  unfold Dat.arrays
  rw [bigSep_W0]
  rw [(arr_whole0 0).set_eq_univ, (arr_whole0 2).set_eq_univ]
  rw [show (dats m 0 c).share 0 = fullShare.left from rfl, show (dats m 0 c).share 1 = fullShare.right from rfl, show (dats m 0 c).share 2 = fullShare from rfl]
  iintro ⟨H0, H1⟩
  ihave H0' := (pointsTo_share (PosShare.mem_left_op_right fullShare)).1 $$ H0
  icases H0' with ⟨Hl, Hr⟩
  isplitl [Hl]; · iexact Hl
  isplitl [Hr]; · iexact Hr
  iexact H1

/-- What the run establishes: every window's array at what the library computes from the proof data, and the argument
    array as the region found it. -/
def RunPost (r : PUnit × MemSt nD τ sig (Elt F)) : Prop :=
  ∀ c : Dev nD, (∀ w, r.2.mem ((spec0 w).arr.view.loc (c : Thread nD τ)) = (dats m 0 c).arrAt w cfg0.N)
    ∧ r.2.mem ((c : Thread nD τ).loc main_arg0) = V m c main_arg0

set_option backward.isDefEq.respectTransparency.types false in
theorem run_main : θ_run defs (onTc (τ := τ) (main (F := F))) (s₀ m ρ) (RunPost m) :=
  Pipeline.θ_run_region_noSem_shared cfgs (dats m) () cellOf_inj (0 : Fin 1) winFacts₀0 EP defs₀ Variants.none m ρ main
    (hbody := fun c => (body_obligation m c).loose)
    (hne := block_pos0) (harr := arr_whole0) (hstage := stage_whole0)
    (howed := fun _ _ => rfl)
    (u₀ := u₀) (hu₀ := BI.Entails.refl _)
    (V := V m) (hmain := hmain m Variants.none)
    (hsplit := hsplit m)
    (X := fun _ => iprop(emp)) (Y := fun _ => iprop(emp))
    (Z := fun c => iprop(((c : Thread nD τ).loc main_arg0) ↦{fullShare} V m c main_arg0))
    (hX := fun c => by
      rw [unscopedRest0_eq]
      iintro H; isplitr; · iempintro
      iexact H)
    (hin := fun c => by
      rw [show (dats m 0 c).Φ 0 = PhiS m c 0 (Nat.zero_le _) from rfl, PhiS_zero m c 0 _ rfl]
      iintro ⟨-, H⟩; iexact H)
    (hout := fun c => by
      rw [show (dats m 0 c).Φ (Fin.last cfg0.N) = PhiS m c (Fin.last cfg0.N).val (Nat.le_of_lt_succ (Fin.last cfg0.N).isLt) from rfl,
        PhiS_pos m c _ _ (by rw [Fin.val_last]; have : cfg0.N = 64 := N_0; omega), scopedRest_eq]
      iintro ⟨HM, HL, HA⟩
      isplitr; · iempintro
      isplitl [HM]; · iexists _; iexact HM
      isplitl [HL]; · iexists _; iexact HL
      iexists _; iexact HA)
    (QY := fun c s => s.mem ((c : Thread nD τ).loc main_arg0) = V m c main_arg0)
    (hY := fun c s' => by
      iintro ⟨-, H0, HSI⟩
      icombine HSI H0 gives %h0
      imodintro
      isplitr; · ipureintro; exact Buf.eq_of_forall_mem_univ h0
      iexact HSI)
    (hQ := fun _ hh => hh)

/-- The frame: the program runs to the end, nothing faults, and the argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c => ((h c).2).trans (V_main_arg0 m c)) (run_main m ρ)

end Cert.Kernel.Flash

end
-- ==== Proof.KIShared.lean ====
import proofs.«145749_j17008070492702_2_alg».proof.Proof.Gen.KernelIdeal.Launch
import proofs.«145749_j17008070492702_2_alg».proof.Proof.Gen.KernelIdeal.Skeleton
import proofs.«145749_j17008070492702_2_alg».proof.Proof.Gen.KernelIdeal.Points
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.KernelIdeal.Flash

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-!
  What the three runs of the attention kernel's body share: the arrays as the region finds them (the bf16 copy of the
  input written by the host line before the call), each window's block at a grid point, the two conditions of the body
  (first key block: reset the running maximum, denominator and numerator; last key block: divide and store) in closed
  form over the 64 grid points, where the output window is idle, and the staging and scratch memrefs.
-/

/-- The buffers of core `c` when the region is entered: after the one host line (the change of format of the input). -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

/-- @main is the host line, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- The host line writes its own result only: the argument array is found as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.unary_writes, Finset.mem_singleton]
    exact StableHlo.devRef_ne_of_ne (by decide)))

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The query window's staging buffer holds the query block at every point (fetched when the query tile changes, kept
    in between: the body only reads it). -/
theorem before_q_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The key/value window's staging buffer holds the key block at every point. -/
theorem before_kv_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The body's two conditions -/

/-- "This is the first key block": the reset of the running statistics. -/
abbrev condFirst (i : grid0.Coords) : Prop := (Scalar.cmpi .ne (Scalar.extui (Scalar.cmpi .eq (BitVec.ofNat 32 (i 2).val) 0#32)) 0#32) = 1#1
theorem hcondFirst : ∀ t : Fin cfg0.N, condFirst (grid0.coords t) ↔ t.val % 4 = 0 :=
  (by decide +kernel : ∀ t : Fin grid0.N, condFirst (grid0.coords t) ↔ t.val % 4 = 0)

/-- "This is the last key block": the division and the store of the output tile. -/
abbrev condLast (i : grid0.Coords) : Prop := k0_cond2 i = 1#1
theorem hcondLast : ∀ t : Fin cfg0.N, condLast (grid0.coords t) ↔ t.val % 4 = 3 :=
  (by decide +kernel : ∀ t : Fin grid0.N, condLast (grid0.coords t) ↔ t.val % 4 = 3)

/-! ## Where the windows are idle -/

theorem live_q : ∀ t : Fin cfg0.N, cfg0.idle 0 (grid0.coords t) = false := by decide +kernel
theorem live_kv : ∀ t : Fin cfg0.N, cfg0.idle 1 (grid0.coords t) = false := by decide +kernel
/-- Before the last key block nothing is stored into the output tile, and it is not written back. -/
theorem idle_o : ∀ t : Fin cfg0.N, ¬condLast (grid0.coords t) → cfg0.idle 2 (grid0.coords t) = true := by decide +kernel
theorem noFlush_o : ∀ t : Fin cfg0.N, ¬condLast (grid0.coords t) → (cfg0.win 2).flush t = false := by decide +kernel
theorem live_o : ∀ t : Fin cfg0.N, condLast (grid0.coords t) → cfg0.idle 2 (grid0.coords t) = false := by decide +kernel

/-! ## The memrefs the body is called with -/

abbrev VO : View sig .tc .vmem S1x1024x128 .f32 := (Memref.whole cc0_stg2_0 : Memref sig .tc .vmem S1x1024x128 .f32).view
abbrev msQ (t : Fin cfg0.N) : Memref sig .tc .vmem S1x1024x128 .bf16 := win0_0.stage (cfg0.slots t 0)
abbrev hsQ (t : Fin cfg0.N) : (msQ t).IsWhole := hstage0_0 ((cfg0.slots t 0).cast nbuf0_0)
abbrev msK (t : Fin cfg0.N) : Memref sig .tc .vmem S1x1024x128 .bf16 := win0_1.stage (cfg0.slots t 1)
abbrev hsK (t : Fin cfg0.N) : (msK t).IsWhole := hstage0_1 ((cfg0.slots t 1).cast nbuf0_1)
abbrev msO (t : Fin cfg0.N) : Memref sig .tc .vmem S1x1024x128 .f32 := win0_2.stage (cfg0.slots t 2)
abbrev hsO (t : Fin cfg0.N) : (msO t).IsWhole := hstage0_2 ((cfg0.slots t 2).cast nbuf0_2)
/-- The running maximum, the running denominator and the running numerator: whole scratch buffers. -/
abbrev scM : Memref sig .tc .vmem S1x1024x1 .f32 := Memref.whole cc0_scratch0
abbrev scL : Memref sig .tc .vmem S1x1024x1 .f32 := Memref.whole cc0_scratch1
abbrev scA : Memref sig .tc .vmem S1x1024x128 .f32 := Memref.whole cc0_scratch2
abbrev VM : View sig .tc .vmem S1x1024x1 .f32 := scM.view
abbrev VL : View sig .tc .vmem S1x1024x1 .f32 := scL.view
abbrev VA : View sig .tc .vmem S1x1024x128 .f32 := scA.view

/-- The class invariant with the three scratch buffers as memrefs owned at some contents. -/
theorem PhiA_eq (c : Dev nD) :
    (Pipeline.ΦA spec0 c : sProp 𝕄)
      = iprop(iprop((∃ d, owns (c : Thread nD τ) scM fullShare d) ∗ (∃ d, owns (c : Thread nD τ) scL fullShare d) ∗ (∃ d, owns (c : Thread nD τ) scA fullShare d)) ∗ (∃ r, prngReg c r)) := by
  unfold Pipeline.ΦA; rw [scopedRest0_eq]; simp only [scM, scL, scA, owns_whole]; try rfl

end Cert.KernelIdeal.Flash

end
-- ==== Proof.KIRunFirst.lean ====
import proofs.«145749_j17008070492702_2_alg».proof.Proof.KIShared

set_option maxRecDepth 16384

noncomputable section

namespace Cert.KernelIdeal.Flash

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-!
  The body at the FIRST key block of a query tile: the running maximum is reset to −∞ and the running denominator
  and numerator to zero, whatever the scratch buffers held; then the update of a middle block. The output tile is not
  touched.
-/

set_option maxHeartbeats 4000000 in
noncomputable def runFirst (c : Dev nD) (i : grid0.Coords) (arg3 : Memref sig .tc .vmem S1x1024x128 .bf16) (harg3 : arg3.IsWhole) (arg4 : Memref sig .tc .vmem S1x1024x128 .bf16) (harg4 : arg4.IsWhole) (arg5 : Memref sig .tc .vmem S1x1024x128 .f32) (harg5 : arg5.IsWhole) (arg6 : Memref sig .tc .vmem S1x1024x1 .f32) (harg6 : arg6.IsWhole) (arg7 : Memref sig .tc .vmem S1x1024x1 .f32) (harg7 : arg7.IsWhole) (arg8 : Memref sig .tc .vmem S1x1024x128 .f32) (harg8 : arg8.IsWhole) (hc0 : condFirst i) (hc1 : ¬condLast i)
    (x0 x1 : Vec F S1x1024x128 .bf16) :
    Σ' (LM : List (View.Piece (Elt F) S1x1024x1 .f32)) (LL : List (View.Piece (Elt F) S1x1024x1 .f32)), { LA : List (View.Piece (Elt F) S1x1024x128 .f32) //
      ∀ (xo : Vec F S1x1024x128 .f32) (E : Set ℕ) (K : PUnit → sProp 𝕄),
        iprop(owns (c : Thread nD τ) arg3 fullShare x0 ∗ owns (c : Thread nD τ) arg4 fullShare x1 ∗ owns (c : Thread nD τ) arg5 fullShare xo ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg3 fullShare x0 ∗ owns (c : Thread nD τ) arg4 fullShare x1 ∗ owns (c : Thread nD τ) arg5 fullShare xo ∗ (∃ f, arg6.view.loc (c : Thread nD τ) ↦[arg6.view.set]{fullShare} arg6.view.writes (Elt F) f LM) ∗ (∃ f, arg7.view.loc (c : Thread nD τ) ↦[arg7.view.set]{fullShare} arg7.view.writes (Elt F) f LL) ∗ (∃ f, arg8.view.loc (c : Thread nD τ) ↦[arg8.view.set]{fullShare} arg8.view.writes (Elt F) f LA)) -∗ K ⟨⟩))
          ⊢ wp frame (wpE (defs₀ (F := F)) Variants.none c none) E (cc0__flash_kernel i arg3 harg3 arg4 harg4 arg5 harg5 arg6 harg6 arg7 harg7 arg8 harg8) K } := by
  refine ⟨?_, ?_, ?_, fun xo E K => ?run⟩
  case run =>
    simp only [cc0__flash_kernel_eq_skeleton]; unfold cc0__flash_kernel_skel
    simp only [k0_part1_eq_skeleton]; unfold k0_part1_skel
    unfold owns
    iintro ⟨⟨%f0, %hf0, H0⟩, ⟨%f1, %hf1, H1⟩, ⟨%f2, %hf2, H2⟩, ⟨%dm, %fm, -, HM⟩, ⟨%dl, %fl, -, HL⟩, ⟨%da, %fa, -, HA⟩, Hk⟩
    obtain rfl := harg3.eq_unread hf0; obtain rfl := harg4.eq_unread hf1; obtain rfl := harg5.eq_unread hf2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [HM]; · iexists _; iexact HM
    isplitl [HL]; · iexists _; iexact HL
    iexists _; iexact HA

end Cert.KernelIdeal.Flash

end
-- ==== Proof.KIRunMid.lean ====
import proofs.«145749_j17008070492702_2_alg».proof.Proof.KIShared

set_option maxRecDepth 16384

noncomputable section

namespace Cert.KernelIdeal.Flash

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-!
  The body at a MIDDLE key block (neither the first nor the last): it reads the query and key blocks and the three
  running statistics, and stores the updated statistics; the output tile is not touched. The pieces each scratch buffer
  ends with are found by running the body symbolically.
-/

set_option maxHeartbeats 4000000 in
noncomputable def runMid (c : Dev nD) (i : grid0.Coords) (arg3 : Memref sig .tc .vmem S1x1024x128 .bf16) (harg3 : arg3.IsWhole) (arg4 : Memref sig .tc .vmem S1x1024x128 .bf16) (harg4 : arg4.IsWhole) (arg5 : Memref sig .tc .vmem S1x1024x128 .f32) (harg5 : arg5.IsWhole) (arg6 : Memref sig .tc .vmem S1x1024x1 .f32) (harg6 : arg6.IsWhole) (arg7 : Memref sig .tc .vmem S1x1024x1 .f32) (harg7 : arg7.IsWhole) (arg8 : Memref sig .tc .vmem S1x1024x128 .f32) (harg8 : arg8.IsWhole) (hc0 : ¬condFirst i) (hc1 : ¬condLast i)
    (x0 x1 : Vec F S1x1024x128 .bf16) (xm xl : Vec F S1x1024x1 .f32) (xa : Vec F S1x1024x128 .f32) :
    Σ' (LM : List (View.Piece (Elt F) S1x1024x1 .f32)) (LL : List (View.Piece (Elt F) S1x1024x1 .f32)), { LA : List (View.Piece (Elt F) S1x1024x128 .f32) //
      ∀ (xo : Vec F S1x1024x128 .f32) (E : Set ℕ) (K : PUnit → sProp 𝕄),
        iprop(owns (c : Thread nD τ) arg3 fullShare x0 ∗ owns (c : Thread nD τ) arg4 fullShare x1 ∗ owns (c : Thread nD τ) arg5 fullShare xo ∗ owns (c : Thread nD τ) arg6 fullShare xm ∗ owns (c : Thread nD τ) arg7 fullShare xl ∗ owns (c : Thread nD τ) arg8 fullShare xa
            ∗ (iprop(owns (c : Thread nD τ) arg3 fullShare x0 ∗ owns (c : Thread nD τ) arg4 fullShare x1 ∗ owns (c : Thread nD τ) arg5 fullShare xo ∗ (∃ f, arg6.view.loc (c : Thread nD τ) ↦[arg6.view.set]{fullShare} arg6.view.writes (Elt F) f LM) ∗ (∃ f, arg7.view.loc (c : Thread nD τ) ↦[arg7.view.set]{fullShare} arg7.view.writes (Elt F) f LL) ∗ (∃ f, arg8.view.loc (c : Thread nD τ) ↦[arg8.view.set]{fullShare} arg8.view.writes (Elt F) f LA)) -∗ K ⟨⟩))
          ⊢ wp frame (wpE (defs₀ (F := F)) Variants.none c none) E (cc0__flash_kernel i arg3 harg3 arg4 harg4 arg5 harg5 arg6 harg6 arg7 harg7 arg8 harg8) K } := by
  refine ⟨?_, ?_, ?_, fun xo E K => ?run⟩
  case run =>
    simp only [cc0__flash_kernel_eq_skeleton]; unfold cc0__flash_kernel_skel
    simp only [k0_part1_eq_skeleton]; unfold k0_part1_skel
    unfold owns
    iintro ⟨⟨%f0, %hf0, H0⟩, ⟨%f1, %hf1, H1⟩, ⟨%f2, %hf2, H2⟩, ⟨%fm, %hfm, HM⟩, ⟨%fl, %hfl, HL⟩, ⟨%fa, %hfa, HA⟩, Hk⟩
    obtain rfl := harg3.eq_unread hf0; obtain rfl := harg4.eq_unread hf1; obtain rfl := harg5.eq_unread hf2
    obtain rfl := harg6.eq_unread hfm; obtain rfl := harg7.eq_unread hfl; obtain rfl := harg8.eq_unread hfa
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [HM]; · iexists _; iexact HM
    isplitl [HL]; · iexists _; iexact HL
    iexists _; iexact HA

end Cert.KernelIdeal.Flash

end
-- ==== Proof.KIRunLast.lean ====
import proofs.«145749_j17008070492702_2_alg».proof.Proof.KIShared

set_option maxRecDepth 16384

noncomputable section

namespace Cert.KernelIdeal.Flash

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-!
  The body at the LAST key block of a query tile: the update of a middle block, then the numerator divided by the
  denominator, row by row, stored over the whole output tile.
-/

set_option maxHeartbeats 4000000 in
noncomputable def runLast (c : Dev nD) (i : grid0.Coords) (arg3 : Memref sig .tc .vmem S1x1024x128 .bf16) (harg3 : arg3.IsWhole) (arg4 : Memref sig .tc .vmem S1x1024x128 .bf16) (harg4 : arg4.IsWhole) (arg5 : Memref sig .tc .vmem S1x1024x128 .f32) (harg5 : arg5.IsWhole) (arg6 : Memref sig .tc .vmem S1x1024x1 .f32) (harg6 : arg6.IsWhole) (arg7 : Memref sig .tc .vmem S1x1024x1 .f32) (harg7 : arg7.IsWhole) (arg8 : Memref sig .tc .vmem S1x1024x128 .f32) (harg8 : arg8.IsWhole) (hc0 : ¬condFirst i) (hc1 : condLast i)
    (x0 x1 : Vec F S1x1024x128 .bf16) (xm xl : Vec F S1x1024x1 .f32) (xa : Vec F S1x1024x128 .f32) :
    Σ' (LO : List (View.Piece (Elt F) S1x1024x128 .f32)) (LM : List (View.Piece (Elt F) S1x1024x1 .f32)) (LL : List (View.Piece (Elt F) S1x1024x1 .f32)), { LA : List (View.Piece (Elt F) S1x1024x128 .f32) //
      ∀ (E : Set ℕ) (K : PUnit → sProp 𝕄),
        iprop(owns (c : Thread nD τ) arg3 fullShare x0 ∗ owns (c : Thread nD τ) arg4 fullShare x1 ∗ (∃ d, owns (c : Thread nD τ) arg5 fullShare d) ∗ owns (c : Thread nD τ) arg6 fullShare xm ∗ owns (c : Thread nD τ) arg7 fullShare xl ∗ owns (c : Thread nD τ) arg8 fullShare xa
            ∗ (iprop(owns (c : Thread nD τ) arg3 fullShare x0 ∗ owns (c : Thread nD τ) arg4 fullShare x1 ∗ (∃ f, arg5.view.loc (c : Thread nD τ) ↦[arg5.view.set]{fullShare} arg5.view.writes (Elt F) f LO) ∗ (∃ f, arg6.view.loc (c : Thread nD τ) ↦[arg6.view.set]{fullShare} arg6.view.writes (Elt F) f LM) ∗ (∃ f, arg7.view.loc (c : Thread nD τ) ↦[arg7.view.set]{fullShare} arg7.view.writes (Elt F) f LL) ∗ (∃ f, arg8.view.loc (c : Thread nD τ) ↦[arg8.view.set]{fullShare} arg8.view.writes (Elt F) f LA)) -∗ K ⟨⟩))
          ⊢ wp frame (wpE (defs₀ (F := F)) Variants.none c none) E (cc0__flash_kernel i arg3 harg3 arg4 harg4 arg5 harg5 arg6 harg6 arg7 harg7 arg8 harg8) K } := by
  refine ⟨?_, ?_, ?_, ?_, fun E K => ?run⟩
  case run =>
    simp only [cc0__flash_kernel_eq_skeleton]; unfold cc0__flash_kernel_skel
    simp only [k0_part1_eq_skeleton]; unfold k0_part1_skel
    unfold owns
    iintro ⟨⟨%f0, %hf0, H0⟩, ⟨%f1, %hf1, H1⟩, ⟨%d2, %f2, -, H2⟩, ⟨%fm, %hfm, HM⟩, ⟨%fl, %hfl, HL⟩, ⟨%fa, %hfa, HA⟩, Hk⟩
    obtain rfl := harg3.eq_unread hf0; obtain rfl := harg4.eq_unread hf1
    obtain rfl := harg6.eq_unread hfm; obtain rfl := harg7.eq_unread hfl; obtain rfl := harg8.eq_unread hfa
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]; · iexists _; iexact H2
    isplitl [HM]; · iexists _; iexact HM
    isplitl [HL]; · iexists _; iexact HL
    iexists _; iexact HA

end Cert.KernelIdeal.Flash

end
-- ==== Proof.KIFrame.lean ====
import proofs.«145749_j17008070492702_2_alg».proof.Proof.KIRunFirst
import proofs.«145749_j17008070492702_2_alg».proof.Proof.KIRunMid
import proofs.«145749_j17008070492702_2_alg».proof.Proof.KIRunLast

set_option maxRecDepth 16384

noncomputable section

namespace Cert.KernelIdeal.Flash

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-!
  The frame run of the attention kernel and what its output array holds afterwards.

  The grid has 64 points `t = 16·b + 4·qi + ki`: batch, query tile, key block. At each point the body updates three
  running statistics of the query tile's 1024 rows, kept in scratch from one key block to the next: the maximum of the
  scores seen so far, the sum of their shifted exponentials, and the sum of the shifted exponentials times the value
  rows. At `ki = 0` they are reset first; at `ki = 3` the last is divided by the second and stored into the output
  tile, which is then written back. Here: what the scratch buffers and the output tile hold after each point, by
  recursion on the point; the invariant that carries the scratch contents; the body obligation by the three runs; and
  the launch, where the query window and the key window read ONE array, each through half of its share.
-/

/-- After a point: the output tile's staging buffer, the running maximum, the running denominator, the running numerator. -/
abbrev St (F : FTy → Type) [FloatOps F] : Type := Vec F S1x1024x128 .f32 × Vec F S1x1024x1 .f32 × Vec F S1x1024x1 .f32 × Vec F S1x1024x128 .f32

/-! ## What each case leaves -/

theorem coverFirstM (c : Dev nD) (t : Fin cfg0.N) (hc0 : condFirst (grid0.coords t)) (hc1 : ¬condLast (grid0.coords t)) (x0 x1) (y : S1x1024x1.Idx) :
    ∃ pc ∈ (runFirst (F := F) c (grid0.coords t) (msQ t) (hsQ t) (msK t) (hsK t) (msO t) (hsO t) scM (Memref.isWhole_whole _) scL (Memref.isWhole_whole _) scA (Memref.isWhole_whole _) hc0 hc1 x0 x1).1, y ∈ pc.1.set :=
  View.cover_of_tiledL _ S1x1024x1.size (by sl_kernel_rfl) y
theorem coverFirstL (c : Dev nD) (t : Fin cfg0.N) (hc0 : condFirst (grid0.coords t)) (hc1 : ¬condLast (grid0.coords t)) (x0 x1) (y : S1x1024x1.Idx) :
    ∃ pc ∈ (runFirst (F := F) c (grid0.coords t) (msQ t) (hsQ t) (msK t) (hsK t) (msO t) (hsO t) scM (Memref.isWhole_whole _) scL (Memref.isWhole_whole _) scA (Memref.isWhole_whole _) hc0 hc1 x0 x1).2.1, y ∈ pc.1.set :=
  View.cover_of_tiledL _ S1x1024x1.size (by sl_kernel_rfl) y
theorem coverFirstA (c : Dev nD) (t : Fin cfg0.N) (hc0 : condFirst (grid0.coords t)) (hc1 : ¬condLast (grid0.coords t)) (x0 x1) (y : S1x1024x128.Idx) :
    ∃ pc ∈ (runFirst (F := F) c (grid0.coords t) (msQ t) (hsQ t) (msK t) (hsK t) (msO t) (hsO t) scM (Memref.isWhole_whole _) scL (Memref.isWhole_whole _) scA (Memref.isWhole_whole _) hc0 hc1 x0 x1).2.2.1, y ∈ pc.1.set :=
  View.cover_of_tiledL _ S1x1024x128.size (by sl_kernel_rfl) y

theorem coverMidM (c : Dev nD) (t : Fin cfg0.N) (hc0 : ¬condFirst (grid0.coords t)) (hc1 : ¬condLast (grid0.coords t)) (x0 x1 xm xl xa) (y : S1x1024x1.Idx) :
    ∃ pc ∈ (runMid (F := F) c (grid0.coords t) (msQ t) (hsQ t) (msK t) (hsK t) (msO t) (hsO t) scM (Memref.isWhole_whole _) scL (Memref.isWhole_whole _) scA (Memref.isWhole_whole _) hc0 hc1 x0 x1 xm xl xa).1, y ∈ pc.1.set :=
  View.cover_of_tiledL _ S1x1024x1.size (by sl_kernel_rfl) y
theorem coverMidL (c : Dev nD) (t : Fin cfg0.N) (hc0 : ¬condFirst (grid0.coords t)) (hc1 : ¬condLast (grid0.coords t)) (x0 x1 xm xl xa) (y : S1x1024x1.Idx) :
    ∃ pc ∈ (runMid (F := F) c (grid0.coords t) (msQ t) (hsQ t) (msK t) (hsK t) (msO t) (hsO t) scM (Memref.isWhole_whole _) scL (Memref.isWhole_whole _) scA (Memref.isWhole_whole _) hc0 hc1 x0 x1 xm xl xa).2.1, y ∈ pc.1.set :=
  View.cover_of_tiledL _ S1x1024x1.size (by sl_kernel_rfl) y
theorem coverMidA (c : Dev nD) (t : Fin cfg0.N) (hc0 : ¬condFirst (grid0.coords t)) (hc1 : ¬condLast (grid0.coords t)) (x0 x1 xm xl xa) (y : S1x1024x128.Idx) :
    ∃ pc ∈ (runMid (F := F) c (grid0.coords t) (msQ t) (hsQ t) (msK t) (hsK t) (msO t) (hsO t) scM (Memref.isWhole_whole _) scL (Memref.isWhole_whole _) scA (Memref.isWhole_whole _) hc0 hc1 x0 x1 xm xl xa).2.2.1, y ∈ pc.1.set :=
  View.cover_of_tiledL _ S1x1024x128.size (by sl_kernel_rfl) y

theorem coverLastO (c : Dev nD) (t : Fin cfg0.N) (hc0 : ¬condFirst (grid0.coords t)) (hc1 : condLast (grid0.coords t)) (x0 x1 xm xl xa) (y : S1x1024x128.Idx) :
    ∃ pc ∈ (runLast (F := F) c (grid0.coords t) (msQ t) (hsQ t) (msK t) (hsK t) (msO t) (hsO t) scM (Memref.isWhole_whole _) scL (Memref.isWhole_whole _) scA (Memref.isWhole_whole _) hc0 hc1 x0 x1 xm xl xa).1, y ∈ pc.1.set :=
  View.cover_of_tiledL _ S1x1024x128.size (by sl_kernel_rfl) y
theorem coverLastM (c : Dev nD) (t : Fin cfg0.N) (hc0 : ¬condFirst (grid0.coords t)) (hc1 : condLast (grid0.coords t)) (x0 x1 xm xl xa) (y : S1x1024x1.Idx) :
    ∃ pc ∈ (runLast (F := F) c (grid0.coords t) (msQ t) (hsQ t) (msK t) (hsK t) (msO t) (hsO t) scM (Memref.isWhole_whole _) scL (Memref.isWhole_whole _) scA (Memref.isWhole_whole _) hc0 hc1 x0 x1 xm xl xa).2.1, y ∈ pc.1.set :=
  View.cover_of_tiledL _ S1x1024x1.size (by sl_kernel_rfl) y
theorem coverLastL (c : Dev nD) (t : Fin cfg0.N) (hc0 : ¬condFirst (grid0.coords t)) (hc1 : condLast (grid0.coords t)) (x0 x1 xm xl xa) (y : S1x1024x1.Idx) :
    ∃ pc ∈ (runLast (F := F) c (grid0.coords t) (msQ t) (hsQ t) (msK t) (hsK t) (msO t) (hsO t) scM (Memref.isWhole_whole _) scL (Memref.isWhole_whole _) scA (Memref.isWhole_whole _) hc0 hc1 x0 x1 xm xl xa).2.2.1, y ∈ pc.1.set :=
  View.cover_of_tiledL _ S1x1024x1.size (by sl_kernel_rfl) y
theorem coverLastA (c : Dev nD) (t : Fin cfg0.N) (hc0 : ¬condFirst (grid0.coords t)) (hc1 : condLast (grid0.coords t)) (x0 x1 xm xl xa) (y : S1x1024x128.Idx) :
    ∃ pc ∈ (runLast (F := F) c (grid0.coords t) (msQ t) (hsQ t) (msK t) (hsK t) (msO t) (hsO t) scM (Memref.isWhole_whole _) scL (Memref.isWhole_whole _) scA (Memref.isWhole_whole _) hc0 hc1 x0 x1 xm xl xa).2.2.2.1, y ∈ pc.1.set :=
  View.cover_of_tiledL _ S1x1024x128.size (by sl_kernel_rfl) y

/-- After a first key block: the statistics of that block alone (the output tile is idle: a placeholder nothing reads). -/
def stFirst (c : Dev nD) (t : Fin cfg0.N) (h0 : t.val % 4 = 0) (h1 : ¬t.val % 4 = 3) : St F :=
  (VO.read (Elt F) VO.junk,
   VM.read (Elt F) (VM.writes (Elt F) VM.junk (runFirst c (grid0.coords t) (msQ t) (hsQ t) (msK t) (hsK t) (msO t) (hsO t) scM (Memref.isWhole_whole _) scL (Memref.isWhole_whole _) scA (Memref.isWhole_whole _) ((hcondFirst t).mpr h0) (fun h => h1 ((hcondLast t).mp h)) (iblk m c 0 t) (iblk m c 1 t)).1),
   VL.read (Elt F) (VL.writes (Elt F) VL.junk (runFirst c (grid0.coords t) (msQ t) (hsQ t) (msK t) (hsK t) (msO t) (hsO t) scM (Memref.isWhole_whole _) scL (Memref.isWhole_whole _) scA (Memref.isWhole_whole _) ((hcondFirst t).mpr h0) (fun h => h1 ((hcondLast t).mp h)) (iblk m c 0 t) (iblk m c 1 t)).2.1),
   VA.read (Elt F) (VA.writes (Elt F) VA.junk (runFirst c (grid0.coords t) (msQ t) (hsQ t) (msK t) (hsK t) (msO t) (hsO t) scM (Memref.isWhole_whole _) scL (Memref.isWhole_whole _) scA (Memref.isWhole_whole _) ((hcondFirst t).mpr h0) (fun h => h1 ((hcondLast t).mp h)) (iblk m c 0 t) (iblk m c 1 t)).2.2.1))

/-- After a middle key block: the statistics updated from what the block before left. -/
def stMid (c : Dev nD) (t : Fin cfg0.N) (h0 : ¬t.val % 4 = 0) (h1 : ¬t.val % 4 = 3) (p : St F) : St F :=
  (VO.read (Elt F) VO.junk,
   VM.read (Elt F) (VM.writes (Elt F) VM.junk (runMid c (grid0.coords t) (msQ t) (hsQ t) (msK t) (hsK t) (msO t) (hsO t) scM (Memref.isWhole_whole _) scL (Memref.isWhole_whole _) scA (Memref.isWhole_whole _) (fun h => h0 ((hcondFirst t).mp h)) (fun h => h1 ((hcondLast t).mp h)) (iblk m c 0 t) (iblk m c 1 t) p.2.1 p.2.2.1 p.2.2.2).1),
   VL.read (Elt F) (VL.writes (Elt F) VL.junk (runMid c (grid0.coords t) (msQ t) (hsQ t) (msK t) (hsK t) (msO t) (hsO t) scM (Memref.isWhole_whole _) scL (Memref.isWhole_whole _) scA (Memref.isWhole_whole _) (fun h => h0 ((hcondFirst t).mp h)) (fun h => h1 ((hcondLast t).mp h)) (iblk m c 0 t) (iblk m c 1 t) p.2.1 p.2.2.1 p.2.2.2).2.1),
   VA.read (Elt F) (VA.writes (Elt F) VA.junk (runMid c (grid0.coords t) (msQ t) (hsQ t) (msK t) (hsK t) (msO t) (hsO t) scM (Memref.isWhole_whole _) scL (Memref.isWhole_whole _) scA (Memref.isWhole_whole _) (fun h => h0 ((hcondFirst t).mp h)) (fun h => h1 ((hcondLast t).mp h)) (iblk m c 0 t) (iblk m c 1 t) p.2.1 p.2.2.1 p.2.2.2).2.2.1))

/-- After the last key block: the same update, and the output tile at the quotient. -/
def stLast (c : Dev nD) (t : Fin cfg0.N) (h0 : ¬t.val % 4 = 0) (h1 : t.val % 4 = 3) (p : St F) : St F :=
  (VO.read (Elt F) (VO.writes (Elt F) VO.junk (runLast c (grid0.coords t) (msQ t) (hsQ t) (msK t) (hsK t) (msO t) (hsO t) scM (Memref.isWhole_whole _) scL (Memref.isWhole_whole _) scA (Memref.isWhole_whole _) (fun h => h0 ((hcondFirst t).mp h)) ((hcondLast t).mpr h1) (iblk m c 0 t) (iblk m c 1 t) p.2.1 p.2.2.1 p.2.2.2).1),
   VM.read (Elt F) (VM.writes (Elt F) VM.junk (runLast c (grid0.coords t) (msQ t) (hsQ t) (msK t) (hsK t) (msO t) (hsO t) scM (Memref.isWhole_whole _) scL (Memref.isWhole_whole _) scA (Memref.isWhole_whole _) (fun h => h0 ((hcondFirst t).mp h)) ((hcondLast t).mpr h1) (iblk m c 0 t) (iblk m c 1 t) p.2.1 p.2.2.1 p.2.2.2).2.1),
   VL.read (Elt F) (VL.writes (Elt F) VL.junk (runLast c (grid0.coords t) (msQ t) (hsQ t) (msK t) (hsK t) (msO t) (hsO t) scM (Memref.isWhole_whole _) scL (Memref.isWhole_whole _) scA (Memref.isWhole_whole _) (fun h => h0 ((hcondFirst t).mp h)) ((hcondLast t).mpr h1) (iblk m c 0 t) (iblk m c 1 t) p.2.1 p.2.2.1 p.2.2.2).2.2.1),
   VA.read (Elt F) (VA.writes (Elt F) VA.junk (runLast c (grid0.coords t) (msQ t) (hsQ t) (msK t) (hsK t) (msO t) (hsO t) scM (Memref.isWhole_whole _) scL (Memref.isWhole_whole _) scA (Memref.isWhole_whole _) (fun h => h0 ((hcondFirst t).mp h)) ((hcondLast t).mpr h1) (iblk m c 0 t) (iblk m c 1 t) p.2.1 p.2.2.1 p.2.2.2).2.2.2.1))

/-! ## Point by point -/

/-- What the output tile's buffer and the three scratch buffers hold after the body at position `n`. -/
def outsAt (c : Dev nD) : (n : ℕ) → n < cfg0.N → St F
  | 0, hn => stFirst m c ⟨0, hn⟩ (Nat.zero_mod _) (show ¬(0 : ℕ) % 4 = 3 by decide)
  | n + 1, hn =>
    if h0 : (n + 1) % 4 = 0 then
      if h1 : (n + 1) % 4 = 3 then False.elim (by omega)
      else stFirst m c ⟨n + 1, hn⟩ h0 h1
    else
      if h1 : (n + 1) % 4 = 3 then stLast m c ⟨n + 1, hn⟩ h0 h1 (outsAt c n (Nat.lt_of_succ_lt hn))
      else stMid m c ⟨n + 1, hn⟩ h0 h1 (outsAt c n (Nat.lt_of_succ_lt hn))

theorem outsAt_first (c : Dev nD) (t : Fin cfg0.N) (h0 : t.val % 4 = 0) (h1 : ¬t.val % 4 = 3) :
    outsAt m c t.val t.isLt = stFirst m c t h0 h1 := by
  obtain ⟨n, hn⟩ := t
  cases n with
  | zero => exact rfl
  | succ n => exact (dif_pos h0).trans ((dif_neg h1).trans rfl)

theorem outsAt_mid (c : Dev nD) (t : Fin cfg0.N) (h0 : ¬t.val % 4 = 0) (h1 : ¬t.val % 4 = 3) :
    outsAt m c t.val t.isLt = stMid m c t h0 h1 (outsAt m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_neg h1).trans rfl)

theorem outsAt_last (c : Dev nD) (t : Fin cfg0.N) (h0 : ¬t.val % 4 = 0) (h1 : t.val % 4 = 3) :
    outsAt m c t.val t.isLt = stLast m c t h0 h1 (outsAt m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_pos h1).trans rfl)

/-! ## The invariant: the scratch buffers at what the point before left -/

/-- The scoped rest as the three scratch buffers at some contents. -/
theorem scopedRest_eq (c : Dev nD) :
    (Pipeline.scopedRest (Ix := Unit) (Name := ℕ) (U := UR sig nD τ) (Lvl := ℕ) (Val := Elt F) spec0 c : sProp 𝕄)
      = iprop((∃ d, owns (c : Thread nD τ) scM fullShare d) ∗ (∃ d, owns (c : Thread nD τ) scL fullShare d) ∗ (∃ d, owns (c : Thread nD τ) scA fullShare d)) := by
  rw [scopedRest0_eq]; simp only [scM, scL, scA, owns_whole]; try rfl

def PhiS (c : Dev nD) : (n : ℕ) → n ≤ cfg0.N → sProp 𝕄
  | 0, _ => Pipeline.scopedRest (Ix := Unit) (Name := ℕ) (U := UR sig nD τ) (Lvl := ℕ) (Val := Elt F) spec0 c
  | n + 1, hn => iprop(owns (c : Thread nD τ) scM fullShare ((outsAt m c n hn).2.1) ∗ owns (c : Thread nD τ) scL fullShare ((outsAt m c n hn).2.2.1) ∗ owns (c : Thread nD τ) scA fullShare ((outsAt m c n hn).2.2.2))

theorem PhiS_zero (c : Dev nD) (n : ℕ) (h : n ≤ cfg0.N) (hz : n = 0) :
    PhiS m c n h = Pipeline.scopedRest (Ix := Unit) (Name := ℕ) (U := UR sig nD τ) (Lvl := ℕ) (Val := Elt F) spec0 c := by
  subst hz; rfl

theorem PhiS_succ (c : Dev nD) (n : ℕ) (hn : n < cfg0.N) :
    PhiS m c (n + 1) hn = iprop(owns (c : Thread nD τ) scM fullShare ((outsAt m c n hn).2.1) ∗ owns (c : Thread nD τ) scL fullShare ((outsAt m c n hn).2.2.1) ∗ owns (c : Thread nD τ) scA fullShare ((outsAt m c n hn).2.2.2)) := rfl

theorem PhiS_pos (c : Dev nD) (n : ℕ) (h : n ≤ cfg0.N) (hz : n ≠ 0) :
    PhiS m c n h = iprop(owns (c : Thread nD τ) scM fullShare ((outsAt m c (n - 1) (by omega)).2.1) ∗ owns (c : Thread nD τ) scL fullShare ((outsAt m c (n - 1) (by omega)).2.2.1) ∗ owns (c : Thread nD τ) scA fullShare ((outsAt m c (n - 1) (by omega)).2.2.2)) := by
  cases n with
  | zero => exact absurd rfl hz
  | succ n => rfl

/-! ## The proof data -/

/-- The arrays as the region finds them; after the body the two input windows at their blocks and the output tile at
    `outsAt`; the query window and the key window each hold HALF the share of the one array they both read. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (outsAt m c t.val t.isLt).1
  Φ t := PhiS m c t.val (Nat.le_of_lt_succ t.isLt)
  q w := match w with
    | ⟨0, _⟩ => fullShare.left
    | ⟨1, _⟩ => fullShare.right
    | ⟨2, _⟩ => fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after_q (c : Dev nD) (t : Fin cfg0.N) : (dats m 0 c).after 0 t = iblk m c 0 t := by dsimp only [dats]
theorem after_kv (c : Dev nD) (t : Fin cfg0.N) : (dats m 0 c).after 1 t = iblk m c 1 t := by dsimp only [dats]
theorem after_o (c : Dev nD) (t : Fin cfg0.N) : (dats m 0 c).after 2 t = (outsAt m c t.val t.isLt).1 := by dsimp only [dats]

theorem before_q (c : Dev nD) (t : Fin cfg0.N) (d) : (dats m 0 c).before 0 t d = iblk m c 0 t :=
  before_q_of m (dats m 0 c) (A_eq m c 0) (after_q m c) t d
theorem before_kv (c : Dev nD) (t : Fin cfg0.N) (d) : (dats m 0 c).before 1 t d = iblk m c 1 t :=
  before_kv_of m (dats m 0 c) (A_eq m c 1) (after_kv m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (msQ t) fullShare ((dats m 0 c).before 0 t d))
    ∗ (∃ d, owns (c : Thread nD τ) (msK t) fullShare ((dats m 0 c).before 1 t d))
    ∗ (∃ d, owns (c : Thread nD τ) (msO t) fullShare ((dats m 0 c).before 2 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t)

set_option maxHeartbeats 4800000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_q, before_kv]
  rw [show (dats m 0 c).owesAt () t.succ = (dats m 0 c).owesAt () t.castSucc from rfl]
  rw [show (dats m 0 c).Φ t.succ = PhiS m c (t.val + 1) t.isLt from rfl, PhiS_succ]
  have hN : t.val < 64 := lt_of_lt_of_eq t.isLt (show cfg0.N = 64 from N_0)
  rw [show (dats m 0 c).leavesExact 0 t = owns (c : Thread nD τ) (msQ t) fullShare ((dats m 0 c).after 0 t) from by
    unfold Dat.leavesExact; rw [live_q t], after_q]
  rw [show (dats m 0 c).leavesExact 1 t = owns (c : Thread nD τ) (msK t) fullShare ((dats m 0 c).after 1 t) from by
    unfold Dat.leavesExact; rw [live_kv t], after_kv]
  by_cases h0 : t.val % 4 = 0
  · have h1 : ¬t.val % 4 = 3 := by omega
    have hc1 : ¬condLast (grid0.coords t) := fun h => h1 ((hcondLast t).mp h)
    rw [Dat.leavesExact_idle (dats m 0 c) 2 t (idle_o t hc1) (noFlush_o t hc1)]
    rw [outsAt_first m c t h0 h1]
    unfold stFirst; (try dsimp only)
    by_cases hz : t.val = 0
    · rw [PhiS_castSucc m c t, PhiS_zero m c _ _ hz, scopedRest_eq]
      iintro ⟨⟨HM, HL, HA⟩, Ho, ⟨%d0, H0⟩, ⟨%d1, H1⟩, ⟨%d2, H2⟩⟩
      iapply ((runFirst c (grid0.coords t) _ _ _ _ _ _ _ _ _ _ _ _ ((hcondFirst t).mpr h0) hc1 (iblk m c 0 t) (iblk m c 1 t)).2.2.2 _ Set.univ _)
      isplitl [H0]; · iexact H0
      isplitl [H1]; · iexact H1
      isplitl [H2]; · iexact H2
      isplitl [HM]; · iexact HM
      isplitl [HL]; · iexact HL
      isplitl [HA]; · iexact HA
      iintro ⟨H0, H1, H2, ⟨%em, HM⟩, ⟨%el, HL⟩, ⟨%ea, HA⟩⟩
      isplitl [HM HL HA]
      · isplitl [HM]
        · unfold owns; iexists _; isplitr
          swap; · iexact HM
          ipureintro; exact View.read_writes_of_cover _ _ _ _ _ (coverFirstM c t _ _ _ _)
        isplitl [HL]
        · unfold owns; iexists _; isplitr
          swap; · iexact HL
          ipureintro; exact View.read_writes_of_cover _ _ _ _ _ (coverFirstL c t _ _ _ _)
        · unfold owns; iexists _; isplitr
          swap; · iexact HA
          ipureintro; exact View.read_writes_of_cover _ _ _ _ _ (coverFirstA c t _ _ _ _)
      isplitl [Ho]; · iexact Ho
      isplitl [H0]; · iexact H0
      isplitl [H1]; · iexact H1
      iexists _; iexact H2
    · rw [PhiS_castSucc m c t, PhiS_pos m c _ _ hz]
      iintro ⟨⟨HM, HL, HA⟩, Ho, ⟨%d0, H0⟩, ⟨%d1, H1⟩, ⟨%d2, H2⟩⟩
      iapply ((runFirst c (grid0.coords t) _ _ _ _ _ _ _ _ _ _ _ _ ((hcondFirst t).mpr h0) hc1 (iblk m c 0 t) (iblk m c 1 t)).2.2.2 _ Set.univ _)
      isplitl [H0]; · iexact H0
      isplitl [H1]; · iexact H1
      isplitl [H2]; · iexact H2
      isplitl [HM]; · iexists _; iexact HM
      isplitl [HL]; · iexists _; iexact HL
      isplitl [HA]; · iexists _; iexact HA
      iintro ⟨H0, H1, H2, ⟨%em, HM⟩, ⟨%el, HL⟩, ⟨%ea, HA⟩⟩
      isplitl [HM HL HA]
      · isplitl [HM]
        · unfold owns; iexists _; isplitr
          swap; · iexact HM
          ipureintro; exact View.read_writes_of_cover _ _ _ _ _ (coverFirstM c t _ _ _ _)
        isplitl [HL]
        · unfold owns; iexists _; isplitr
          swap; · iexact HL
          ipureintro; exact View.read_writes_of_cover _ _ _ _ _ (coverFirstL c t _ _ _ _)
        · unfold owns; iexists _; isplitr
          swap; · iexact HA
          ipureintro; exact View.read_writes_of_cover _ _ _ _ _ (coverFirstA c t _ _ _ _)
      isplitl [Ho]; · iexact Ho
      isplitl [H0]; · iexact H0
      isplitl [H1]; · iexact H1
      iexists _; iexact H2
  · have hz : t.val ≠ 0 := fun h => h0 (by rw [h])
    by_cases h1 : t.val % 4 = 3
    · have hc0 : ¬condFirst (grid0.coords t) := fun h => h0 ((hcondFirst t).mp h)
      rw [show (dats m 0 c).leavesExact 2 t = owns (c : Thread nD τ) (msO t) fullShare ((dats m 0 c).after 2 t) from by
        unfold Dat.leavesExact; rw [live_o t ((hcondLast t).mpr h1)], after_o]
      rw [outsAt_last m c t h0 h1]
      unfold stLast; (try dsimp only)
      rw [PhiS_castSucc m c t, PhiS_pos m c _ _ hz]
      iintro ⟨⟨HM, HL, HA⟩, Ho, ⟨%d0, H0⟩, ⟨%d1, H1⟩, ⟨%d2, H2⟩⟩
      iapply ((runLast c (grid0.coords t) _ _ _ _ _ _ _ _ _ _ _ _ hc0 ((hcondLast t).mpr h1) (iblk m c 0 t) (iblk m c 1 t) _ _ _).2.2.2.2 Set.univ _)
      isplitl [H0]; · iexact H0
      isplitl [H1]; · iexact H1
      isplitl [H2]; · iexists _; iexact H2
      isplitl [HM]; · iexact HM
      isplitl [HL]; · iexact HL
      isplitl [HA]; · iexact HA
      iintro ⟨H0, H1, ⟨%e2, H2⟩, ⟨%em, HM⟩, ⟨%el, HL⟩, ⟨%ea, HA⟩⟩
      isplitl [HM HL HA]
      · isplitl [HM]
        · unfold owns; iexists _; isplitr
          swap; · iexact HM
          ipureintro; exact View.read_writes_of_cover _ _ _ _ _ (coverLastM c t _ _ _ _ _ _ _)
        isplitl [HL]
        · unfold owns; iexists _; isplitr
          swap; · iexact HL
          ipureintro; exact View.read_writes_of_cover _ _ _ _ _ (coverLastL c t _ _ _ _ _ _ _)
        · unfold owns; iexists _; isplitr
          swap; · iexact HA
          ipureintro; exact View.read_writes_of_cover _ _ _ _ _ (coverLastA c t _ _ _ _ _ _ _)
      isplitl [Ho]; · iexact Ho
      isplitl [H0]; · iexact H0
      isplitl [H1]; · iexact H1
      unfold owns; iexists _; isplitr
      swap; · iexact H2
      ipureintro; exact View.read_writes_of_cover _ _ _ _ _ (coverLastO c t _ _ _ _ _ _ _)
    · have hc0 : ¬condFirst (grid0.coords t) := fun h => h0 ((hcondFirst t).mp h)
      have hc1 : ¬condLast (grid0.coords t) := fun h => h1 ((hcondLast t).mp h)
      rw [Dat.leavesExact_idle (dats m 0 c) 2 t (idle_o t hc1) (noFlush_o t hc1)]
      rw [outsAt_mid m c t h0 h1]
      unfold stMid; (try dsimp only)
      rw [PhiS_castSucc m c t, PhiS_pos m c _ _ hz]
      iintro ⟨⟨HM, HL, HA⟩, Ho, ⟨%d0, H0⟩, ⟨%d1, H1⟩, ⟨%d2, H2⟩⟩
      iapply ((runMid c (grid0.coords t) _ _ _ _ _ _ _ _ _ _ _ _ hc0 hc1 (iblk m c 0 t) (iblk m c 1 t) _ _ _).2.2.2 _ Set.univ _)
      isplitl [H0]; · iexact H0
      isplitl [H1]; · iexact H1
      isplitl [H2]; · iexact H2
      isplitl [HM]; · iexact HM
      isplitl [HL]; · iexact HL
      isplitl [HA]; · iexact HA
      iintro ⟨H0, H1, H2, ⟨%em, HM⟩, ⟨%el, HL⟩, ⟨%ea, HA⟩⟩
      isplitl [HM HL HA]
      · isplitl [HM]
        · unfold owns; iexists _; isplitr
          swap; · iexact HM
          ipureintro; exact View.read_writes_of_cover _ _ _ _ _ (coverMidM c t _ _ _ _ _ _ _)
        isplitl [HL]
        · unfold owns; iexists _; isplitr
          swap; · iexact HL
          ipureintro; exact View.read_writes_of_cover _ _ _ _ _ (coverMidL c t _ _ _ _ _ _ _)
        · unfold owns; iexists _; isplitr
          swap; · iexact HA
          ipureintro; exact View.read_writes_of_cover _ _ _ _ _ (coverMidA c t _ _ _ _ _ _ _)
      isplitl [Ho]; · iexact Ho
      isplitl [H0]; · iexact H0
      isplitl [H1]; · iexact H1
      iexists _; iexact H2

theorem body_obligation (c : Dev nD) : BodyObligation (dats (F := F) m 0 c) (defs₀ (F := F)) Variants.none () Set.univ := fun t => by
  rw [bigSep_W0, bigSep_W0]
  exact sound_body m c t

end Cert.KernelIdeal.Flash

end
-- ==== Proof.KIPieces.lean ====
import proofs.«145749_j17008070492702_2_alg».proof.Proof.KIFrame
import Idealize.ShloMosaic.Lib.Pipeline.Value

set_option maxRecDepth 16384

noncomputable section

namespace Cert.KernelIdeal.Flash

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-!
  What the three cases leave, as values: each case's found pieces are whole-buffer stores, so the scratch buffers end at
  ONE whole-vector update of the three running statistics (maximum, denominator, numerator) from the query block, the
  key block and the statistics before; the first key block updates from the reset values (−∞, 0, 0); the last key
  block also leaves the output tile at the quotient of the new numerator by the new denominator.
-/

theorem hz3 : (![0, 0, 0] : Fin 3 → Nat) = fun _ => 0 := funext fun a => by fin_cases a <;> rfl

/-- A whole scratch buffer read back through its own view holds what it was set to. -/
theorem read_unread_M (h : scM.IsWhole) (X : Vec F S1x1024x1 .f32) :
    View.read (Elt F) (View.whole cc0_scratch0 : View sig .tc .vmem S1x1024x1 .f32) (h.unread X) = X := h.read_unread X
theorem read_unread_L (h : scL.IsWhole) (X : Vec F S1x1024x1 .f32) :
    View.read (Elt F) (View.whole cc0_scratch1 : View sig .tc .vmem S1x1024x1 .f32) (h.unread X) = X := h.read_unread X
theorem read_unread_A (h : scA.IsWhole) (X : Vec F S1x1024x128 .f32) :
    View.read (Elt F) (View.whole cc0_scratch2 : View sig .tc .vmem S1x1024x128 .f32) (h.unread X) = X := h.read_unread X

/-- The running maximum, denominator and numerator of a query tile's 1024 rows. -/
abbrev Stats (F : FTy → Type) [FloatOps F] : Type := Vec F S1x1024x1 .f32 × Vec F S1x1024x1 .f32 × Vec F S1x1024x128 .f32

/-- One key block's update of the statistics. -/
def upd (x0 x1 : Vec F S1x1024x128 .bf16) (p : Stats F) : Stats F :=
  (k0_pay2 (k0_pay9 x0 x1 p.1), k0_pay12 x0 x1 p.1 p.2.1, k0_pay1 (k0_pay13 x0 x1 p.1 p.2.2))

/-- The reset values: −∞ for the maximum, zero for the two sums. -/
def reset : Stats F := (k0_pay4, k0_pay5, k0_pay6)

/-- The output tile from the statistics: the numerator over the denominator, row by row. -/
def quot (p : Stats F) : Vec F S1x1024x128 .f32 := k0_pay3 p.2.2 p.2.1

theorem stMid_stats (c : Dev nD) (t : Fin cfg0.N) (h0 : ¬t.val % 4 = 0) (h1 : ¬t.val % 4 = 3) (p : St F) :
    (stMid m c t h0 h1 p).2 = upd (iblk m c 0 t) (iblk m c 1 t) p.2 := by
  refine Prod.ext ?_ (Prod.ext ?_ ?_)
  · show (stMid m c t h0 h1 p).2.1 = k0_pay2 (k0_pay9 (iblk m c 0 t) (iblk m c 1 t) p.2.1)
    unfold stMid; dsimp only
    rw [View.read_writes_eq_canon _ _ _ (coverMidM c t _ _ _ _ _ _ _)]
    unfold runMid; dsimp only; sl_unfold_words
    rw [View.canon_unit_zero hz3]
    simp only [View.readCov_unit_zero (S := S1x1024x1) _ hz3, View.readCov_unit_zero (S := S1x1024x128) _ hz3, View.readAt_eq_ld, Memref.IsWhole.read_unread, read_unread_M, read_unread_L, read_unread_A, View.ld_unit_zero (S := S1x1024x128) hz3, View.ld_unit_zero (S := S1x1024x1) hz3]
  · show (stMid m c t h0 h1 p).2.2.1 = k0_pay12 (iblk m c 0 t) (iblk m c 1 t) p.2.1 p.2.2.1
    unfold stMid; dsimp only
    rw [View.read_writes_eq_canon _ _ _ (coverMidL c t _ _ _ _ _ _ _)]
    unfold runMid; dsimp only; sl_unfold_words
    rw [View.canon_unit_zero hz3]
    simp only [View.readCov_unit_zero (S := S1x1024x1) _ hz3, View.readCov_unit_zero (S := S1x1024x128) _ hz3, View.readAt_eq_ld, Memref.IsWhole.read_unread, read_unread_M, read_unread_L, read_unread_A, View.ld_unit_zero (S := S1x1024x128) hz3, View.ld_unit_zero (S := S1x1024x1) hz3]
  · show (stMid m c t h0 h1 p).2.2.2 = k0_pay1 (k0_pay13 (iblk m c 0 t) (iblk m c 1 t) p.2.1 p.2.2.2)
    unfold stMid; dsimp only
    rw [View.read_writes_eq_canon _ _ _ (coverMidA c t _ _ _ _ _ _ _)]
    unfold runMid; dsimp only; sl_unfold_words
    rw [View.canon_unit_zero hz3]
    simp only [View.readCov_unit_zero (S := S1x1024x1) _ hz3, View.readCov_unit_zero (S := S1x1024x128) _ hz3, View.readAt_eq_ld, Memref.IsWhole.read_unread, read_unread_M, read_unread_L, read_unread_A, View.ld_unit_zero (S := S1x1024x128) hz3, View.ld_unit_zero (S := S1x1024x1) hz3]

theorem stLast_stats (c : Dev nD) (t : Fin cfg0.N) (h0 : ¬t.val % 4 = 0) (h1 : t.val % 4 = 3) (p : St F) :
    (stLast m c t h0 h1 p).2 = upd (iblk m c 0 t) (iblk m c 1 t) p.2 := by
  refine Prod.ext ?_ (Prod.ext ?_ ?_)
  · show (stLast m c t h0 h1 p).2.1 = k0_pay2 (k0_pay9 (iblk m c 0 t) (iblk m c 1 t) p.2.1)
    unfold stLast; dsimp only
    rw [View.read_writes_eq_canon _ _ _ (coverLastM c t _ _ _ _ _ _ _)]
    unfold runLast; dsimp only; sl_unfold_words
    rw [View.canon_unit_zero hz3]
    simp only [View.readCov_unit_zero (S := S1x1024x1) _ hz3, View.readCov_unit_zero (S := S1x1024x128) _ hz3, View.readAt_eq_ld, Memref.IsWhole.read_unread, read_unread_M, read_unread_L, read_unread_A, View.ld_unit_zero (S := S1x1024x128) hz3, View.ld_unit_zero (S := S1x1024x1) hz3]
  · show (stLast m c t h0 h1 p).2.2.1 = k0_pay12 (iblk m c 0 t) (iblk m c 1 t) p.2.1 p.2.2.1
    unfold stLast; dsimp only
    rw [View.read_writes_eq_canon _ _ _ (coverLastL c t _ _ _ _ _ _ _)]
    unfold runLast; dsimp only; sl_unfold_words
    rw [View.canon_unit_zero hz3]
    simp only [View.readCov_unit_zero (S := S1x1024x1) _ hz3, View.readCov_unit_zero (S := S1x1024x128) _ hz3, View.readAt_eq_ld, Memref.IsWhole.read_unread, read_unread_M, read_unread_L, read_unread_A, View.ld_unit_zero (S := S1x1024x128) hz3, View.ld_unit_zero (S := S1x1024x1) hz3]
  · show (stLast m c t h0 h1 p).2.2.2 = k0_pay1 (k0_pay13 (iblk m c 0 t) (iblk m c 1 t) p.2.1 p.2.2.2)
    unfold stLast; dsimp only
    rw [View.read_writes_eq_canon _ _ _ (coverLastA c t _ _ _ _ _ _ _)]
    unfold runLast; dsimp only; sl_unfold_words
    rw [View.canon_unit_zero hz3]
    simp only [View.readCov_unit_zero (S := S1x1024x1) _ hz3, View.readCov_unit_zero (S := S1x1024x128) _ hz3, View.readAt_eq_ld, Memref.IsWhole.read_unread, read_unread_M, read_unread_L, read_unread_A, View.ld_unit_zero (S := S1x1024x128) hz3, View.ld_unit_zero (S := S1x1024x1) hz3]

theorem stLast_out (c : Dev nD) (t : Fin cfg0.N) (h0 : ¬t.val % 4 = 0) (h1 : t.val % 4 = 3) (p : St F) :
    (stLast m c t h0 h1 p).1 = quot (upd (iblk m c 0 t) (iblk m c 1 t) p.2) := by
  show _ = k0_pay3 (k0_pay1 (k0_pay13 (iblk m c 0 t) (iblk m c 1 t) p.2.1 p.2.2.2)) (k0_pay12 (iblk m c 0 t) (iblk m c 1 t) p.2.1 p.2.2.1)
  unfold stLast; dsimp only
  rw [View.read_writes_eq_canon _ _ _ (coverLastO c t _ _ _ _ _ _ _)]
  unfold runLast; dsimp only; sl_unfold_words
  rw [View.canon_unit_zero hz3]
  simp only [View.readCov_unit_zero (S := S1x1024x1) _ hz3, View.readCov_unit_zero (S := S1x1024x128) _ hz3, View.readAt_eq_ld, Memref.IsWhole.read_unread, read_unread_M, read_unread_L, read_unread_A, View.ld_unit_zero (S := S1x1024x128) hz3, View.ld_unit_zero (S := S1x1024x1) hz3]

theorem stFirst_stats (c : Dev nD) (t : Fin cfg0.N) (h0 : t.val % 4 = 0) (h1 : ¬t.val % 4 = 3) :
    (stFirst m c t h0 h1).2 = upd (iblk m c 0 t) (iblk m c 1 t) reset := by
  refine Prod.ext ?_ (Prod.ext ?_ ?_)
  · show (stFirst m c t h0 h1).2.1 = k0_pay2 (k0_pay9 (iblk m c 0 t) (iblk m c 1 t) k0_pay4)
    unfold stFirst; dsimp only
    rw [View.read_writes_eq_canon _ _ _ (coverFirstM c t _ _ _ _)]
    unfold runFirst; dsimp only; sl_unfold_words
    rw [View.canon_cons_unit_zero (S := S1x1024x1) hz3]
    simp only [View.readCov_unit_zero (S := S1x1024x1) _ hz3, View.readCov_unit_zero (S := S1x1024x128) _ hz3, View.readAt_eq_ld, Memref.IsWhole.read_unread, read_unread_M, read_unread_L, read_unread_A, View.ld_unit_zero (S := S1x1024x128) hz3, View.ld_unit_zero (S := S1x1024x1) hz3]
  · show (stFirst m c t h0 h1).2.2.1 = k0_pay12 (iblk m c 0 t) (iblk m c 1 t) k0_pay4 k0_pay5
    unfold stFirst; dsimp only
    rw [View.read_writes_eq_canon _ _ _ (coverFirstL c t _ _ _ _)]
    unfold runFirst; dsimp only; sl_unfold_words
    rw [View.canon_cons_unit_zero (S := S1x1024x1) hz3]
    simp only [View.readCov_unit_zero (S := S1x1024x1) _ hz3, View.readCov_unit_zero (S := S1x1024x128) _ hz3, View.readAt_eq_ld, Memref.IsWhole.read_unread, read_unread_M, read_unread_L, read_unread_A, View.ld_unit_zero (S := S1x1024x128) hz3, View.ld_unit_zero (S := S1x1024x1) hz3]
  · show (stFirst m c t h0 h1).2.2.2 = k0_pay1 (k0_pay13 (iblk m c 0 t) (iblk m c 1 t) k0_pay4 k0_pay6)
    unfold stFirst; dsimp only
    rw [View.read_writes_eq_canon _ _ _ (coverFirstA c t _ _ _ _)]
    unfold runFirst; dsimp only; sl_unfold_words
    rw [View.canon_cons_unit_zero (S := S1x1024x128) hz3]
    simp only [View.readCov_unit_zero (S := S1x1024x1) _ hz3, View.readCov_unit_zero (S := S1x1024x128) _ hz3, View.readAt_eq_ld, Memref.IsWhole.read_unread, read_unread_M, read_unread_L, read_unread_A, View.ld_unit_zero (S := S1x1024x128) hz3, View.ld_unit_zero (S := S1x1024x1) hz3]

end Cert.KernelIdeal.Flash

end
-- ==== Proof.KIStats.lean ====
import proofs.«145749_j17008070492702_2_alg».proof.Proof.KIPieces
import Idealize.ShloMosaic.Lib.ValueIdx
import Idealize.ShloMosaic.Lib.StableHlo.Run

set_option maxRecDepth 16384

noncomputable section

namespace Cert.KernelIdeal.Flash

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

local notation "𝕄" => MT nD τ sig Unit (Elt F) ℕ (UR sig nD τ) ℕ

variable (m : (ℓ : Loc nD τ sig) → Buf (Elt F) ℓ) (ρ : Dev nD → PrngReg)
/-!
  The idealized kernel's value, part 1: where the blocks sit, and the statistics after each point.

  Point `t = 16·b + 4·qi + ki` reads rows `1024·qi + r` of batch `b` as its query block and rows `1024·ki + j` of the
  same batch as its key block, and its output tile is rows `1024·qi + r` of batch `b`. The statistics after point `t`
  are one update from those after `t − 1` (from the reset values when `ki = 0`), and at `ki = 3` the output tile is
  the quotient.
-/

/-- The block indices of the three windows, decided over the 64 grid points. -/
theorem idx_facts : ∀ t : Fin cfg0.N,
    win0_0.index t (0 : Fin 3) = t.val / 16 ∧ win0_0.index t (1 : Fin 3) = t.val / 4 % 4 ∧ win0_0.index t (2 : Fin 3) = 0
    ∧ win0_1.index t (0 : Fin 3) = t.val / 16 ∧ win0_1.index t (1 : Fin 3) = t.val % 4 ∧ win0_1.index t (2 : Fin 3) = 0
    ∧ win0_2.index t (0 : Fin 3) = t.val / 16 ∧ win0_2.index t (1 : Fin 3) = t.val / 4 % 4 ∧ win0_2.index t (2 : Fin 3) = 0 :=
  (by decide +kernel : ∀ t : Fin grid0.N, _)

/-- Every output tile is some last-key-block point's. -/
theorem idx_onto : ∀ (q0 : Fin 4) (q1 : Fin 4), ∃ t : Fin cfg0.N, (cfg0.win 2).flush t = true ∧ t.val / 16 = q0.val ∧ t.val / 4 % 4 = q1.val :=
  (by decide +kernel : ∀ (q0 : Fin 4) (q1 : Fin 4), ∃ t : Fin grid0.N, win0_2.flush t = true ∧ t.val / 16 = q0.val ∧ t.val / 4 % 4 = q1.val)

variable (mI : (ℓ : Loc nD τ sig) → Buf (Elt Ideal) ℓ)

/-- The array both input windows read, as the region finds it: the input itself (a change of format is the identity
    on extended reals). -/
theorem V_copy (c : Dev nD) : (V mI c main_v0 : S4x4096x128.Idx → EReal) = mI ((c : Thread nD τ).loc main_arg0) := by
  dsimp only [V, hostOps0]; after_results; rfl

/-- The query block of point `t` at row `r`, entry `e`. -/
theorem iblk_q (c : Dev nD) (t : Fin cfg0.N) (r : Fin 1024) (e : Fin 128) (hb : t.val / 16 < 4) (hs : 1024 * (t.val / 4 % 4) + r.val < 4096) :
    (iblk mI c 0 t : Vec Ideal S1x1024x128 .bf16) (ix3 0 r e)
      = (mI ((c : Thread nD τ).loc main_arg0) : S4x4096x128.Idx → EReal) (ix3 ⟨t.val / 16, hb⟩ ⟨1024 * (t.val / 4 % 4) + r.val, hs⟩ e) := by
  obtain ⟨e0, e1, e2, -⟩ := idx_facts t
  unfold iblk
  rw [View.read_apply]
  show (V mI c main_v0 : S4x4096x128.Idx → EReal) _ = _
  rw [V_copy]
  congr 1
  funext a; apply Fin.ext
  match a with
  | ⟨0, _⟩ => show win0_0.index t (0 : Fin 3) * 1 + 1 * 0 = t.val / 16; omega
  | ⟨1, _⟩ => show win0_0.index t (1 : Fin 3) * 1024 + 1 * r.val = 1024 * (t.val / 4 % 4) + r.val; omega
  | ⟨2, _⟩ => show win0_0.index t (2 : Fin 3) * 128 + 1 * e.val = e.val; omega

/-- The key block of point `t` at row `j`, entry `e`. -/
theorem iblk_kv (c : Dev nD) (t : Fin cfg0.N) (j : Fin 1024) (e : Fin 128) (hb : t.val / 16 < 4) (hs : 1024 * (t.val % 4) + j.val < 4096) :
    (iblk mI c 1 t : Vec Ideal S1x1024x128 .bf16) (ix3 0 j e)
      = (mI ((c : Thread nD τ).loc main_arg0) : S4x4096x128.Idx → EReal) (ix3 ⟨t.val / 16, hb⟩ ⟨1024 * (t.val % 4) + j.val, hs⟩ e) := by
  obtain ⟨-, -, -, e0, e1, e2, -⟩ := idx_facts t
  unfold iblk
  rw [View.read_apply]
  show (V mI c main_v0 : S4x4096x128.Idx → EReal) _ = _
  rw [V_copy]
  congr 1
  funext a; apply Fin.ext
  match a with
  | ⟨0, _⟩ => show win0_1.index t (0 : Fin 3) * 1 + 1 * 0 = t.val / 16; omega
  | ⟨1, _⟩ => show win0_1.index t (1 : Fin 3) * 1024 + 1 * j.val = 1024 * (t.val % 4) + j.val; omega
  | ⟨2, _⟩ => show win0_1.index t (2 : Fin 3) * 128 + 1 * e.val = e.val; omega

/-! ## The statistics, point by point -/

theorem stats_first (c : Dev nD) (t : Fin cfg0.N) (h0 : t.val % 4 = 0) :
    (outsAt m c t.val t.isLt).2 = upd (iblk m c 0 t) (iblk m c 1 t) reset := by
  have h1 : ¬t.val % 4 = 3 := by omega
  rw [outsAt_first m c t h0 h1, stFirst_stats]

theorem stats_next (c : Dev nD) (t : Fin cfg0.N) (h0 : ¬t.val % 4 = 0) :
    (outsAt m c t.val t.isLt).2 = upd (iblk m c 0 t) (iblk m c 1 t) (outsAt m c (t.val - 1) (Nat.lt_of_le_of_lt (Nat.sub_le _ _) t.isLt)).2 := by
  by_cases h1 : t.val % 4 = 3
  · rw [outsAt_last m c t h0 h1, stLast_stats]
  · rw [outsAt_mid m c t h0 h1, stMid_stats]

theorem out_last (c : Dev nD) (t : Fin cfg0.N) (h1 : t.val % 4 = 3) :
    (outsAt m c t.val t.isLt).1 = quot (upd (iblk m c 0 t) (iblk m c 1 t) (outsAt m c (t.val - 1) (Nat.lt_of_le_of_lt (Nat.sub_le _ _) t.isLt)).2) := by
  have h0 : ¬t.val % 4 = 0 := by omega
  rw [outsAt_last m c t h0 h1, stLast_out]

/-- After the last key block of a query tile: four updates from the reset values, over the tile's four points. -/
theorem stats_four (c : Dev nD) (t : Fin cfg0.N) (h1 : t.val % 4 = 3) :
    (outsAt m c t.val t.isLt).2
      = upd (iblk m c 0 t) (iblk m c 1 t)
          (upd (iblk m c 0 ⟨t.val - 1, by omega⟩) (iblk m c 1 ⟨t.val - 1, by omega⟩)
            (upd (iblk m c 0 ⟨t.val - 2, by omega⟩) (iblk m c 1 ⟨t.val - 2, by omega⟩)
              (upd (iblk m c 0 ⟨t.val - 3, by omega⟩) (iblk m c 1 ⟨t.val - 3, by omega⟩) reset))) := by
  have ht := t.isLt
  rw [stats_next m c t (by omega)]
  rw [show (outsAt m c (t.val - 1) (Nat.lt_of_le_of_lt (Nat.sub_le _ _) t.isLt)).2 = (outsAt m c (⟨t.val - 1, by omega⟩ : Fin cfg0.N).val (⟨t.val - 1, by omega⟩ : Fin cfg0.N).isLt).2 from rfl,
    stats_next m c ⟨t.val - 1, by omega⟩ (by show ¬(t.val - 1) % 4 = 0; omega)]
  rw [show (outsAt m c ((⟨t.val - 1, by omega⟩ : Fin cfg0.N).val - 1) (Nat.lt_of_le_of_lt (Nat.sub_le _ _) (⟨t.val - 1, by omega⟩ : Fin cfg0.N).isLt)).2 = (outsAt m c (⟨t.val - 2, by omega⟩ : Fin cfg0.N).val (⟨t.val - 2, by omega⟩ : Fin cfg0.N).isLt).2 from by
      congr 2,
    stats_next m c ⟨t.val - 2, by omega⟩ (by show ¬(t.val - 2) % 4 = 0; omega)]
  rw [show (outsAt m c ((⟨t.val - 2, by omega⟩ : Fin cfg0.N).val - 1) (Nat.lt_of_le_of_lt (Nat.sub_le _ _) (⟨t.val - 2, by omega⟩ : Fin cfg0.N).isLt)).2 = (outsAt m c (⟨t.val - 3, by omega⟩ : Fin cfg0.N).val (⟨t.val - 3, by omega⟩ : Fin cfg0.N).isLt).2 from by
      congr 2,
    stats_first m c ⟨t.val - 3, by omega⟩ (by show (t.val - 3) % 4 = 0; omega)]

end Cert.KernelIdeal.Flash

end
-- ==== Proof.KILaunch.lean ====
import proofs.«145749_j17008070492702_2_alg».proof.Proof.KIFrame

set_option maxRecDepth 16384

noncomputable section

namespace Cert.KernelIdeal.Flash

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-!
  The launch of the attention kernel's region. The query window and the key window name ONE array, the bf16 copy of the
  input; the launch hands that buffer over whole, and it is split in two halves of its share, one per window (both only
  read it). The output window's array is held whole. The argument array bypasses the region and is read back at the end.
-/

/-- The proof's resource algebra: one copy of the rounds library's, the pipeline's. -/
abbrev EP : Emb (UR sig nD τ) (MT nD τ sig Unit (Elt F) ℕ (UR sig nD τ) ℕ) := emb₁

/-- The launch element: every staging cell's owner at round 0 and a duty token for every transfer the pipeline issues. -/
def u₀ : UR sig nD τ := initOf (Pipeline.cells cfgs cellOf_inj) (Pipeline.launchToks cfgs cellOf_inj)

/-- The windows name two buffers: the bf16 copy (twice) and the result. -/
theorem arrRefs_eq : (Finset.univ.image (Pipeline.arrRef spec0) : Finset (Ref sig .tc)) = {main_v0, main_v1} := by decide

/-- The buffers behind the arrays, whole, make the windows' arrays: the copy's share halved between its two readers. -/
theorem hsplit (c : Dev nD) :
    (Pipeline.arrBufs (Ix := Unit) (Name := ℕ) (U := UR sig nD τ) (Lvl := ℕ) spec0 c (V m c) : sProp 𝕄) ⊢ (dats m 0 c).arrays ((dats m 0 c).arrAt · 0) := by
  have hL : (Pipeline.arrBufs (Ix := Unit) (Name := ℕ) (U := UR sig nD τ) (Lvl := ℕ) spec0 c (V m c) : sProp 𝕄)
      = iprop((((c : Thread nD τ).loc main_v0) ↦{fullShare} V m c main_v0) ∗ (((c : Thread nD τ).loc main_v1) ↦{fullShare} V m c main_v1)) := by
    unfold Pipeline.arrBufs
    rw [arrRefs_eq, bigSep_insert (by decide), bigSep_singleton]
    rfl
  rw [hL]
  unfold Dat.arrays
  rw [bigSep_W0]
  rw [(arr_whole0 0).set_eq_univ, (arr_whole0 2).set_eq_univ]
  rw [show (dats m 0 c).share 0 = fullShare.left from rfl, show (dats m 0 c).share 1 = fullShare.right from rfl, show (dats m 0 c).share 2 = fullShare from rfl]
  iintro ⟨H0, H1⟩
  ihave H0' := (pointsTo_share (PosShare.mem_left_op_right fullShare)).1 $$ H0
  icases H0' with ⟨Hl, Hr⟩
  isplitl [Hl]; · iexact Hl
  isplitl [Hr]; · iexact Hr
  iexact H1

/-- What the run establishes: every window's array at what the library computes from the proof data, and the argument
    array as the region found it. -/
def RunPost (r : PUnit × MemSt nD τ sig (Elt F)) : Prop :=
  ∀ c : Dev nD, (∀ w, r.2.mem ((spec0 w).arr.view.loc (c : Thread nD τ)) = (dats m 0 c).arrAt w cfg0.N)
    ∧ r.2.mem ((c : Thread nD τ).loc main_arg0) = V m c main_arg0

set_option backward.isDefEq.respectTransparency.types false in
theorem run_main : θ_run defs (onTc (τ := τ) (main (F := F))) (s₀ m ρ) (RunPost m) :=
  Pipeline.θ_run_region_noSem_shared cfgs (dats m) () cellOf_inj (0 : Fin 1) winFacts₀0 EP defs₀ Variants.none m ρ main
    (hbody := fun c => (body_obligation m c).loose)
    (hne := block_pos0) (harr := arr_whole0) (hstage := stage_whole0)
    (howed := fun _ _ => rfl)
    (u₀ := u₀) (hu₀ := BI.Entails.refl _)
    (V := V m) (hmain := hmain m Variants.none)
    (hsplit := hsplit m)
    (X := fun _ => iprop(emp)) (Y := fun _ => iprop(emp))
    (Z := fun c => iprop(((c : Thread nD τ).loc main_arg0) ↦{fullShare} V m c main_arg0))
    (hX := fun c => by
      rw [unscopedRest0_eq]
      iintro H; isplitr; · iempintro
      iexact H)
    (hin := fun c => by
      rw [show (dats m 0 c).Φ 0 = PhiS m c 0 (Nat.zero_le _) from rfl, PhiS_zero m c 0 _ rfl]
      iintro ⟨-, H⟩; iexact H)
    (hout := fun c => by
      rw [show (dats m 0 c).Φ (Fin.last cfg0.N) = PhiS m c (Fin.last cfg0.N).val (Nat.le_of_lt_succ (Fin.last cfg0.N).isLt) from rfl,
        PhiS_pos m c _ _ (by rw [Fin.val_last]; have : cfg0.N = 64 := N_0; omega), scopedRest_eq]
      iintro ⟨HM, HL, HA⟩
      isplitr; · iempintro
      isplitl [HM]; · iexists _; iexact HM
      isplitl [HL]; · iexists _; iexact HL
      iexists _; iexact HA)
    (QY := fun c s => s.mem ((c : Thread nD τ).loc main_arg0) = V m c main_arg0)
    (hY := fun c s' => by
      iintro ⟨-, H0, HSI⟩
      icombine HSI H0 gives %h0
      imodintro
      isplitr; · ipureintro; exact Buf.eq_of_forall_mem_univ h0
      iexact HSI)
    (hQ := fun _ hh => hh)

/-- The frame: the program runs to the end, nothing faults, and the argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c => ((h c).2).trans (V_main_arg0 m c)) (run_main m ρ)

end Cert.KernelIdeal.Flash

end
-- ==== Proof.LibOnlineSoftmax.lean ====
import Mathlib
import Idealize.ShloMosaic.PureOps.Ideal

/-!
# The online softmax over four blocks equals the plain softmax

A row of 4096 scores and values is processed in four blocks of 1024 columns.  The online
algorithm keeps a running maximum, a running denominator and a running numerator, and rescales
the two sums by `exp (old max - new max)` at every block.  The softmax is invariant under a
shift of the scores by any finite constant, so the quotient numerator / denominator at the end
equals the softmax-weighted sum of the values computed with the maximum of the whole row.

All scores and values are finite reals (coerced to extended reals); the only infinity is the
initial running maximum `⊥`, which the first block replaces by a finite number.
-/

namespace Cert.OnlineSoftmax
open Idealize.ShloMosaic

/-- one step of the online softmax on a block of 1024 scores `sc` and values `v`; the state is
    (running max, running denominator, running numerator) -/
noncomputable def step (sc v : Fin 1024 → EReal) (st : EReal × EReal × EReal) : EReal × EReal × EReal :=
  let mn := max st.1 ((Finset.univ : Finset (Fin 1024)).fold max ⊥ sc)
  (mn, Ideal.exp (st.1 - mn) * st.2.1 + ∑ j, Ideal.exp (sc j - mn),
    Ideal.exp (st.1 - mn) * st.2.2 + ∑ j, Ideal.exp (sc j - mn) * v j)

/-- column `1024 * k + j` of a row of 4096 -/
def col (k : Fin 4) (j : Fin 1024) : Fin 4096 := ⟨1024 * k.val + j.val, by omega⟩

/-- block `k` of a real row, as extended reals -/
noncomputable def blk (f : Fin 4096 → ℝ) (k : Fin 4) : Fin 1024 → EReal :=
  fun j => ((f (col k j) : ℝ) : EReal)

/-- the state of the online softmax after the four blocks -/
noncomputable def onlineState (S V : Fin 4096 → ℝ) : EReal × EReal × EReal :=
  step (blk S 3) (blk V 3) (step (blk S 2) (blk V 2) (step (blk S 1) (blk V 1)
    (step (blk S 0) (blk V 0) (⊥, 0, 0))))

/-- the reference's row maximum -/
noncomputable def refM (S : Fin 4096 → ℝ) : EReal :=
  max ⊥ ((Finset.univ : Finset (Fin 4096)).fold max ⊥ (fun t => ((S t : ℝ) : EReal)))

/-- the reference's denominator -/
noncomputable def refL (S : Fin 4096 → ℝ) : EReal :=
  0 + ∑ t : Fin 4096, Ideal.exp (((S t : ℝ) : EReal) - refM S)

/-! ### Coercions out of sums and maxima -/

/-- the coercion of reals into extended reals commutes with finite sums -/
theorem coe_sum {ι : Type*} (s : Finset ι) (f : ι → ℝ) :
    ((∑ i ∈ s, f i : ℝ) : EReal) = ∑ i ∈ s, ((f i : ℝ) : EReal) := by
  classical
  refine Finset.induction_on s (by simp) ?_
  intro a s ha ih
  rw [Finset.sum_insert ha, Finset.sum_insert ha, EReal.coe_add, ih]

theorem coe_max (a b : ℝ) : ((max a b : ℝ) : EReal) = max (a : EReal) (b : EReal) :=
  EReal.coe_strictMono.monotone.map_max

/-- the maximum of finitely many (at least one) finite numbers, started from `⊥`, is finite -/
theorem fold_max_coe {ι : Type*} (s : Finset ι) (hs : s.Nonempty) (f : ι → ℝ) :
    ∃ m : ℝ, s.fold max ⊥ (fun i => ((f i : ℝ) : EReal)) = (m : EReal) := by
  classical
  have h : ∀ s : Finset ι, s.fold max ⊥ (fun i => ((f i : ℝ) : EReal)) = ⊥ ∨
      ∃ m : ℝ, s.fold max ⊥ (fun i => ((f i : ℝ) : EReal)) = (m : EReal) := by
    intro s
    refine Finset.induction_on s (Or.inl Finset.fold_empty) ?_
    intro a s ha ih
    right
    rw [Finset.fold_insert ha]
    rcases ih with h | ⟨m, h⟩
    · exact ⟨f a, by rw [h, max_eq_left bot_le]⟩
    · exact ⟨max (f a) m, by rw [h, coe_max]⟩
  rcases h s with h | h
  · exfalso
    obtain ⟨a, ha⟩ := hs
    have hle : ((f a : ℝ) : EReal) ≤ s.fold max ⊥ (fun i => ((f i : ℝ) : EReal)) :=
      (Finset.le_fold_max _).mpr (Or.inr ⟨a, ha, le_rfl⟩)
    rw [h] at hle
    exact EReal.coe_ne_bot _ (le_bot_iff.mp hle)
  · exact h

theorem exp_coe_sub (a b : ℝ) :
    Ideal.exp ((a : EReal) - (b : EReal)) = ((Real.exp (a - b) : ℝ) : EReal) := by
  rw [← EReal.coe_sub]; exact Ideal.exp_coe _

/-! ### Shifted denominators and numerators in the reals -/

/-- the softmax denominator of the scores `x` relative to the shift `m` -/
noncomputable def den {ι : Type*} [Fintype ι] (x : ι → ℝ) (m : ℝ) : ℝ :=
  ∑ i, Real.exp (x i - m)

/-- the softmax numerator of the scores `x` and values `y` relative to the shift `m` -/
noncomputable def num {ι : Type*} [Fintype ι] (x y : ι → ℝ) (m : ℝ) : ℝ :=
  ∑ i, Real.exp (x i - m) * y i

/-- a quantity that changing the shift from `m` to `m'` multiplies by `exp (m - m')` -/
def Scales (P : ℝ → ℝ) : Prop := ∀ m m' : ℝ, Real.exp (m - m') * P m = P m'

theorem scales_den {ι : Type*} [Fintype ι] (x : ι → ℝ) : Scales (den x) := by
  intro m m'
  unfold den
  rw [Finset.mul_sum]
  refine Finset.sum_congr rfl fun i _ => ?_
  rw [← Real.exp_add]; congr 1; ring

theorem scales_num {ι : Type*} [Fintype ι] (x y : ι → ℝ) : Scales (num x y) := by
  intro m m'
  unfold num
  rw [Finset.mul_sum]
  refine Finset.sum_congr rfl fun i _ => ?_
  rw [← mul_assoc, ← Real.exp_add]; congr 2; ring

theorem Scales.add {P Q : ℝ → ℝ} (hP : Scales P) (hQ : Scales Q) :
    Scales (fun m => P m + Q m) := by
  intro m m'
  show _ * (P m + Q m) = P m' + Q m'
  rw [mul_add, hP, hQ]

theorem den_pos {ι : Type*} [Fintype ι] [Nonempty ι] (x : ι → ℝ) (m : ℝ) : 0 < den x m :=
  Finset.sum_pos (fun i _ => Real.exp_pos _) Finset.univ_nonempty

/-- shift invariance of the softmax: the quotient at any shift `m` is the weighted sum at any
    other shift `M` -/
theorem softmax_shift {ι : Type*} [Fintype ι] [Nonempty ι] (x y : ι → ℝ) (m M : ℝ) :
    num x y m / den x m = ∑ i, Real.exp (x i - M) * (1 / den x M) * y i := by
  have hd : den x m = Real.exp (M - m) * den x M := (scales_den x M m).symm
  have hn : num x y m = Real.exp (M - m) * num x y M := (scales_num x y M m).symm
  have hr : ∑ i, Real.exp (x i - M) * (1 / den x M) * y i = num x y M / den x M := by
    unfold num
    rw [Finset.sum_div]
    refine Finset.sum_congr rfl fun i _ => ?_
    ring
  rw [hr, hd, hn, mul_div_mul_left _ _ (Real.exp_pos _).ne']

/-- the extended-real denominator of finite scores at a finite shift -/
theorem sum_exp_coe {ι : Type*} [Fintype ι] (x : ι → ℝ) (m : ℝ) :
    ∑ i, Ideal.exp (((x i : ℝ) : EReal) - (m : EReal)) = ((den x m : ℝ) : EReal) := by
  unfold den
  rw [coe_sum]
  exact Finset.sum_congr rfl fun i _ => exp_coe_sub _ _

/-- the extended-real numerator of finite scores and values at a finite shift -/
theorem sum_exp_mul_coe {ι : Type*} [Fintype ι] (x y : ι → ℝ) (m : ℝ) :
    ∑ i, Ideal.exp (((x i : ℝ) : EReal) - (m : EReal)) * ((y i : ℝ) : EReal)
      = ((num x y m : ℝ) : EReal) := by
  unfold num
  rw [coe_sum]
  refine Finset.sum_congr rfl fun i _ => ?_
  rw [exp_coe_sub, EReal.coe_mul]

/-! ### One block of the online algorithm -/

theorem step_def (sc v : Fin 1024 → EReal) (a b c : EReal) :
    step sc v (a, b, c) =
      (max a ((Finset.univ : Finset (Fin 1024)).fold max ⊥ sc),
        Ideal.exp (a - max a ((Finset.univ : Finset (Fin 1024)).fold max ⊥ sc)) * b
          + ∑ j, Ideal.exp (sc j - max a ((Finset.univ : Finset (Fin 1024)).fold max ⊥ sc)),
        Ideal.exp (a - max a ((Finset.univ : Finset (Fin 1024)).fold max ⊥ sc)) * c
          + ∑ j, Ideal.exp (sc j - max a ((Finset.univ : Finset (Fin 1024)).fold max ⊥ sc)) * v j) :=
  rfl

/-- the state whose running maximum is the finite `m` and whose two sums are `P m` and `Q m` -/
noncomputable def stateAt (P Q : ℝ → ℝ) (m : ℝ) : EReal × EReal × EReal :=
  ((m : EReal), ((P m : ℝ) : EReal), ((Q m : ℝ) : EReal))

/-- the invariant: the state is finite, and its two sums are the values at the running maximum of
    two quantities that follow a change of shift -/
def Reached (st : EReal × EReal × EReal) (P Q : ℝ → ℝ) : Prop :=
  Scales P ∧ Scales Q ∧ ∃ m : ℝ, st = stateAt P Q m

/-- the first block: the initial maximum `⊥` contributes `exp ⊥ * 0 = 0` -/
theorem step_init (s w : Fin 1024 → ℝ) :
    Reached (step (fun j => ((s j : ℝ) : EReal)) (fun j => ((w j : ℝ) : EReal)) (⊥, 0, 0))
      (den s) (num s w) := by
  refine ⟨scales_den s, scales_num s w, ?_⟩
  obtain ⟨m, hm⟩ := fold_max_coe Finset.univ Finset.univ_nonempty s
  refine ⟨m, ?_⟩
  rw [step_def, hm, max_eq_right bot_le, EReal.bot_sub, Ideal.exp_bot, zero_mul, zero_add,
    zero_add, sum_exp_coe, sum_exp_mul_coe]
  rfl

/-- a later block: the old sums are rescaled to the new maximum and the block's sums are added -/
theorem step_next (s w : Fin 1024 → ℝ) {st : EReal × EReal × EReal} {P Q : ℝ → ℝ}
    (h : Reached st P Q) :
    Reached (step (fun j => ((s j : ℝ) : EReal)) (fun j => ((w j : ℝ) : EReal)) st)
      (fun m => P m + den s m) (fun m => Q m + num s w m) := by
  obtain ⟨hP, hQ, m, rfl⟩ := h
  refine ⟨hP.add (scales_den s), hQ.add (scales_num s w), ?_⟩
  obtain ⟨b, hb⟩ := fold_max_coe Finset.univ Finset.univ_nonempty s
  refine ⟨max m b, ?_⟩
  unfold stateAt
  rw [step_def, hb, ← coe_max, exp_coe_sub, sum_exp_coe, sum_exp_mul_coe, ← EReal.coe_mul,
    ← EReal.coe_mul, ← EReal.coe_add, ← EReal.coe_add, hP, hQ]

/-! ### The row as four blocks -/

/-- columns of the row correspond to pairs (block, column within the block) -/
def colEquiv : Fin 4 × Fin 1024 ≃ Fin 4096 where
  toFun p := col p.1 p.2
  invFun t := (⟨t.val / 1024, by omega⟩, ⟨t.val % 1024, by omega⟩)
  left_inv := by
    rintro ⟨k, j⟩
    refine Prod.ext (Fin.ext ?_) (Fin.ext ?_)
    · show (1024 * k.val + j.val) / 1024 = k.val
      omega
    · show (1024 * k.val + j.val) % 1024 = j.val
      omega
  right_inv := by
    intro t
    refine Fin.ext ?_
    show 1024 * (t.val / 1024) + t.val % 1024 = t.val
    omega

theorem sum_blocks {α : Type*} [AddCommMonoid α] (g : Fin 4096 → α) :
    ∑ t, g t = ∑ k : Fin 4, ∑ j : Fin 1024, g (col k j) := by
  rw [← colEquiv.sum_comp g, Fintype.sum_prod_type]
  rfl

theorem den_row (S : Fin 4096 → ℝ) (m : ℝ) :
    den S m = den (fun j => S (col 0 j)) m + den (fun j => S (col 1 j)) m
      + den (fun j => S (col 2 j)) m + den (fun j => S (col 3 j)) m := by
  unfold den
  rw [sum_blocks, Fin.sum_univ_four]

theorem num_row (S V : Fin 4096 → ℝ) (m : ℝ) :
    num S V m = num (fun j => S (col 0 j)) (fun j => V (col 0 j)) m
      + num (fun j => S (col 1 j)) (fun j => V (col 1 j)) m
      + num (fun j => S (col 2 j)) (fun j => V (col 2 j)) m
      + num (fun j => S (col 3 j)) (fun j => V (col 3 j)) m := by
  unfold num
  rw [sum_blocks, Fin.sum_univ_four]

/-- after the four blocks the state is finite, with the whole row's denominator and numerator at
    the running maximum -/
theorem onlineState_eq (S V : Fin 4096 → ℝ) :
    ∃ m : ℝ, onlineState S V = ((m : EReal), ((den S m : ℝ) : EReal), ((num S V m : ℝ) : EReal)) := by
  have h := step_next (fun j => S (col 3 j)) (fun j => V (col 3 j))
    (step_next (fun j => S (col 2 j)) (fun j => V (col 2 j))
      (step_next (fun j => S (col 1 j)) (fun j => V (col 1 j))
        (step_init (fun j => S (col 0 j)) (fun j => V (col 0 j)))))
  obtain ⟨_, _, m, hm⟩ := h
  refine ⟨m, ?_⟩
  rw [den_row, num_row]
  exact hm

/-! ### The theorem -/

theorem online_eq_softmax' (S V : Fin 4096 → ℝ) :
    Ideal.div (onlineState S V).2.2 (onlineState S V).2.1
      = ∑ t : Fin 4096, Ideal.div (Ideal.exp (((S t : ℝ) : EReal) - refM S)) (refL S) * ((V t : ℝ) : EReal) := by
  obtain ⟨m, hm⟩ := onlineState_eq S V
  obtain ⟨M, hM⟩ := fold_max_coe Finset.univ Finset.univ_nonempty S
  have hrefM : refM S = (M : EReal) := by
    unfold refM
    rw [hM, max_eq_right bot_le]
  have hrefL : refL S = ((den S M : ℝ) : EReal) := by
    unfold refL
    rw [hrefM, zero_add, sum_exp_coe]
  have hterm : ∀ t : Fin 4096,
      Ideal.div (Ideal.exp (((S t : ℝ) : EReal) - (M : EReal))) ((den S M : ℝ) : EReal) * ((V t : ℝ) : EReal)
        = ((Real.exp (S t - M) * (1 / den S M) * V t : ℝ) : EReal) := by
    intro t
    rw [Ideal.div_coe (den_pos S M).ne', exp_coe_sub, ← EReal.coe_mul, ← EReal.coe_mul]
  rw [hm, hrefM, hrefL]
  show Ideal.div ((num S V m : ℝ) : EReal) ((den S m : ℝ) : EReal) = _
  rw [Ideal.div_coe (den_pos S m).ne', ← EReal.coe_mul, Finset.sum_congr rfl (fun t _ => hterm t),
    ← coe_sum, ← softmax_shift S V m M, mul_one_div]

theorem online_eq_softmax (S V : Fin 4096 → ℝ) :
    let blk (f : Fin 4096 → ℝ) (k : Fin 4) : Fin 1024 → EReal := fun j => ((f (col k j) : ℝ) : EReal)
    let st := step (blk S 3) (blk V 3) (step (blk S 2) (blk V 2) (step (blk S 1) (blk V 1) (step (blk S 0) (blk V 0) (⊥, 0, 0))))
    let M : EReal := max ⊥ ((Finset.univ : Finset (Fin 4096)).fold max ⊥ (fun t => ((S t : ℝ) : EReal)))
    let L : EReal := 0 + ∑ t : Fin 4096, Ideal.exp (((S t : ℝ) : EReal) - M)
    Ideal.div st.2.2 st.2.1 = ∑ t : Fin 4096, Ideal.div (Ideal.exp (((S t : ℝ) : EReal) - M)) L * ((V t : ℝ) : EReal) :=
  online_eq_softmax' S V

end Cert.OnlineSoftmax
-- ==== Proof.KIPayloads.lean ====
import proofs.«145749_j17008070492702_2_alg».proof.Proof.Gen.KernelIdeal.Skeleton
import proofs.«145749_j17008070492702_2_alg».proof.Proof.LibOnlineSoftmax
import Idealize.ShloMosaic.PureOps.Ideal.Laws
import Idealize.ShloMosaic.Lib.ValueIdx
import Idealize.ShloMosaic.Lib.Pipeline.Value
import Idealize.ShloMosaic.Lib.ValueLayout

/-!
# The attention body's arithmetic, read element by element

Each value the body stores is read at one index, at the exact extended-real semantics: the scores
are the inner products of a query row with the key rows, the new running maximum is the old one
against the row maximum of the scores, and the new denominator and numerator are the old ones
rescaled by `exp (old max - new max)` plus the block's sums of `exp (score - new max)` and of
those weights times the value rows.  Row by row this is one step of the online softmax.
-/

noncomputable section

namespace Cert.KernelIdeal.Payloads

open Cert.KernelIdeal Cert.KernelIdeal.Gen Idealize.ShloMosaic Idealize.ShloMosaic.ValueIdx

/-! ### Two layout operations on a middle axis, read at an index -/

section Layout
variable {α : Type}

/-- A `[1, a]` array cast to `[1, a, 1]` reads, at `(u, i, w)`, the operand at `(0, i)`. -/
theorem shapeCast_1a_1a1_apply {a : ℕ} (x : (⟨2, ![1, a]⟩ : Shape).Idx → α)
    (h : (⟨2, ![1, a]⟩ : Shape).ShapeCasts ⟨3, ![1, a, 1]⟩) (u : Fin 1) (i : Fin a) (w : Fin 1) :
    shapeCast ⟨3, ![1, a, 1]⟩ x h (ix3 u i w) = x (ix2 (0 : Fin 1) i) :=
  shapeCast_apply x h _ _ (by
    have hu : u.val = 0 := by omega
    have hw : w.val = 0 := by omega
    rw [Shape.rowMajor_val_two, Shape.rowMajor_val_three]
    show 0 * a + i.val = (u.val * a + i.val) * 1 + w.val
    rw [hu, hw, Nat.zero_mul, Nat.zero_add, Nat.mul_one, Nat.add_zero])

/-- A `[1, a, 1]` array broadcast to `[1, a, b]` reads, at `(u, i, j)`, the operand at `(0, i, 0)`. -/
theorem broadcastTo_1a1_1ab_apply {a b : ℕ} (v : (⟨3, ![1, a, 1]⟩ : Shape).Idx → α)
    (h : (⟨3, ![1, a, 1]⟩ : Shape).Broadcasts ⟨3, ![1, a, b]⟩) (u : Fin 1) (i : Fin a) (j : Fin b) :
    broadcastTo ⟨3, ![1, a, b]⟩ v h (ix3 u i j) = v (ix3 (0 : Fin 1) i (0 : Fin 1)) := by
  refine broadcastTo_apply v h (ix3 u i j) (ix3 (0 : Fin 1) i (0 : Fin 1)) fun ax => ?_
  match ax with
  | ⟨0, _⟩ => rfl
  | ⟨1, _⟩ =>
    show i.val = if a = 1 then 0 else i.val
    split
    · have := i.isLt; omega
    · rfl
  | ⟨2, _⟩ => rfl

end Layout

/-! ### Constants -/

theorem ofBits_neg_inf_f32 : Ideal.ofBits .f32 0xFF800000#32 = ⊥ := by simp [Ideal.ofBits, Ideal.ieee]

/-! ### The two reductions over the key axis -/

/-- The row maximum: the fold of `max` from `⊥` over the row's 1024 entries. -/
theorem rowmax_apply (src : FVec Ideal S1x1024x1024 .f32) (hφ : FKind.Formats .f32)
    (hacc : (0xFF800000#32 : BitVec 32) = 0xFF800000#32) (r : Fin 1024) :
    multiReduction (F := Ideal) .maximumf [2] S1x1024 src 0xFF800000#32 reduces_S1x1024x1024_S1x1024 hφ hacc
        (ix2 (0 : Fin 1) r)
      = (Finset.univ : Finset (Fin 1024)).fold max ⊥ (fun j => src (ix3 (0 : Fin 1) r j)) := by
  refine (Ideal.multiReduction_maximumf_single src 0xFF800000#32 reduces_S1x1024x1024_S1x1024 hφ hacc
    (ix2 (0 : Fin 1) r)).trans ?_
  show (Finset.univ : Finset (Fin 1024)).fold max (Ideal.ofBits .f32 0xFF800000#32)
      (fun k : Fin 1024 => src (reduces_S1x1024x1024_S1x1024.lift (ix2 (0 : Fin 1) r) k)) = _
  rw [ofBits_neg_inf_f32]
  refine congrArg (fun f => (Finset.univ : Finset (Fin 1024)).fold max ⊥ f) (funext fun k => congrArg src ?_)
  funext c
  refine Fin.ext ?_
  match c with
  | ⟨0, _⟩ => rfl
  | ⟨1, _⟩ => rfl
  | ⟨2, _⟩ => rfl

/-- The row sum: the sum of the row's 1024 entries. -/
theorem rowsum_apply (src : FVec Ideal S1x1024x1024 .f32) (hφ : FKind.Formats .f32)
    (hacc : (0x00000000#32 : BitVec 32) = 0x00000000#32) (r : Fin 1024) :
    multiReduction (F := Ideal) .add [2] S1x1024 src 0x00000000#32 reduces_S1x1024x1024_S1x1024 hφ hacc
        (ix2 (0 : Fin 1) r)
      = ∑ j : Fin 1024, src (ix3 (0 : Fin 1) r j) := by
  refine (Ideal.multiReduction_add_single src 0x00000000#32 reduces_S1x1024x1024_S1x1024 hφ hacc
    (ix2 (0 : Fin 1) r)).trans ?_
  show ∑ k : Fin 1024, src (reduces_S1x1024x1024_S1x1024.lift (ix2 (0 : Fin 1) r) k) = _
  refine Finset.sum_congr rfl fun k _ => congrArg src ?_
  funext c
  refine Fin.ext ?_
  match c with
  | ⟨0, _⟩ => rfl
  | ⟨1, _⟩ => rfl
  | ⟨2, _⟩ => rfl

/-! ### The two matrix products, read at an index

The operand indices of the scores' product at output index `(b, r, j)` and contraction index `e` are
`(b, r, e)` and `(b, j, e)`; those of the numerator's product at `(b, r, d)` and `j` are `(b, r, j)` and
`(b, j, d)`. -/

theorem lhs_scores_0 (i : S1x1024x1024.Idx) (q : dot_S1x1024x128_S1x1024x128_S1x1024x1024_2_2_1_1_0_0.contr.Idx) :
    (dot_S1x1024x128_S1x1024x128_S1x1024x1024_2_2_1_1_0_0.lhsIdx i q 0).val = (i 0).val := by
  unfold DotDims.lhsIdx
  rw [dif_pos (show (0 : Fin S1x1024x128.rank) ∈ dot_S1x1024x128_S1x1024x128_S1x1024x1024_2_2_1_1_0_0.lhsBatch by decide)]
  rfl
theorem lhs_scores_1 (i : S1x1024x1024.Idx) (q : dot_S1x1024x128_S1x1024x128_S1x1024x1024_2_2_1_1_0_0.contr.Idx) :
    (dot_S1x1024x128_S1x1024x128_S1x1024x1024_2_2_1_1_0_0.lhsIdx i q 1).val = (i 1).val := by
  unfold DotDims.lhsIdx
  rw [dif_neg (show ¬(1 : Fin S1x1024x128.rank) ∈ dot_S1x1024x128_S1x1024x128_S1x1024x1024_2_2_1_1_0_0.lhsBatch by decide), dif_pos (show (1 : Fin S1x1024x128.rank) ∈ dot_S1x1024x128_S1x1024x128_S1x1024x1024_2_2_1_1_0_0.lhsNonContracting by decide)]
  rfl
theorem lhs_scores_2 (i : S1x1024x1024.Idx) (q : dot_S1x1024x128_S1x1024x128_S1x1024x1024_2_2_1_1_0_0.contr.Idx) :
    (dot_S1x1024x128_S1x1024x128_S1x1024x1024_2_2_1_1_0_0.lhsIdx i q 2).val = (q ⟨0, by decide⟩).val :=
  dot_S1x1024x128_S1x1024x128_S1x1024x1024_2_2_1_1_0_0.lhsIdx_val_of_single rfl i q
theorem rhs_scores_0 (i : S1x1024x1024.Idx) (q : dot_S1x1024x128_S1x1024x128_S1x1024x1024_2_2_1_1_0_0.contr.Idx) :
    (dot_S1x1024x128_S1x1024x128_S1x1024x1024_2_2_1_1_0_0.rhsIdx i q 0).val = (i 0).val := by
  unfold DotDims.rhsIdx
  rw [dif_pos (show (0 : Fin S1x1024x128.rank) ∈ dot_S1x1024x128_S1x1024x128_S1x1024x1024_2_2_1_1_0_0.rhsBatch by decide)]
  rfl
theorem rhs_scores_1 (i : S1x1024x1024.Idx) (q : dot_S1x1024x128_S1x1024x128_S1x1024x1024_2_2_1_1_0_0.contr.Idx) :
    (dot_S1x1024x128_S1x1024x128_S1x1024x1024_2_2_1_1_0_0.rhsIdx i q 1).val = (i 2).val := by
  unfold DotDims.rhsIdx
  rw [dif_neg (show ¬(1 : Fin S1x1024x128.rank) ∈ dot_S1x1024x128_S1x1024x128_S1x1024x1024_2_2_1_1_0_0.rhsBatch by decide), dif_pos (show (1 : Fin S1x1024x128.rank) ∈ dot_S1x1024x128_S1x1024x128_S1x1024x1024_2_2_1_1_0_0.rhsNonContracting by decide)]
  rfl
theorem rhs_scores_2 (i : S1x1024x1024.Idx) (q : dot_S1x1024x128_S1x1024x128_S1x1024x1024_2_2_1_1_0_0.contr.Idx) :
    (dot_S1x1024x128_S1x1024x128_S1x1024x1024_2_2_1_1_0_0.rhsIdx i q 2).val = (q ⟨0, by decide⟩).val :=
  dot_S1x1024x128_S1x1024x128_S1x1024x1024_2_2_1_1_0_0.rhsIdx_val_of_single rfl i q

/-- The scores' product into a zero accumulator: the inner product of query row `r` and key row `j`. -/
theorem matmul_scores_apply (l rr : FVec Ideal S1x1024x128 .bf16) (r j : Fin 1024) :
    matmul (F := Ideal) dot_S1x1024x128_S1x1024x128_S1x1024x1024_2_2_1_1_0_0 none l rr (constant S1x1024x1024 .f32 0x00000000#32) (ix3 (0 : Fin 1) r j)
      = ∑ e : Fin 128, l (ix3 (0 : Fin 1) r e) * rr (ix3 (0 : Fin 1) j e) := by
  refine (Ideal.matmul_constant_zero_apply dot_S1x1024x128_S1x1024x128_S1x1024x1024_2_2_1_1_0_0 none l rr (ix3 (0 : Fin 1) r j)).trans ?_
  rw [← Equiv.sum_comp (contrEquiv1 dot_S1x1024x128_S1x1024x128_S1x1024x1024_2_2_1_1_0_0 128 rfl rfl).symm]
  refine Finset.sum_congr rfl fun k _ => ?_
  have hk := contrEquiv1_symm_val dot_S1x1024x128_S1x1024x128_S1x1024x1024_2_2_1_1_0_0 128 rfl rfl k
  have el : dot_S1x1024x128_S1x1024x128_S1x1024x1024_2_2_1_1_0_0.lhsIdx (ix3 (0 : Fin 1) r j) ((contrEquiv1 dot_S1x1024x128_S1x1024x128_S1x1024x1024_2_2_1_1_0_0 128 rfl rfl).symm k) = ix3 (0 : Fin 1) r k := funext fun a => Fin.ext (by
    match a with
    | ⟨0, _⟩ => exact lhs_scores_0 _ _
    | ⟨1, _⟩ => exact lhs_scores_1 _ _
    | ⟨2, _⟩ => exact (lhs_scores_2 _ _).trans hk)
  have er : dot_S1x1024x128_S1x1024x128_S1x1024x1024_2_2_1_1_0_0.rhsIdx (ix3 (0 : Fin 1) r j) ((contrEquiv1 dot_S1x1024x128_S1x1024x128_S1x1024x1024_2_2_1_1_0_0 128 rfl rfl).symm k) = ix3 (0 : Fin 1) j k := funext fun a => Fin.ext (by
    match a with
    | ⟨0, _⟩ => exact rhs_scores_0 _ _
    | ⟨1, _⟩ => exact rhs_scores_1 _ _
    | ⟨2, _⟩ => exact (rhs_scores_2 _ _).trans hk)
  rw [el, er]

theorem lhs_num_0 (i : S1x1024x128.Idx) (q : dot_S1x1024x1024_S1x1024x128_S1x1024x128_2_1_1_2_0_0.contr.Idx) :
    (dot_S1x1024x1024_S1x1024x128_S1x1024x128_2_1_1_2_0_0.lhsIdx i q 0).val = (i 0).val := by
  unfold DotDims.lhsIdx
  rw [dif_pos (show (0 : Fin S1x1024x1024.rank) ∈ dot_S1x1024x1024_S1x1024x128_S1x1024x128_2_1_1_2_0_0.lhsBatch by decide)]
  rfl
theorem lhs_num_1 (i : S1x1024x128.Idx) (q : dot_S1x1024x1024_S1x1024x128_S1x1024x128_2_1_1_2_0_0.contr.Idx) :
    (dot_S1x1024x1024_S1x1024x128_S1x1024x128_2_1_1_2_0_0.lhsIdx i q 1).val = (i 1).val := by
  unfold DotDims.lhsIdx
  rw [dif_neg (show ¬(1 : Fin S1x1024x1024.rank) ∈ dot_S1x1024x1024_S1x1024x128_S1x1024x128_2_1_1_2_0_0.lhsBatch by decide), dif_pos (show (1 : Fin S1x1024x1024.rank) ∈ dot_S1x1024x1024_S1x1024x128_S1x1024x128_2_1_1_2_0_0.lhsNonContracting by decide)]
  rfl
theorem lhs_num_2 (i : S1x1024x128.Idx) (q : dot_S1x1024x1024_S1x1024x128_S1x1024x128_2_1_1_2_0_0.contr.Idx) :
    (dot_S1x1024x1024_S1x1024x128_S1x1024x128_2_1_1_2_0_0.lhsIdx i q 2).val = (q ⟨0, by decide⟩).val :=
  dot_S1x1024x1024_S1x1024x128_S1x1024x128_2_1_1_2_0_0.lhsIdx_val_of_single rfl i q
theorem rhs_num_0 (i : S1x1024x128.Idx) (q : dot_S1x1024x1024_S1x1024x128_S1x1024x128_2_1_1_2_0_0.contr.Idx) :
    (dot_S1x1024x1024_S1x1024x128_S1x1024x128_2_1_1_2_0_0.rhsIdx i q 0).val = (i 0).val := by
  unfold DotDims.rhsIdx
  rw [dif_pos (show (0 : Fin S1x1024x128.rank) ∈ dot_S1x1024x1024_S1x1024x128_S1x1024x128_2_1_1_2_0_0.rhsBatch by decide)]
  rfl
theorem rhs_num_1 (i : S1x1024x128.Idx) (q : dot_S1x1024x1024_S1x1024x128_S1x1024x128_2_1_1_2_0_0.contr.Idx) :
    (dot_S1x1024x1024_S1x1024x128_S1x1024x128_2_1_1_2_0_0.rhsIdx i q 1).val = (q ⟨0, by decide⟩).val :=
  dot_S1x1024x1024_S1x1024x128_S1x1024x128_2_1_1_2_0_0.rhsIdx_val_of_single rfl i q
theorem rhs_num_2 (i : S1x1024x128.Idx) (q : dot_S1x1024x1024_S1x1024x128_S1x1024x128_2_1_1_2_0_0.contr.Idx) :
    (dot_S1x1024x1024_S1x1024x128_S1x1024x128_2_1_1_2_0_0.rhsIdx i q 2).val = (i 2).val := by
  unfold DotDims.rhsIdx
  rw [dif_neg (show ¬(2 : Fin S1x1024x128.rank) ∈ dot_S1x1024x1024_S1x1024x128_S1x1024x128_2_1_1_2_0_0.rhsBatch by decide), dif_pos (show (2 : Fin S1x1024x128.rank) ∈ dot_S1x1024x1024_S1x1024x128_S1x1024x128_2_1_1_2_0_0.rhsNonContracting by decide)]
  rfl

/-- The numerator's product into a zero accumulator: the weights of row `r` against column `d` of the
    value rows. -/
theorem matmul_num_apply (l : FVec Ideal S1x1024x1024 .bf16) (rr : FVec Ideal S1x1024x128 .bf16)
    (r : Fin 1024) (d : Fin 128) :
    matmul (F := Ideal) dot_S1x1024x1024_S1x1024x128_S1x1024x128_2_1_1_2_0_0 none l rr (constant S1x1024x128 .f32 0x00000000#32) (ix3 (0 : Fin 1) r d)
      = ∑ j : Fin 1024, l (ix3 (0 : Fin 1) r j) * rr (ix3 (0 : Fin 1) j d) := by
  refine (Ideal.matmul_constant_zero_apply dot_S1x1024x1024_S1x1024x128_S1x1024x128_2_1_1_2_0_0 none l rr (ix3 (0 : Fin 1) r d)).trans ?_
  rw [← Equiv.sum_comp (contrEquiv1 dot_S1x1024x1024_S1x1024x128_S1x1024x128_2_1_1_2_0_0 1024 rfl rfl).symm]
  refine Finset.sum_congr rfl fun k _ => ?_
  have hk := contrEquiv1_symm_val dot_S1x1024x1024_S1x1024x128_S1x1024x128_2_1_1_2_0_0 1024 rfl rfl k
  have el : dot_S1x1024x1024_S1x1024x128_S1x1024x128_2_1_1_2_0_0.lhsIdx (ix3 (0 : Fin 1) r d) ((contrEquiv1 dot_S1x1024x1024_S1x1024x128_S1x1024x128_2_1_1_2_0_0 1024 rfl rfl).symm k) = ix3 (0 : Fin 1) r k := funext fun a => Fin.ext (by
    match a with
    | ⟨0, _⟩ => exact lhs_num_0 _ _
    | ⟨1, _⟩ => exact lhs_num_1 _ _
    | ⟨2, _⟩ => exact (lhs_num_2 _ _).trans hk)
  have er : dot_S1x1024x1024_S1x1024x128_S1x1024x128_2_1_1_2_0_0.rhsIdx (ix3 (0 : Fin 1) r d) ((contrEquiv1 dot_S1x1024x1024_S1x1024x128_S1x1024x128_2_1_1_2_0_0 1024 rfl rfl).symm k) = ix3 (0 : Fin 1) k d := funext fun a => Fin.ext (by
    match a with
    | ⟨0, _⟩ => exact rhs_num_0 _ _
    | ⟨1, _⟩ => exact (rhs_num_1 _ _).trans hk
    | ⟨2, _⟩ => exact rhs_num_2 _ _)
  rw [el, er]

/-! ### The payloads at an index -/

/-- The scores of query row `r` against the 1024 key rows. -/
def sc (x0 x1 : Vec Ideal S1x1024x128 .bf16) (r : Fin 1024) : Fin 1024 → EReal :=
  fun j => ∑ e : Fin 128, x0 (ix3 (0 : Fin 1) r e) * x1 (ix3 (0 : Fin 1) j e)

section
variable (x0 x1 : Vec Ideal S1x1024x128 .bf16) (xm xl : Vec Ideal S1x1024x1 .f32)
  (xa : Vec Ideal S1x1024x128 .f32) (r j : Fin 1024) (d : Fin 128)

/-- (1) The scores: the inner product of query row `r` and key row `j` over the 128 features. -/
theorem pay8_apply :
    k0_pay8 x0 x1 (ix3 (0 : Fin 1) r j)
      = ∑ e : Fin 128, x0 (ix3 (0 : Fin 1) r e) * x1 (ix3 (0 : Fin 1) j e) := by
  unfold k0_pay8 k0_pay7
  simp only [shapeCast_self]
  exact matmul_scores_apply x0 x1 r j

theorem pay8_row : (fun j => k0_pay8 x0 x1 (ix3 (0 : Fin 1) r j)) = sc x0 x1 r :=
  funext fun j => pay8_apply x0 x1 r j

/-- The new running maximum: the old one against the row maximum of the scores. -/
theorem pay9_apply :
    k0_pay9 x0 x1 xm (ix3 (0 : Fin 1) r (0 : Fin 1))
      = max (xm (ix3 (0 : Fin 1) r (0 : Fin 1)))
          ((Finset.univ : Finset (Fin 1024)).fold max ⊥ (sc x0 x1 r)) := by
  unfold k0_pay9
  refine (maximumf_apply _ _ _).trans ?_
  refine congrArg (max _) ?_
  refine (shapeCast_1a_1a1_apply _ _ (0 : Fin 1) r (0 : Fin 1)).trans ?_
  refine (rowmax_apply _ _ _ r).trans ?_
  rw [pay8_row]

/-- The rescaling factor of the old sums. -/
theorem pay10_apply :
    k0_pay10 x0 x1 xm (ix3 (0 : Fin 1) r (0 : Fin 1))
      = Ideal.exp (xm (ix3 (0 : Fin 1) r (0 : Fin 1)) - k0_pay9 x0 x1 xm (ix3 (0 : Fin 1) r (0 : Fin 1))) :=
  rfl

/-- The block's weights: `exp (score - new maximum)`. -/
theorem pay11_apply :
    k0_pay11 x0 x1 xm (ix3 (0 : Fin 1) r j)
      = Ideal.exp (sc x0 x1 r j - k0_pay9 x0 x1 xm (ix3 (0 : Fin 1) r (0 : Fin 1))) := by
  unfold k0_pay11
  show Ideal.exp (k0_pay8 x0 x1 (ix3 (0 : Fin 1) r j)
      - broadcastTo S1x1024x1024 (k0_pay9 x0 x1 xm) broadcasts_S1x1024x1_S1x1024x1024 (ix3 (0 : Fin 1) r j)) = _
  rw [pay8_apply]
  exact congrArg (fun t => Ideal.exp (sc x0 x1 r j - t))
    (broadcastTo_1a1_1ab_apply (k0_pay9 x0 x1 xm) broadcasts_S1x1024x1_S1x1024x1024 (0 : Fin 1) r j)

/-- The new denominator: the old one rescaled plus the row sum of the weights. -/
theorem pay12_apply :
    k0_pay12 x0 x1 xm xl (ix3 (0 : Fin 1) r (0 : Fin 1))
      = k0_pay10 x0 x1 xm (ix3 (0 : Fin 1) r (0 : Fin 1)) * xl (ix3 (0 : Fin 1) r (0 : Fin 1))
        + ∑ j : Fin 1024, k0_pay11 x0 x1 xm (ix3 (0 : Fin 1) r j) := by
  unfold k0_pay12
  refine (congrFun (shapeCast_self _ _) _).trans ?_
  refine (addf_apply _ _ _).trans ?_
  refine congrArg (fun t : EReal => k0_pay10 x0 x1 xm (ix3 (0 : Fin 1) r (0 : Fin 1)) * xl (ix3 (0 : Fin 1) r (0 : Fin 1)) + t) ?_
  refine (shapeCast_1a_1a1_apply _ _ (0 : Fin 1) r (0 : Fin 1)).trans ?_
  exact rowsum_apply _ _ _ r

/-- The new numerator: the old one rescaled plus the weights against column `d` of the value rows. -/
theorem pay13_apply :
    k0_pay13 x0 x1 xm xa (ix3 (0 : Fin 1) r d)
      = k0_pay10 x0 x1 xm (ix3 (0 : Fin 1) r (0 : Fin 1)) * xa (ix3 (0 : Fin 1) r d)
        + ∑ j : Fin 1024, k0_pay11 x0 x1 xm (ix3 (0 : Fin 1) r j) * x1 (ix3 (0 : Fin 1) j d) := by
  unfold k0_pay13 k0_pay7
  refine (addf_apply _ _ _).trans ?_
  refine congrArg₂ (· + ·) ?_ ?_
  · refine (mulf_apply _ _ _).trans ?_
    exact congrArg (· * xa (ix3 (0 : Fin 1) r d))
      (broadcastTo_1a1_1ab_apply (k0_pay10 x0 x1 xm) broadcasts_S1x1024x1_S1x1024x128 (0 : Fin 1) r d)
  · rw [shapeCast_self]
    exact matmul_num_apply _ x1 r d

end

/-! ### The resets and the final quotient -/

section
variable (r : Fin 1024) (d : Fin 128)

/-- (3) The running maximum is reset to `⊥` … -/
theorem pay4_apply : k0_pay4 (F := Ideal) (ix3 (0 : Fin 1) r (0 : Fin 1)) = ⊥ := by
  unfold k0_pay4
  refine (congrFun (shapeCast_self _ _) _).trans ?_
  exact ofBits_neg_inf_f32

/-- … the running denominator to `0` … -/
theorem pay5_apply : k0_pay5 (F := Ideal) (ix3 (0 : Fin 1) r (0 : Fin 1)) = 0 := by
  unfold k0_pay5
  refine (congrFun (shapeCast_self _ _) _).trans ?_
  exact Ideal.ofBits_zero_f32

/-- … and the running numerator to `0`. -/
theorem pay6_apply : k0_pay6 (F := Ideal) (ix3 (0 : Fin 1) r d) = 0 := by
  unfold k0_pay6
  refine (congrFun (shapeCast_self _ _) _).trans ?_
  exact Ideal.ofBits_zero_f32

/-- (4) The stored result: the numerator divided by the row's denominator. -/
theorem pay3_apply (v40 : Vec Ideal S1x1024x128 .f32) (v41 : Vec Ideal S1x1024x1 .f32) :
    k0_pay3 v40 v41 (ix3 (0 : Fin 1) r d)
      = Ideal.div (v40 (ix3 (0 : Fin 1) r d)) (v41 (ix3 (0 : Fin 1) r (0 : Fin 1))) := by
  unfold k0_pay3
  refine (divf_apply _ _ _).trans ?_
  exact congrArg (Ideal.div (v40 (ix3 (0 : Fin 1) r d)))
    (broadcastTo_1a1_1ab_apply v41 broadcasts_S1x1024x1_S1x1024x128 (0 : Fin 1) r d)

end

/-! ### One block of the online softmax, row by row -/

section
variable (x0 x1 : Vec Ideal S1x1024x128 .bf16) (xm xl : Vec Ideal S1x1024x1 .f32)
  (xa : Vec Ideal S1x1024x128 .f32) (r : Fin 1024) (d : Fin 128)

/-- (2) For query row `r` and feature `d`, the three values the body stores — the new running maximum,
    denominator and numerator — are one step of the online softmax on the row's scores and column
    `d` of the value rows, from the old running maximum, denominator and numerator. -/
theorem pay_step :
    (k0_pay2 (k0_pay9 x0 x1 xm) (ix3 (0 : Fin 1) r (0 : Fin 1)),
      k0_pay12 x0 x1 xm xl (ix3 (0 : Fin 1) r (0 : Fin 1)),
      k0_pay1 (k0_pay13 x0 x1 xm xa) (ix3 (0 : Fin 1) r d))
      = Cert.OnlineSoftmax.step (sc x0 x1 r) (fun j => x1 (ix3 (0 : Fin 1) j d))
          (xm (ix3 (0 : Fin 1) r (0 : Fin 1)), xl (ix3 (0 : Fin 1) r (0 : Fin 1)), xa (ix3 (0 : Fin 1) r d)) := by
  have h2 : k0_pay2 (k0_pay9 x0 x1 xm) (ix3 (0 : Fin 1) r (0 : Fin 1))
      = k0_pay9 x0 x1 xm (ix3 (0 : Fin 1) r (0 : Fin 1)) := by
    unfold k0_pay2; exact congrFun (shapeCast_self _ _) _
  have h1 : k0_pay1 (k0_pay13 x0 x1 xm xa) (ix3 (0 : Fin 1) r d)
      = k0_pay13 x0 x1 xm xa (ix3 (0 : Fin 1) r d) := by
    unfold k0_pay1; exact congrFun (shapeCast_self _ _) _
  have h11 : ∀ j : Fin 1024, k0_pay11 x0 x1 xm (ix3 (0 : Fin 1) r j)
      = Ideal.exp (sc x0 x1 r j - k0_pay9 x0 x1 xm (ix3 (0 : Fin 1) r (0 : Fin 1))) :=
    fun j => pay11_apply x0 x1 xm r j
  rw [Cert.OnlineSoftmax.step_def, h1, h2, pay12_apply, pay13_apply, pay10_apply]
  simp only [h11]
  rw [pay9_apply]

/-- The new running maximum, as the first component of the step. -/
theorem pay_max :
    k0_pay2 (k0_pay9 x0 x1 xm) (ix3 (0 : Fin 1) r (0 : Fin 1))
      = (Cert.OnlineSoftmax.step (sc x0 x1 r) (fun j => x1 (ix3 (0 : Fin 1) j d))
          (xm (ix3 (0 : Fin 1) r (0 : Fin 1)), xl (ix3 (0 : Fin 1) r (0 : Fin 1)), xa (ix3 (0 : Fin 1) r d))).1 :=
  congrArg Prod.fst (pay_step x0 x1 xm xl xa r d)

/-- The new denominator, as the second component of the step. -/
theorem pay_den :
    k0_pay12 x0 x1 xm xl (ix3 (0 : Fin 1) r (0 : Fin 1))
      = (Cert.OnlineSoftmax.step (sc x0 x1 r) (fun j => x1 (ix3 (0 : Fin 1) j d))
          (xm (ix3 (0 : Fin 1) r (0 : Fin 1)), xl (ix3 (0 : Fin 1) r (0 : Fin 1)), xa (ix3 (0 : Fin 1) r d))).2.1 :=
  congrArg (fun p => p.2.1) (pay_step x0 x1 xm xl xa r d)

/-- The new numerator, as the third component of the step. -/
theorem pay_num :
    k0_pay1 (k0_pay13 x0 x1 xm xa) (ix3 (0 : Fin 1) r d)
      = (Cert.OnlineSoftmax.step (sc x0 x1 r) (fun j => x1 (ix3 (0 : Fin 1) j d))
          (xm (ix3 (0 : Fin 1) r (0 : Fin 1)), xl (ix3 (0 : Fin 1) r (0 : Fin 1)), xa (ix3 (0 : Fin 1) r d))).2.2 :=
  congrArg (fun p => p.2.2) (pay_step x0 x1 xm xl xa r d)

end

end Cert.KernelIdeal.Payloads

end
-- ==== Proof.Spec.lean ====
import Idealize.ShloMosaic.PureOps.Ideal
import Idealize.ShloMosaic.Lib.ValueIdx

/-!
  The specification of this certificate: unscaled self-attention of an array `x` of 4 batches of 4096 rows of 128
  entries, as ONE function of `x` over the extended reals.  Row `s` of batch `b` attends to every row `t` of the
  same batch with the score `⟨x[b,s,·], x[b,t,·]⟩`; the scores of a row are shifted by their maximum, exponentiated,
  normalised by their sum, and the result is the weighted sum of the rows.
-/

noncomputable section

namespace Cert.Attention

open Idealize.ShloMosaic Idealize.ShloMosaic.ValueIdx

abbrev SX : Shape := ⟨3, ![4, 4096, 128]⟩

/-- The score of row `s` against row `t` of batch `b`: their inner product over the 128 entries. -/
def score (x : SX.Idx → EReal) (b : Fin 4) (s t : Fin 4096) : EReal := ∑ d : Fin 128, x (ix3 b s d) * x (ix3 b t d)

/-- The maximum of row `s`'s scores, folded from −∞ (and joined with −∞ once more, as the softmax spells it). -/
def rowMax (x : SX.Idx → EReal) (b : Fin 4) (s : Fin 4096) : EReal :=
  max ⊥ ((Finset.univ : Finset (Fin 4096)).fold max ⊥ (fun t => score x b s t))

/-- The softmax denominator of row `s`: the sum of the shifted scores' exponentials, from zero. -/
def rowDen (x : SX.Idx → EReal) (b : Fin 4) (s : Fin 4096) : EReal :=
  0 + ∑ t : Fin 4096, Ideal.exp (score x b s t - rowMax x b s)

/-- Attention: entry `d` of row `s` of batch `b` is the softmax-weighted sum of entry `d` over the rows of the batch. -/
def attn (x : SX.Idx → EReal) : SX.Idx → EReal := fun i =>
  ∑ t : Fin 4096, Ideal.div (Ideal.exp (score x (i 0) (i 1) t - rowMax x (i 0) (i 1))) (rowDen x (i 0) (i 1)) * x (ix3 (i 0) t (i 2))

end Cert.Attention

end
-- ==== Proof.Bridge.lean ====
import proofs.«145749_j17008070492702_2_alg».proof.Proof.Spec
import proofs.«145749_j17008070492702_2_alg».proof.Proof.LibOnlineSoftmax

/-!
  Attention of a real array, entry by entry, as four online-softmax steps.  Entry `d` of row `s` of batch `b` is the
  softmax-weighted sum of entry `d` over the 4096 rows of the batch.  Cut the rows into four blocks of 1024: a running
  maximum, a running denominator and a running numerator, rescaled at each block, end at a numerator and a
  denominator whose quotient is that weighted sum, because the softmax does not change under a finite shift of the
  scores.  The scores of a real array are real (a finite sum of products of reals), which is what the shift law needs.
-/

noncomputable section

namespace Cert.Attention

open Idealize.ShloMosaic Idealize.ShloMosaic.ValueIdx Cert.OnlineSoftmax

/-- The state (maximum, denominator, numerator) after the four blocks of key rows, for entry `d` of row `s` of
    batch `b`: block `k` offers the scores of row `s` against rows `1024 k + j` and those rows' entries `d`. -/
def online (x : SX.Idx → EReal) (b : Fin 4) (s : Fin 4096) (d : Fin 128) : EReal × EReal × EReal :=
  step (fun j => score x b s (col 3 j)) (fun j => x (ix3 b (col 3 j) d))
    (step (fun j => score x b s (col 2 j)) (fun j => x (ix3 b (col 2 j) d))
      (step (fun j => score x b s (col 1 j)) (fun j => x (ix3 b (col 1 j) d))
        (step (fun j => score x b s (col 0 j)) (fun j => x (ix3 b (col 0 j) d)) (⊥, 0, 0))))

/-- The real scores of row `s` of batch `b` of a real array. -/
def realScores (xr : SX.Idx → ℝ) (b : Fin 4) (s : Fin 4096) : Fin 4096 → ℝ :=
  fun t => ∑ e : Fin 128, xr (ix3 b s e) * xr (ix3 b t e)

/-- Entry `d` of every row of batch `b` of a real array. -/
def realValues (xr : SX.Idx → ℝ) (b : Fin 4) (d : Fin 128) : Fin 4096 → ℝ :=
  fun t => xr (ix3 b t d)

/-- The score of a real array is the real inner product, as an extended real. -/
theorem score_coe (xr : SX.Idx → ℝ) (b : Fin 4) (s t : Fin 4096) :
    score (fun i => ((xr i : ℝ) : EReal)) b s t = ((realScores xr b s t : ℝ) : EReal) := by
  unfold score realScores
  rw [coe_sum]
  exact Finset.sum_congr rfl fun e _ => (EReal.coe_mul _ _).symm

/-- The row maximum of a real array is the row maximum of its real scores. -/
theorem rowMax_coe (xr : SX.Idx → ℝ) (b : Fin 4) (s : Fin 4096) :
    rowMax (fun i => ((xr i : ℝ) : EReal)) b s = refM (realScores xr b s) := by
  unfold rowMax refM
  rw [show (fun t => score (fun i => ((xr i : ℝ) : EReal)) b s t) = fun t => ((realScores xr b s t : ℝ) : EReal) from
    funext fun t => score_coe xr b s t]

/-- The denominator of a real array is the denominator of its real scores. -/
theorem rowDen_coe (xr : SX.Idx → ℝ) (b : Fin 4) (s : Fin 4096) :
    rowDen (fun i => ((xr i : ℝ) : EReal)) b s = refL (realScores xr b s) := by
  unfold rowDen refL
  rw [rowMax_coe]
  refine congrArg (0 + ·) (Finset.sum_congr rfl fun t _ => ?_)
  rw [score_coe]

/-- The four steps over a real array are the four steps over its real scores and values. -/
theorem online_coe (xr : SX.Idx → ℝ) (b : Fin 4) (s : Fin 4096) (d : Fin 128) :
    online (fun i => ((xr i : ℝ) : EReal)) b s d = onlineState (realScores xr b s) (realValues xr b d) := by
  have hblk : ∀ k : Fin 4, (fun j => score (fun i => ((xr i : ℝ) : EReal)) b s (col k j)) = blk (realScores xr b s) k :=
    fun k => funext fun j => score_coe xr b s (col k j)
  unfold online onlineState
  rw [hblk 3, hblk 2, hblk 1, hblk 0]
  rfl

/-- Attention of a real array at (b, s, d) is the quotient of the numerator by the denominator after the four steps. -/
theorem attn_coe_eq_online (xr : SX.Idx → ℝ) (b : Fin 4) (s : Fin 4096) (d : Fin 128) :
    attn (fun i => ((xr i : ℝ) : EReal)) (ix3 b s d)
      = Ideal.div (online (fun i => ((xr i : ℝ) : EReal)) b s d).2.2 (online (fun i => ((xr i : ℝ) : EReal)) b s d).2.1 := by
  rw [online_coe, online_eq_softmax']
  show ∑ t : Fin 4096, Ideal.div (Ideal.exp (score (fun i => ((xr i : ℝ) : EReal)) b s t
      - rowMax (fun i => ((xr i : ℝ) : EReal)) b s)) (rowDen (fun i => ((xr i : ℝ) : EReal)) b s) * ((xr (ix3 b t d) : ℝ) : EReal) = _
  refine Finset.sum_congr rfl fun t _ => ?_
  rw [score_coe, rowMax_coe, rowDen_coe]
  rfl

/-- Attention of an array all of whose entries are real, at (b, s, d), is the quotient after the four steps. -/
theorem attn_eq_online (x : SX.Idx → EReal) (hfin : ∀ i, ∃ r : ℝ, x i = ((r : ℝ) : EReal)) (b : Fin 4) (s : Fin 4096)
    (d : Fin 128) : attn x (ix3 b s d) = Ideal.div (online x b s d).2.2 (online x b s d).2.1 := by
  choose xr hxr using hfin
  obtain rfl : x = fun i => ((xr i : ℝ) : EReal) := funext hxr
  exact attn_coe_eq_online xr b s d

end Cert.Attention

end
-- ==== Proof.KIValue.lean ====
import proofs.«145749_j17008070492702_2_alg».proof.Proof.KIStats
import proofs.«145749_j17008070492702_2_alg».proof.Proof.KILaunch
import proofs.«145749_j17008070492702_2_alg».proof.Proof.KIPayloads
import proofs.«145749_j17008070492702_2_alg».proof.Proof.Bridge

set_option maxRecDepth 16384

noncomputable section

namespace Cert.KernelIdeal.Flash

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

local notation "𝕄" => MT nD τ sig Unit (Elt F) ℕ (UR sig nD τ) ℕ

variable (m : (ℓ : Loc nD τ sig) → Buf (Elt F) ℓ) (ρ : Dev nD → PrngReg)
/-!
  The idealized kernel's value, part 2: its result array is attention of its input.

  Row `r` of a query tile sees, over the tile's four points, four online-softmax steps from (−∞, 0, 0), one per block
  of 1024 key rows; for an input of real numbers the quotient of the final numerator by the final denominator is the
  softmax-weighted sum of the value rows (the bridge lemma), which is what the last point stores. The 64 output tiles,
  one per batch and query tile, cover the result array.
-/

open Cert.KernelIdeal.Payloads Cert.OnlineSoftmax Cert.Attention

variable (mI : (ℓ : Loc nD τ sig) → Buf (Elt Ideal) ℓ)

/-- The kernel's input as an array of extended reals. -/
abbrev X (c : Dev nD) : S4x4096x128.Idx → EReal := mI ((c : Thread nD τ).loc main_arg0)

/-- One row's statistics: its maximum, its denominator, and entry `d` of its numerator. -/
def row (p : Stats Ideal) (r : Fin 1024) (d : Fin 128) : EReal × EReal × EReal :=
  (p.1 (ix3 0 r 0), p.2.1 (ix3 0 r 0), p.2.2 (ix3 0 r d))

/-- An update of the statistics is, row by row, one online-softmax step over the key block's scores and values. -/
theorem row_upd (x0 x1 : Vec Ideal S1x1024x128 .bf16) (p : Stats Ideal) (r : Fin 1024) (d : Fin 128) :
    row (upd x0 x1 p) r d = step (sc x0 x1 r) (fun j => x1 (ix3 0 j d)) (row p r d) :=
  pay_step x0 x1 p.1 p.2.1 p.2.2 r d

theorem row_reset (r : Fin 1024) (d : Fin 128) : row (reset (F := Ideal)) r d = (⊥, 0, 0) := by
  unfold row reset
  simp only [pay4_apply, pay5_apply, pay6_apply]

theorem batch_lt (t : Fin cfg0.N) : t.val / 16 < 4 := by
  have := lt_of_lt_of_eq t.isLt (show cfg0.N = 64 from N_0); omega
theorem qrow_lt (t : Fin cfg0.N) (r : Fin 1024) : 1024 * (t.val / 4 % 4) + r.val < 4096 := by
  have := r.isLt; omega
theorem kblock_lt (t : Fin cfg0.N) : t.val % 4 < 4 := Nat.mod_lt _ (by decide)

/-- The scores of row `r` of point `t`'s query block against its key block are the specification's scores of row
    `1024·qi + r` against rows `1024·ki + j`. -/
theorem sc_block (c : Dev nD) (t : Fin cfg0.N) (r : Fin 1024) (b : Fin 4) (s : Fin 4096) (k : Fin 4)
    (hb : t.val / 16 = b.val) (hs : 1024 * (t.val / 4 % 4) + r.val = s.val) (hk : t.val % 4 = k.val) :
    sc (iblk mI c 0 t) (iblk mI c 1 t) r = fun j => score (X mI c) b s (col k j) := by
  obtain rfl : b = ⟨t.val / 16, batch_lt t⟩ := Fin.ext hb.symm
  obtain rfl : s = ⟨1024 * (t.val / 4 % 4) + r.val, qrow_lt t r⟩ := Fin.ext hs.symm
  obtain rfl : k = ⟨t.val % 4, kblock_lt t⟩ := Fin.ext hk.symm
  funext j
  unfold sc score
  refine Finset.sum_congr rfl fun e _ => ?_
  rw [iblk_q mI c t r e (batch_lt t) (qrow_lt t r), iblk_kv mI c t j e (batch_lt t) (by have := j.isLt; have := kblock_lt t; omega)]
  rfl

/-- The value rows of point `t`'s key block are rows `1024·ki + j` of the input. -/
theorem v_block (c : Dev nD) (t : Fin cfg0.N) (d : Fin 128) (b : Fin 4) (k : Fin 4)
    (hb : t.val / 16 = b.val) (hk : t.val % 4 = k.val) :
    (fun j : Fin 1024 => (iblk mI c 1 t : Vec Ideal S1x1024x128 .bf16) (ix3 0 j d)) = fun j => X mI c (ix3 b (col k j) d) := by
  obtain rfl : b = ⟨t.val / 16, batch_lt t⟩ := Fin.ext hb.symm
  obtain rfl : k = ⟨t.val % 4, kblock_lt t⟩ := Fin.ext hk.symm
  funext j
  rw [iblk_kv mI c t j d (batch_lt t) (by have := j.isLt; have := kblock_lt t; omega)]
  rfl

/-- After a query tile's last point, row `r`'s statistics are the four online-softmax steps of row `1024·qi + r`. -/
theorem row_four (c : Dev nD) (t : Fin cfg0.N) (h1 : t.val % 4 = 3) (r : Fin 1024) (d : Fin 128) (b : Fin 4) (s : Fin 4096)
    (hb : t.val / 16 = b.val) (hs : 1024 * (t.val / 4 % 4) + r.val = s.val) :
    row (outsAt mI c t.val t.isLt).2 r d = online (X mI c) b s d := by
  have ht : t.val < 64 := lt_of_lt_of_eq t.isLt (show cfg0.N = 64 from N_0)
  rw [stats_four mI c t h1, row_upd, row_upd, row_upd, row_upd, row_reset]
  rw [sc_block mI c t r b s 3 hb hs h1, v_block mI c t d b 3 hb h1]
  rw [sc_block mI c ⟨t.val - 1, by omega⟩ r b s 2 (by show (t.val - 1) / 16 = b.val; omega) (by show 1024 * ((t.val - 1) / 4 % 4) + r.val = s.val; omega) (by show (t.val - 1) % 4 = 2; omega),
    v_block mI c ⟨t.val - 1, by omega⟩ d b 2 (by show (t.val - 1) / 16 = b.val; omega) (by show (t.val - 1) % 4 = 2; omega)]
  rw [sc_block mI c ⟨t.val - 2, by omega⟩ r b s 1 (by show (t.val - 2) / 16 = b.val; omega) (by show 1024 * ((t.val - 2) / 4 % 4) + r.val = s.val; omega) (by show (t.val - 2) % 4 = 1; omega),
    v_block mI c ⟨t.val - 2, by omega⟩ d b 1 (by show (t.val - 2) / 16 = b.val; omega) (by show (t.val - 2) % 4 = 1; omega)]
  rw [sc_block mI c ⟨t.val - 3, by omega⟩ r b s 0 (by show (t.val - 3) / 16 = b.val; omega) (by show 1024 * ((t.val - 3) / 4 % 4) + r.val = s.val; omega) (by show (t.val - 3) % 4 = 0; omega),
    v_block mI c ⟨t.val - 3, by omega⟩ d b 0 (by show (t.val - 3) / 16 = b.val; omega) (by show (t.val - 3) % 4 = 0; omega)]
  rfl

/-- What a last point writes back is its tile of `attn` of the input (for an input of real numbers). -/
theorem flushed_eq (c : Dev nD) (hfin : ∀ i, ∃ r : ℝ, X mI c i = ((r : ℝ) : EReal)) (t : Fin cfg0.N) (hf : (cfg0.win 2).flush t = true) :
    (dats mI 0 c).flushed 2 t = ((cfg0.win 2).blk t).view.read (Elt Ideal) (attn (X mI c)) := by
  have h3 : t.val % 4 = 3 := (flush0_2 t).mp hf
  have ht : t.val < 64 := lt_of_lt_of_eq t.isLt (show cfg0.N = 64 from N_0)
  obtain ⟨-, -, -, -, -, -, e0, e1, e2⟩ := idx_facts t
  show (cfg0.win 2).cut (grid0.coords t) ((dats mI 0 c).after 2 t) = _
  rw [after_o, out_last mI c t h3, ← stats_next mI c t (by omega)]
  funext y
  have hy0 : (y 0).val < 1 := (y 0).isLt
  obtain ⟨r, d, rfl⟩ : ∃ (r : Fin 1024) (d : Fin 128), y = ix3 0 r d := ⟨y 1, y 2, by
    funext a; match a with
    | ⟨0, _⟩ => exact Fin.ext (by show (y 0).val = 0; omega)
    | ⟨1, _⟩ => rfl
    | ⟨2, _⟩ => rfl⟩
  have hs : 1024 * (t.val / 4 % 4) + r.val < 4096 := by have := r.isLt; omega
  have hrow := row_four mI c t h3 r d ⟨t.val / 16, by omega⟩ ⟨1024 * (t.val / 4 % 4) + r.val, hs⟩ rfl rfl
  show quot (outsAt mI c t.val t.isLt).2 (ix3 0 r d) = _
  unfold quot
  rw [pay3_apply r d]
  rw [show (outsAt mI c t.val t.isLt).2.2.2 (ix3 0 r d) = (row (outsAt mI c t.val t.isLt).2 r d).2.2 from rfl,
    show (outsAt mI c t.val t.isLt).2.2.1 (ix3 0 r 0) = (row (outsAt mI c t.val t.isLt).2 r d).2.1 from rfl, hrow,
    ← attn_eq_online (X mI c) hfin]
  rw [View.read_apply]
  show attn (X mI c) _ = attn (X mI c) _
  congr 1
  funext a; apply Fin.ext
  match a with
  | ⟨0, _⟩ => show t.val / 16 = win0_2.index t (0 : Fin 3) * 1 + 1 * 0; omega
  | ⟨1, _⟩ => show 1024 * (t.val / 4 % 4) + r.val = win0_2.index t (1 : Fin 3) * 1024 + 1 * r.val; omega
  | ⟨2, _⟩ => show d.val = win0_2.index t (2 : Fin 3) * 128 + 1 * d.val; omega

/-- An index of the result array is in point `t`'s tile iff each coordinate is in the tile's range. -/
theorem mem_tile (t : Fin cfg0.N) (i : S4x4096x128.Idx) :
    i ∈ ((cfg0.win 2).blk t).view.set ↔ ∀ a : Fin 3, win0_2.index t a * S1x1024x128.size a ≤ (i a).val ∧ (i a).val < win0_2.index t a * S1x1024x128.size a + S1x1024x128.size a := by
  show i ∈ ((View.whole main_v1).slice (win0_2.rect t)).set ↔ _
  rw [View.set_slice_whole, Rect.mem_set_unit]
  exact Iff.rfl

/-- Every index of the result array is in the tile of some last point. -/
theorem cover (i : S4x4096x128.Idx) : ∃ t : Fin cfg0.N, (cfg0.win 2).flush t = true ∧ i ∈ ((cfg0.win 2).blk t).view.set := by
  have hi0 : (i 0).val < 4 := (i 0).isLt
  have hi1 : (i 1).val < 4096 := (i 1).isLt
  have hi2 : (i 2).val < 128 := (i 2).isLt
  obtain ⟨t, hf, q0, q1⟩ := idx_onto ⟨(i 0).val, hi0⟩ ⟨(i 1).val / 1024, by omega⟩
  obtain ⟨-, -, -, -, -, -, e0, e1, e2⟩ := idx_facts t
  refine ⟨t, hf, ?_⟩
  rw [mem_tile]
  intro a
  match a with
  | ⟨0, _⟩ => show win0_2.index t (0 : Fin 3) * 1 ≤ (i 0).val ∧ (i 0).val < win0_2.index t (0 : Fin 3) * 1 + 1; dsimp only at q0 q1; omega
  | ⟨1, _⟩ => show win0_2.index t (1 : Fin 3) * 1024 ≤ (i 1).val ∧ (i 1).val < win0_2.index t (1 : Fin 3) * 1024 + 1024; dsimp only at q0 q1; omega
  | ⟨2, _⟩ => show win0_2.index t (2 : Fin 3) * 128 ≤ (i 2).val ∧ (i 2).val < win0_2.index t (2 : Fin 3) * 128 + 128; omega

/-- The result array after the run. -/
theorem final_o (c : Dev nD) (hfin : ∀ i, ∃ r : ℝ, X mI c i = ((r : ℝ) : EReal)) :
    (dats mI 0 c).arrAt 2 cfg0.N = attn (X mI c) :=
  (dats mI 0 c).arrAt_eq_of_cover 2 (attn (X mI c)) (flushed_eq mI c hfin) cover

/-- The run, read: from a memory whose input holds real numbers, the result array ends at attention of the input, and
    the input ends as launched. -/
theorem run (ρ : Dev nD → PrngReg) (hfin : ∀ c i, ∃ r : ℝ, X mI c i = ((r : ℝ) : EReal)) :
    θ_run defs (onTc (τ := τ) (main (F := Ideal))) ⟨mI, fun _ => 0, ρ⟩ fun r => ∀ c : Dev nD,
      r.2.mem ((c.tc : Thread nD τ).loc main_v1) = attn (X mI c)
      ∧ r.2.mem ((c.tc : Thread nD τ).loc main_arg0) = mI ((c.tc : Thread nD τ).loc main_arg0) :=
  (θ_run defs _ _).mono (fun _ h c => ⟨((h c).1 2).trans (final_o mI c (hfin c)), ((h c).2).trans (V_main_arg0 mI c)⟩)
    (run_main mI ρ)

end Cert.KernelIdeal.Flash

end
-- ==== Proof.RefAttention.lean ====
import proofs.«145749_j17008070492702_2_alg».proof.Proof.Gen.ReferenceIdeal.Read
import proofs.«145749_j17008070492702_2_alg».proof.Proof.Spec

/-!
  The reference program, read at the extended reals, is attention.  Its operations are read one at a time at an
  index given by its coordinates: the first product is the score, the maximum-reduce over the last axis is the
  fold of the scores' maximum from −∞, the sum-reduce is the denominator from zero, and the last product is the
  weighted sum of the rows.
-/

noncomputable section

namespace Cert.ReferenceIdeal.RefAttention

open Cert.ReferenceIdeal Cert.ReferenceIdeal.Gen Idealize.ShloMosaic Idealize.ShloMosaic.ValueIdx Cert.Attention

/-- The bit pattern of −∞ denotes the bottom of the extended reals. -/
theorem ofBits_neg_inf : Ideal.ofBits .f32 0xFF800000#32 = (⊥ : EReal) := by
  simp [Ideal.ofBits, Ideal.ieee]

/-- Entry (b, s, t) of the first product is the score of row `s` against row `t` in batch `b`. -/
theorem scores_apply (x : (⟨S4x4096x128, .f32⟩ : BufTy).Contents (Elt Ideal)) (b : Fin 4) (s t : Fin 4096) :
    Read.val_main_v0 (F := Ideal) x (ix3 b s t) = score x b s t := by
  rw [Read.val_main_v0_apply]
  unfold score
  refine Finset.sum_congr rfl fun d _ => ?_
  have el : Read.lidx_main_v0 (ix3 b s t) d = ix3 b s d :=
    funext fun a => Fin.ext (by match a with | ⟨0, _⟩ => rfl | ⟨1, _⟩ => rfl | ⟨2, _⟩ => rfl)
  have er : Read.ridx_main_v0 (ix3 b s t) d = ix3 b t d :=
    funext fun a => Fin.ext (by match a with | ⟨0, _⟩ => rfl | ⟨1, _⟩ => rfl | ⟨2, _⟩ => rfl)
  rw [el, er]

/-- The reduced index (b, s) with `t` put back on the last axis is (b, s, t). -/
theorem lift_ix2 (h : S4x4096x4096.Reduces [2] S4x4096) (b : Fin 4) (s : Fin 4096)
    (t : Fin (S4x4096x4096.size 2)) : h.lift (ix2 b s) t = ix3 b s (⟨t.val, t.isLt⟩ : Fin 4096) := by
  funext c; apply Fin.ext
  match c with
  | ⟨0, _⟩ => rfl
  | ⟨1, _⟩ => rfl
  | ⟨2, _⟩ => rfl

/-- Entry (b, s) of the maximum-reduce is the fold of row `s`'s scores' maximum from −∞. -/
theorem rowfold_apply (x : (⟨S4x4096x128, .f32⟩ : BufTy).Contents (Elt Ideal)) (b : Fin 4) (s : Fin 4096) :
    Read.val_main_v1 (F := Ideal) x (ix2 b s)
      = (Finset.univ : Finset (Fin 4096)).fold max ⊥ (fun t => score x b s t) := by
  have h : S4x4096x4096.Reduces [2] S4x4096 := by decide
  unfold Read.val_main_v1
  rw [Host.reduce_eq_fold_single FloatOps.maximumf _ _ reducesTo_S4x4096x4096_S4x4096_d2 h h_S_]
  have hf : (Read.val_main_v0 (F := Ideal) x ∘ h.lift (ix2 b s)) = fun t : Fin 4096 => score x b s t :=
    funext fun t => (congrArg (Read.val_main_v0 (F := Ideal) x) (lift_ix2 h b s t)).trans (scores_apply x b s _)
  rw [Read.val_main_cst_apply, Ideal.ofBits_def, ofBits_neg_inf]
  exact congrArg (fun f => Finset.fold max (⊥ : EReal) f (Finset.univ : Finset (Fin 4096))) hf

/-- Entry (b, s) of the joined maximum is the specification's row maximum. -/
theorem rowMax_apply (x : (⟨S4x4096x128, .f32⟩ : BufTy).Contents (Elt Ideal)) (b : Fin 4) (s : Fin 4096) :
    Read.val_main_v3 (F := Ideal) x (ix2 b s) = rowMax x b s := by
  rw [Read.val_main_v3_apply, Read.val_main_v2_apply, Read.val_main_cst_0_apply, rowfold_apply, Ideal.ofBits_def,
    ofBits_neg_inf, Ideal.maximumf_def]
  rfl

/-- The row maximum broadcast along the last axis: entry (b, s, t) is row `s`'s maximum. -/
theorem rowMax_bcast_apply (x : (⟨S4x4096x128, .f32⟩ : BufTy).Contents (Elt Ideal)) (b : Fin 4) (s t : Fin 4096) :
    Read.val_main_v5 (F := Ideal) x (ix3 b s t) = rowMax x b s := by
  have e : Read.idx_main_v4 (Read.idx_main_v5 (ix3 b s t)) = ix2 b s :=
    funext fun a => Fin.ext (by match a with | ⟨0, _⟩ => rfl | ⟨1, _⟩ => rfl)
  rw [Read.val_main_v5_apply, Read.val_main_v4_apply, e, rowMax_apply]

/-- Entry (b, s, t) of the exponentials is the exponential of the shifted score. -/
theorem exp_apply (x : (⟨S4x4096x128, .f32⟩ : BufTy).Contents (Elt Ideal)) (b : Fin 4) (s t : Fin 4096) :
    Read.val_main_v7 (F := Ideal) x (ix3 b s t) = Ideal.exp (score x b s t - rowMax x b s) := by
  rw [Read.val_main_v7_apply, Read.val_main_v6_apply, scores_apply, rowMax_bcast_apply, Ideal.subf_def,
    Ideal.hostUnary_exp_def]

/-- Entry (b, s) of the sum-reduce is the specification's denominator. -/
theorem rowDen_apply (x : (⟨S4x4096x128, .f32⟩ : BufTy).Contents (Elt Ideal)) (b : Fin 4) (s : Fin 4096) :
    Read.val_main_v8 (F := Ideal) x (ix2 b s) = rowDen x b s := by
  rw [Read.val_main_v8_apply, Read.val_main_cst_1_apply, Ideal.ofBits_def, Ideal.ofBits_zero_f32]
  unfold rowDen
  refine congrArg (0 + ·) (Finset.sum_congr rfl fun t _ => ?_)
  have e : Read.idx_main_v8 (ix2 b s) t = ix3 b s t :=
    funext fun a => Fin.ext (by match a with | ⟨0, _⟩ => rfl | ⟨1, _⟩ => rfl | ⟨2, _⟩ => rfl)
  rw [e, exp_apply]

/-- The denominator broadcast along the last axis. -/
theorem rowDen_bcast_apply (x : (⟨S4x4096x128, .f32⟩ : BufTy).Contents (Elt Ideal)) (b : Fin 4) (s t : Fin 4096) :
    Read.val_main_v10 (F := Ideal) x (ix3 b s t) = rowDen x b s := by
  have e : Read.idx_main_v9 (Read.idx_main_v10 (ix3 b s t)) = ix2 b s :=
    funext fun a => Fin.ext (by match a with | ⟨0, _⟩ => rfl | ⟨1, _⟩ => rfl)
  rw [Read.val_main_v10_apply, Read.val_main_v9_apply, e, rowDen_apply]

/-- Entry (b, s, t) of the quotient is the softmax weight of row `t` for row `s`. -/
theorem weight_apply (x : (⟨S4x4096x128, .f32⟩ : BufTy).Contents (Elt Ideal)) (b : Fin 4) (s t : Fin 4096) :
    Read.val_main_v11 (F := Ideal) x (ix3 b s t)
      = Ideal.div (Ideal.exp (score x b s t - rowMax x b s)) (rowDen x b s) := by
  rw [Read.val_main_v11_apply, exp_apply, rowDen_bcast_apply, Ideal.hostDivf_def]

/-- The reference's result, as a function of the argument array over the extended reals, is attention. -/
theorem ref_is_attn (x : (⟨S4x4096x128, .f32⟩ : BufTy).Contents (Elt Ideal)) :
    Read.val_main_v12 (F := Ideal) x = Cert.Attention.attn x := by
  funext i
  obtain ⟨b, s, d, rfl⟩ : ∃ (b : Fin 4) (s : Fin 4096) (d : Fin 128), i = ix3 b s d := ⟨i 0, i 1, i 2, eq_ix3 i⟩
  rw [Read.val_main_v12_apply]
  unfold attn
  refine Finset.sum_congr rfl fun t _ => ?_
  have el : Read.lidx_main_v12 (ix3 b s d) t = ix3 b s t :=
    funext fun a => Fin.ext (by match a with | ⟨0, _⟩ => rfl | ⟨1, _⟩ => rfl | ⟨2, _⟩ => rfl)
  have er : Read.ridx_main_v12 (ix3 b s d) t = ix3 b t d :=
    funext fun a => Fin.ext (by match a with | ⟨0, _⟩ => rfl | ⟨1, _⟩ => rfl | ⟨2, _⟩ => rfl)
  rw [el, er, weight_apply]

end Cert.ReferenceIdeal.RefAttention

end
-- ==== Proof.FiniteInputs.lean ====
import proofs.«145749_j17008070492702_2_alg».proof.Defs
import Idealize.ShloMosaic.Lib.ReduceAll
import Idealize.ShloMosaic.Lib.ValueIdx

/-!
  What the precondition says of the argument array over the extended reals: the precondition is the conjunction,
  over every entry, of "the absolute value is below +∞"; an extended real whose absolute value `max a (-a)` is below
  +∞ is neither infinity, so it is a real number.
-/

noncomputable section

namespace Cert.FiniteInputs

open Idealize.ShloMosaic Idealize.ShloMosaic.ValueIdx

/-- The scalar shape has one index. -/
instance : Subsingleton Cert.Pre_finite_inputs.S_.Idx := ⟨fun _ _ => funext fun d => d.elim0⟩

/-- The bit pattern of +∞ denotes the top of the extended reals. -/
theorem ofBits_pos_inf : Ideal.ofBits .f32 0x7F800000#32 = (⊤ : EReal) := by
  simp [Ideal.ofBits, Ideal.ieee]

/-- An extended real whose absolute value is below +∞ is a real number. -/
theorem real_of_abs_lt_top (a : EReal) (h : max a (-a) < ⊤) : ∃ r : ℝ, a = ((r : ℝ) : EReal) := by
  induction a using EReal.rec with
  | bot => simp at h
  | coe r => exact ⟨r, rfl⟩
  | top => simp at h

/-- Under the precondition every entry of the argument array is a real number. -/
theorem real_of_pre [Cert.Pre_finite_inputs.Facts]
    (x : (⟨Cert.Pre_finite_inputs.S4x4096x128, .f32⟩ : BufTy).Contents (Elt Ideal))
    (h : Cert.Pre_finite_inputs.fn (F := Ideal) x = (fun _ => 1#1)) :
    ∀ i : Cert.Pre_finite_inputs.S4x4096x128.Idx, ∃ r : ℝ, x i = ((r : ℝ) : EReal) := by
  intro i
  have h0 := congrFun h ix0
  dsimp only [Cert.Pre_finite_inputs.fn] at h0
  have hi := Host.reduce_andi_all _ _ _ _ _ h0 i
  have hb : broadcastInDim Cert.Pre_finite_inputs.S4x4096x128 ![] Cert.Pre_finite_inputs.Facts.bcast_S_S4x4096x128
      (constant (F := Ideal) Cert.Pre_finite_inputs.S_ .f32 0x7F800000#32) i = Ideal.ofBits .f32 0x7F800000#32 :=
    rfl
  rw [cmpf_apply, hb, ofBits_pos_inf] at hi
  change BitVec.ofBool (decide (max (x i) (-(x i)) < (⊤ : EReal))) = 1#1 at hi
  refine real_of_abs_lt_top (x i) ?_
  by_cases hlt : max (x i) (-(x i)) < (⊤ : EReal)
  · exact hlt
  · rw [decide_eq_false hlt] at hi
    exact absurd hi (by decide)

end Cert.FiniteInputs

end
-- ==== Proof.lean ====
/-
  Unscaled self-attention, `softmax(x xᵀ) x` over x : f32[4, 4096, 128]: a flash-attention kernel against the plain
  jnp reference, equal over the extended reals for every input of finite numbers.

  The kernel walks a grid of 4 batches × 4 query tiles × 4 key blocks. For each query tile of 1024 rows it keeps, from
  one key block to the next, the running maximum `m` of the scores seen so far, the running denominator
  `l = ∑ exp(score − m)` and the running numerator `acc = ∑ exp(score − m) · value`; a new block rescales the old sums
  by `exp(m_old − m_new)` and adds its own terms; after the last block it stores `acc / l`. The reference computes all
  4096 scores of a row, subtracts their maximum `M`, exponentiates, divides by the sum `L` and takes the weighted sum
  of the rows. Over the reals `exp(a − b) · exp(s − a) = exp(s − b)`, so after the last block `m = M`, `l = L` and
  `acc = ∑ exp(score − M) · value`; and `L ≥ 1` is a nonzero real, so dividing the sum by `L` is dividing each term.
  The first rescaling multiplies the zero sums by `exp(−∞ − m) = 0`. Finiteness of the input is used exactly here:
  the scores and the maxima are then real numbers and the laws of ℝ apply.

  The modules: Spec (attention as one function of the input), LibOnlineSoftmax (the online recurrence equals the
  softmax, on the extended reals), Bridge (the specification in the online form), RefAttention (the reference's run
  is the specification), FiniteInputs (the precondition gives real entries); for each of the two kernel programs —
  the word-level one and its idealization, the same text — Shared / RunFirst / RunMid / RunLast (the body run
  symbolically in its three cases), Frame (what the scratch buffers and the output tile hold after each grid point,
  the invariant, the body obligation) and Launch (the region's launch, the query and the key window reading one array
  through half of its share each; the frame); and for the idealization Pieces, Stats, Payloads, Value (the stored
  values as the online recurrence row by row, and the result array as attention of the input).
-/
import proofs.«145749_j17008070492702_2_alg».proof.Defs
import proofs.«145749_j17008070492702_2_alg».proof.Proof.Gen.Kernel
import proofs.«145749_j17008070492702_2_alg».proof.Proof.Gen.KernelIdeal
import proofs.«145749_j17008070492702_2_alg».proof.Proof.Gen.ReferenceIdeal
import proofs.«145749_j17008070492702_2_alg».proof.Proof.Gen.Pre_finite_inputs
import proofs.«145749_j17008070492702_2_alg».proof.Proof.Gen.ReferenceIdeal.Run
import proofs.«145749_j17008070492702_2_alg».proof.Proof.Gen.ReferenceIdeal.Read
import proofs.«145749_j17008070492702_2_alg».proof.Proof.KLaunch
import proofs.«145749_j17008070492702_2_alg».proof.Proof.KIValue
import proofs.«145749_j17008070492702_2_alg».proof.Proof.RefAttention
import proofs.«145749_j17008070492702_2_alg».proof.Proof.FiniteInputs

noncomputable section

namespace Cert.Proof

open Idealize.ShloMosaic Idealize.ShloMosaic.TcCoe Idealize.SL.Sem

/-- The word-level kernel runs to the end, faults nowhere, and leaves its input as launched. -/
theorem frame_kernel : Cert.frame_Kernel := fun m ρ _ => Cert.Kernel.Flash.frame m ρ

/-- So does its idealization. -/
theorem frame_kernelIdeal : Cert.frame_KernelIdeal := fun m ρ _ => Cert.KernelIdeal.Flash.frame m ρ

/-- The reference is a straight line of host operations: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both programs end with attention of the input in their result arrays. -/
theorem algebraic : Cert.algebraic_KernelIdeal_ReferenceIdeal := by
  intro m ρ m' ρ' hpre hagree
  have hfin : ∀ (c : Dev Cert.KernelIdeal.nD) i, ∃ r : ℝ, Cert.KernelIdeal.Flash.X m c i = ((r : ℝ) : EReal) :=
    fun c => Cert.FiniteInputs.real_of_pre _ (hpre c)
  refine ⟨fun c => Cert.Attention.attn (Cert.KernelIdeal.Flash.X m c), Cert.KernelIdeal.Flash.run m ρ hfin, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v12_eq, Cert.ReferenceIdeal.RefAttention.ref_is_attn, hagree c]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
